-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x6 : Shape := ⟨2, ![2000000, 6]⟩
abbrev S2000000x2 : Shape := ⟨2, ![2000000, 2]⟩
abbrev S64x6 : Shape := ⟨2, ![64, 6]⟩
abbrev S64 : Shape := ⟨1, ![64]⟩
abbrev S_ : Shape := ⟨0, ![]⟩

class Facts : Prop where
  bcast_S_S2000000x6 : S_.BroadcastsInDim S2000000x6 (![] : Fin 0 → Fin S2000000x6.rank)
  reducesTo_S2000000x6_S_d0_1 : S2000000x6.ReducesTo [0, 1] S_
  h_S_ : 0 < S_.numel
  bcast_S_S64x6 : S_.BroadcastsInDim S64x6 (![] : Fin 0 → Fin S64x6.rank)
  reducesTo_S64x6_S_d0_1 : S64x6.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S2000000x6 .f32) (main_arg1 : IVec S2000000x2 32) (main_arg2 : FVec F S64x6 .f32) (main_arg3 : FVec F S64 .f32) (main_arg4 : FVec F S64 .f32) (main_arg5 : FVec F S64 .f32) : IVec S_ 1 :=
  let main_v0 : FVec F S2000000x6 .f32 := Host.absf main_arg0
  let main_cst : FVec F S_ .f32 := constant S_ .f32 0x7F800000#32
  let main_v1 : FVec F S2000000x6 .f32 := broadcastInDim S2000000x6 ![] bcast_S_S2000000x6 main_cst
  let main_v2 : IVec S2000000x6 1 := cmpf .olt main_v0 main_v1
  let main_c : IVec S_ 1 := constantI S_ 1 1#1
  let main_v3 : IVec S_ 1 := (fun x v => Host.reduce IntOp.andi x v reducesTo_S2000000x6_S_d0_1 h_S_) main_v2 main_c
  let main_v4 : FVec F S64x6 .f32 := Host.absf main_arg2
  let main_cst_0 : FVec F S_ .f32 := constant S_ .f32 0x7F800000#32
  let main_v5 : FVec F S64x6 .f32 := broadcastInDim S64x6 ![] bcast_S_S64x6 main_cst_0
  let main_v6 : IVec S64x6 1 := cmpf .olt main_v4 main_v5
  let main_c_1 : IVec S_ 1 := constantI S_ 1 1#1
  let main_v7 : IVec S_ 1 := (fun x v => Host.reduce IntOp.andi x v reducesTo_S64x6_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S2000000x6 : Shape := ⟨2, ![2000000, 6]⟩
abbrev S2000000x2 : Shape := ⟨2, ![2000000, 2]⟩
abbrev S64x6 : Shape := ⟨2, ![64, 6]⟩
abbrev S64 : Shape := ⟨1, ![64]⟩
abbrev S6x64 : Shape := ⟨2, ![6, 64]⟩
abbrev S1x64 : Shape := ⟨2, ![1, 64]⟩
abbrev S20000x6 : Shape := ⟨2, ![20000, 6]⟩
abbrev S20000x64 : Shape := ⟨2, ![20000, 64]⟩
abbrev S_ : Shape := ⟨0, ![]⟩
abbrev S2000000x64 : Shape := ⟨2, ![2000000, 64]⟩
abbrev S512x512x64 : Shape := ⟨3, ![512, 512, 64]⟩
abbrev S2000000x1 : Shape := ⟨2, ![2000000, 1]⟩
abbrev S2000000 : Shape := ⟨1, ![2000000]⟩

abbrev nBuf : Space → Nat
  | .hbm => 48
  | .vmem => 18
  | .smem => 0
  | _ => 0

abbrev bufTy : (tb : Table) → Fin (tcTables nBuf tb) → BufTy
  | .hbm, ⟨0, _⟩ => ⟨S2000000x6, .f32⟩
  | .hbm, ⟨1, _⟩ => ⟨S2000000x2, .i32⟩
  | .hbm, ⟨2, _⟩ => ⟨S64x6, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S6x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S_, .f32⟩
  | .hbm, ⟨13, _⟩ => ⟨S1x64, .f32⟩
  | .hbm, ⟨14, _⟩ => ⟨S1x64, .f32⟩
  | .hbm, ⟨15, _⟩ => ⟨S_, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S_, .f32⟩
  | .hbm, ⟨21, _⟩ => ⟨S1x64, .f32⟩
  | .hbm, ⟨22, _⟩ => ⟨S1x64, .f32⟩
  | .hbm, ⟨23, _⟩ => ⟨S2000000x64, .f32⟩
  | .hbm, ⟨24, _⟩ => ⟨S_, .f32⟩
  | .hbm, ⟨25, _⟩ => ⟨S512x512x64, .f32⟩
  | .hbm, ⟨26, _⟩ => ⟨S2000000x1, .i32⟩
  | .hbm, ⟨27, _⟩ => ⟨S2000000, .i32⟩
  | .hbm, ⟨28, _⟩ => ⟨S2000000x1, .i32⟩
  | .hbm, ⟨29, _⟩ => ⟨S2000000, .i32⟩
  | .hbm, ⟨30, _⟩ => ⟨S_, .i32⟩
  | .hbm, ⟨31, _⟩ => ⟨S2000000, .i32⟩
  | .hbm, ⟨32, _⟩ => ⟨S2000000, .i1⟩
  | .hbm, ⟨33, _⟩ => ⟨S_, .i32⟩
  | .hbm, ⟨34, _⟩ => ⟨S2000000, .i32⟩
  | .hbm, ⟨35, _⟩ => ⟨S2000000, .i32⟩
  | .hbm, ⟨36, _⟩ => ⟨S2000000, .i32⟩
  | .hbm, ⟨37, _⟩ => ⟨S_, .i32⟩
  | .hbm, ⟨38, _⟩ => ⟨S2000000, .i32⟩
  | .hbm, ⟨39, _⟩ => ⟨S2000000, .i1⟩
  | .hbm, ⟨40, _⟩ => ⟨S_, .i32⟩
  | .hbm, ⟨41, _⟩ => ⟨S2000000, .i32⟩
  | .hbm, ⟨42, _⟩ => ⟨S2000000, .i32⟩
  | .hbm, ⟨43, _⟩ => ⟨S2000000, .i32⟩
  | .hbm, ⟨44, _⟩ => ⟨S2000000x1, .i32⟩
  | .hbm, ⟨45, _⟩ => ⟨S2000000x1, .i32⟩
  | .hbm, ⟨46, _⟩ => ⟨S2000000x2, .i32⟩
  | .hbm, ⟨47, _⟩ => ⟨S512x512x64, .f32⟩
  | .local _ .vmem, ⟨0, _⟩ => ⟨S20000x6, .f32⟩
  | .local _ .vmem, ⟨1, _⟩ => ⟨S20000x6, .f32⟩
  | .local _ .vmem, ⟨2, _⟩ => ⟨S6x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S20000x6, .f32⟩
  | .local _ .vmem, ⟨9, _⟩ => ⟨S20000x6, .f32⟩
  | .local _ .vmem, ⟨10, _⟩ => ⟨S6x64, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S20000x64, .f32⟩
  | .local _ .vmem, ⟨17, _⟩ => ⟨S20000x64, .f32⟩
  | _, _ => ⟨S2000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v28 : BitVec 1 := Scalar.cmpi .eq arg0 c99_i32
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S20000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S20000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S64x6_S6x64_1_0 : S64x6.Transposes [1, 0] S6x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S20000x6_S20000x6_0_0 : ∀ a, (![0, 0] : Fin 2 → Nat) a + S20000x6.size a ≤ S20000x6.size a
  h_S20000x6 : 0 < S20000x6.numel
  bitsLt_bf16_f32 : FTy.bits .bf16 < FTy.bits .f32
  inb_S6x64_S6x64_0_0 : ∀ a, (![0, 0] : Fin 2 → Nat) a + S6x64.size a ≤ S6x64.size a
  h_S6x64 : 0 < S6x64.numel
  shapeCasts_S6x64_S6x64 : S6x64.ShapeCasts S6x64
  broadcasts_S1x64_S20000x64 : S1x64.Broadcasts S20000x64
  reduces_S20000x64_S64 : S20000x64.Reduces [0] S64
  bcast_S_S1x64 : S_.BroadcastsInDim S1x64 (![] : Fin 0 → Fin S1x64.rank)
  inb_S20000x64_S20000x64_0_0 : ∀ a, (![0, 0] : Fin 2 → Nat) a + S20000x64.size a ≤ S20000x64.size a
  h_S20000x64 : 0 < S20000x64.numel
  bcast_S_S512x512x64 : S_.BroadcastsInDim S512x512x64 (![] : Fin 0 → Fin S512x512x64.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  dot_S20000x6_S6x64_S20000x64_1_0_0_1_n_n_wf : DotDims.WF S20000x6 S6x64 S20000x64 [1] [0] [0] [1] [] []
  scatter_S512x512x64_S2000000x2_S2000000x64_1_01_01_1_wf : ScatterDims.WF S512x512x64 S2000000x2 S2000000x64 [1] [0, 1] [0, 1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x6.size a ≤ S2000000x6.size a
  hwx0_0 : ∀ i : grid0.Coords, EltTy.bits .f32 = 32 ∨ (Rect.block (s := S2000000x6) S20000x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x64.size a ≤ S6x64.size a
  hwx0_1 : ∀ i : grid0.Coords, EltTy.bits .f32 = 32 ∨ (Rect.block (s := S6x64) S6x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x6.size a ≤ S2000000x6.size a
  hwx1_0 : ∀ i : grid1.Coords, EltTy.bits .f32 = 32 ∨ (Rect.block (s := S2000000x6) S20000x6.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6x64.size a ≤ S6x64.size a
  hwx1_1 : ∀ i : grid1.Coords, EltTy.bits .f32 = 32 ∨ (Rect.block (s := S6x64) S6x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S20000x64.size a ≤ S2000000x64.size a
  hwx1_7 : ∀ i : grid1.Coords, EltTy.bits .f32 = 32 ∨ (Rect.block (s := S2000000x64) S20000x64.size (cc1_transform_7 i) (hinb1_7 i)).WholeWords (EltTy.packing .f32)

variable [Facts₀]

def dot_S20000x6_S6x64_S20000x64_1_0_0_1_n_n : DotDims S20000x6 S6x64 S20000x64 where
  lhsContracting := [1]
  rhsContracting := [0]
  lhsNonContracting := [0]
  rhsNonContracting := [1]
  lhsBatch := []
  rhsBatch := []
  wf := dot_S20000x6_S6x64_S20000x64_1_0_0_1_n_n_wf
def scatter_S512x512x64_S2000000x2_S2000000x64_1_01_01_1 : ScatterDims S512x512x64 S2000000x2 S2000000x64 where
  updateWindowDims := [1]
  insertedWindowDims := [0, 1]
  scatterDimsToOperandDims := [0, 1]
  indexVectorDim := 1
  wf := scatter_S512x512x64_S2000000x2_S2000000x64_1_01_01_1_wf

abbrev win0_0 : Pipeline.Window sig grid0 :=
  Pipeline.Window.ofSpec (Memref.whole main_arg0) S20000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S6x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4_0) S1x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_1) S1x64.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S20000x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S6x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S20000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2000000x6 : Shape := ⟨2, ![2000000, 6]⟩
abbrev S2000000x2 : Shape := ⟨2, ![2000000, 2]⟩
abbrev S64x6 : Shape := ⟨2, ![64, 6]⟩
abbrev S64 : Shape := ⟨1, ![64]⟩
abbrev S6x64 : Shape := ⟨2, ![6, 64]⟩
abbrev S2000000x64 : Shape := ⟨2, ![2000000, 64]⟩
abbrev S1x64 : Shape := ⟨2, ![1, 64]⟩
abbrev S_ : Shape := ⟨0, ![]⟩
abbrev S512x512x64 : Shape := ⟨3, ![512, 512, 64]⟩
abbrev S2000000x1 : Shape := ⟨2, ![2000000, 1]⟩
abbrev S2000000 : Shape := ⟨1, ![2000000]⟩

abbrev nBuf : Space → Nat
  | .hbm => 68
  | .vmem => 0
  | .smem => 0
  | _ => 0

abbrev bufTy : (tb : Table) → Fin (tcTables nBuf tb) → BufTy
  | .hbm, ⟨0, _⟩ => ⟨S2000000x6, .f32⟩
  | .hbm, ⟨1, _⟩ => ⟨S2000000x2, .i32⟩
  | .hbm, ⟨2, _⟩ => ⟨S64x6, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S6x64, .f32⟩
  | .hbm, ⟨7, _⟩ => ⟨S2000000x64, .f32⟩
  | .hbm, ⟨8, _⟩ => ⟨S1x64, .f32⟩
  | .hbm, ⟨9, _⟩ => ⟨S2000000x64, .f32⟩
  | .hbm, ⟨10, _⟩ => ⟨S2000000x64, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S1x64, .f32⟩
  | .hbm, ⟨17, _⟩ => ⟨S2000000x64, .f32⟩
  | .hbm, ⟨18, _⟩ => ⟨S2000000x64, .f32⟩
  | .hbm, ⟨19, _⟩ => ⟨S2000000x64, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S1x64, .f32⟩
  | .hbm, ⟨26, _⟩ => ⟨S2000000x64, .f32⟩
  | .hbm, ⟨27, _⟩ => ⟨S2000000x64, .f32⟩
  | .hbm, ⟨28, _⟩ => ⟨S1x64, .f32⟩
  | .hbm, ⟨29, _⟩ => ⟨S2000000x64, .f32⟩
  | .hbm, ⟨30, _⟩ => ⟨S2000000x64, .f32⟩
  | .hbm, ⟨31, _⟩ => ⟨S_, .f32⟩
  | .hbm, ⟨32, _⟩ => ⟨S64, .f32⟩
  | .hbm, ⟨33, _⟩ => ⟨S64, .f32⟩
  | .hbm, ⟨34, _⟩ => ⟨S64, .f32⟩
  | .hbm, ⟨35, _⟩ => ⟨S1x64, .f32⟩
  | .hbm, ⟨36, _⟩ => ⟨S2000000x64, .f32⟩
  | .hbm, ⟨37, _⟩ => ⟨S2000000x64, .f32⟩
  | .hbm, ⟨38, _⟩ => ⟨S1x64, .f32⟩
  | .hbm, ⟨39, _⟩ => ⟨S2000000x64, .f32⟩
  | .hbm, ⟨40, _⟩ => ⟨S2000000x64, .f32⟩
  | .hbm, ⟨41, _⟩ => ⟨S_, .f32⟩
  | .hbm, ⟨42, _⟩ => ⟨S2000000x64, .f32⟩
  | .hbm, ⟨43, _⟩ => ⟨S2000000x64, .f32⟩
  | .hbm, ⟨44, _⟩ => ⟨S_, .f32⟩
  | .hbm, ⟨45, _⟩ => ⟨S512x512x64, .f32⟩
  | .hbm, ⟨46, _⟩ => ⟨S2000000x1, .i32⟩
  | .hbm, ⟨47, _⟩ => ⟨S2000000, .i32⟩
  | .hbm, ⟨48, _⟩ => ⟨S2000000x1, .i32⟩
  | .hbm, ⟨49, _⟩ => ⟨S2000000, .i32⟩
  | .hbm, ⟨50, _⟩ => ⟨S_, .i32⟩
  | .hbm, ⟨51, _⟩ => ⟨S2000000, .i32⟩
  | .hbm, ⟨52, _⟩ => ⟨S2000000, .i1⟩
  | .hbm, ⟨53, _⟩ => ⟨S_, .i32⟩
  | .hbm, ⟨54, _⟩ => ⟨S2000000, .i32⟩
  | .hbm, ⟨55, _⟩ => ⟨S2000000, .i32⟩
  | .hbm, ⟨56, _⟩ => ⟨S2000000, .i32⟩
  | .hbm, ⟨57, _⟩ => ⟨S_, .i32⟩
  | .hbm, ⟨58, _⟩ => ⟨S2000000, .i32⟩
  | .hbm, ⟨59, _⟩ => ⟨S2000000, .i1⟩
  | .hbm, ⟨60, _⟩ => ⟨S_, .i32⟩
  | .hbm, ⟨61, _⟩ => ⟨S2000000, .i32⟩
  | .hbm, ⟨62, _⟩ => ⟨S2000000, .i32⟩
  | .hbm, ⟨63, _⟩ => ⟨S2000000, .i32⟩
  | .hbm, ⟨64, _⟩ => ⟨S2000000x1, .i32⟩
  | .hbm, ⟨65, _⟩ => ⟨S2000000x1, .i32⟩
  | .hbm, ⟨66, _⟩ => ⟨S2000000x2, .i32⟩
  | .hbm, ⟨67, _⟩ => ⟨S512x512x64, .f32⟩
  | _, _ => ⟨S2000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_call0_cst : Ref sig .tc := ⟨.hbm, 41, rfl⟩
abbrev main_call0_v0 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_c_7 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]

class Facts₀ : Prop where
  transposes_S64x6_S6x64_1_0 : S64x6.Transposes [1, 0] S6x64
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  reducesTo_S2000000x64_S64_d0 : S2000000x64.ReducesTo [0] S64
  h_S_ : 0 < S_.numel
  bcast_S_S64 : S_.BroadcastsInDim S64 (![] : Fin 0 → Fin S64.rank)
  bcast_S_S2000000x64 : S_.BroadcastsInDim S2000000x64 (![] : Fin 0 → Fin S2000000x64.rank)
  bcast_S_S512x512x64 : S_.BroadcastsInDim S512x512x64 (![] : Fin 0 → Fin S512x512x64.rank)
  slices_S2000000x2_S2000000x1_0_0 : S2000000x2.Slices ![0, 0] S2000000x1
  shapeCasts_S2000000x1_S2000000 : S2000000x1.ShapeCasts S2000000
  slices_S2000000x2_S2000000x1_0_1 : S2000000x2.Slices ![0, 1] S2000000x1
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x1_S2000000x1_S2000000x2_d1 : Shape.Concatenates [S2000000x1, S2000000x1] S2000000x2 1
  dot_S2000000x6_S6x64_S2000000x64_1_0_0_1_n_n_wf : DotDims.WF S2000000x6 S6x64 S2000000x64 [1] [0] [0] [1] [] []
  scatter_S512x512x64_S2000000x2_S2000000x64_1_01_01_1_wf : ScatterDims.WF S512x512x64 S2000000x2 S2000000x64 [1] [0, 1] [0, 1] 1

variable [Facts₀]

def dot_S2000000x6_S6x64_S2000000x64_1_0_0_1_n_n : DotDims S2000000x6 S6x64 S2000000x64 where
  lhsContracting := [1]
  rhsContracting := [0]
  lhsNonContracting := [0]
  rhsNonContracting := [1]
  lhsBatch := []
  rhsBatch := []
  wf := dot_S2000000x6_S6x64_S2000000x64_1_0_0_1_n_n_wf
def scatter_S512x512x64_S2000000x2_S2000000x64_1_01_01_1 : ScatterDims S512x512x64 S2000000x2 S2000000x64 where
  updateWindowDims := [1]
  insertedWindowDims := [0, 1]
  scatterDimsToOperandDims := [0, 1]
  indexVectorDim := 1
  wf := scatter_S512x512x64_S2000000x2_S2000000x64_1_01_01_1_wf

class Facts : Prop extends Facts₀ where

variable [Facts]
-- ==== Proof.KRegion0Runs.lean ====
/-
  The statistics kernel (the first of the program's two kernels) on its grid of 100 blocks of 20 000 points:
  its two conditionals decided over the grid, where its output blocks are idle, and its body run once per kind
  of point — the first (the running sums are zeroed, then accumulated), a middle one (accumulated), the last
  (accumulated, then copied to the output blocks). Stated at any float instance.
-/
import proofs.«164247_j79989470921164_2_alg».proof.Proof.Gen.Kernel.Launch
import proofs.«164247_j79989470921164_2_alg».proof.Proof.Gen.Kernel.Skeleton
import proofs.«164247_j79989470921164_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The statistics kernel's two conditionals, and where its outputs are idle

The body zeroes its two running sums at the grid's first point, adds the block's column sums (of the linear layer
and of its square) at every point, and copies the running sums to the two output blocks at the last point. -/

/-- "This is the first point": the condition under which the running sums are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 100 = 0 :=
  (by decide +kernel : ∀ t : Fin grid0.N, cond0_0 (grid0.coords t) ↔ t.val % 100 = 0)

/-- "This is the last point": the condition under which the running sums are copied out. -/
abbrev cond0_1 (i : grid0.Coords) : Prop := k0_cond2 i = 1#1
theorem hcond0_1 : ∀ t : Fin cfg0.N, cond0_1 (grid0.coords t) ↔ t.val % 100 = 99 :=
  (by decide +kernel : ∀ t : Fin grid0.N, cond0_1 (grid0.coords t) ↔ t.val % 100 = 99)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the two output blocks are neither stored into nor written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-- Each window's current staging memref at point `t`, and its wholeness. -/
abbrev ms0_0 (t : Fin cfg0.N) : Memref sig .tc .vmem S20000x6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
/-- The two running sums: whole scoped buffers of the kernel's own. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view
abbrev VO0_3 : View sig .tc .vmem S1x64 .f32 := (Memref.whole cc0_stg3_0 : Memref sig .tc .vmem S1x64 .f32).view
abbrev VO0_4 : View sig .tc .vmem S1x64 .f32 := (Memref.whole cc0_stg4_0 : Memref sig .tc .vmem S1x64 .f32).view

set_option maxHeartbeats 1000000 in
/-- A MIDDLE point (neither first nor last): from the three input blocks at their contents, the two output blocks
    at contents handed back untouched and the two running sums at what the point before left, the body runs to its
    return with each running sum's buffer rewritten by the pieces found here. -/
noncomputable def kernelRun0_B (c : Dev nD) (i : grid0.Coords) (arg1 : Memref sig .tc .vmem S20000x6 .f32) (harg1 : arg1.IsWhole) (arg2 : Memref sig .tc .vmem S6x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S20000x6 .f32) (x1 : Vec F S6x64 .f32) (x2 : Vec F S1x64 .f32) (xs0 xs1 : Vec F S1x64 .f32) :
    Σ' (LS0 : List (View.Piece (Elt F) S1x64 .f32)), { LS1 : List (View.Piece (Elt F) S1x64 .f32) //
      ∀ (xi3 xi4 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _; iexact HS0
    iexists _; iexact HS1

set_option maxHeartbeats 1000000 in
/-- The FIRST point: the running sums hold anything on entry; the body zeroes them, then accumulates. -/
noncomputable def kernelRun0_A (c : Dev nD) (i : grid0.Coords) (arg1 : Memref sig .tc .vmem S20000x6 .f32) (harg1 : arg1.IsWhole) (arg2 : Memref sig .tc .vmem S6x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S20000x6 .f32) (x1 : Vec F S6x64 .f32) (x2 : Vec F S1x64 .f32) :
    Σ' (LS0 : List (View.Piece (Elt F) S1x64 .f32)), { LS1 : List (View.Piece (Elt F) S1x64 .f32) //
      ∀ (xi3 xi4 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, %hfs0, HS0⟩, ⟨%ds1, %fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _; iexact HS0
    iexists _; iexact HS1

set_option maxHeartbeats 1000000 in
/-- The LAST point: the running sums are accumulated once more and then copied to the two output blocks, which
    hold anything on entry. -/
noncomputable def kernelRun0_C (c : Dev nD) (i : grid0.Coords) (arg1 : Memref sig .tc .vmem S20000x6 .f32) (harg1 : arg1.IsWhole) (arg2 : Memref sig .tc .vmem S6x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S20000x6 .f32) (x1 : Vec F S6x64 .f32) (x2 : Vec F S1x64 .f32) (xs0 xs1 : Vec F S1x64 .f32) :
    Σ' (L3 : List (View.Piece (Elt F) S1x64 .f32)) (L4 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, %hf3, H3⟩, ⟨%d4, %f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    isplitl [HS0]
    · iexists _; iexact HS0
    iexists _; iexact HS1

/-- The ten scoped buffers of the other kernel, each whole at some contents: what rides through this kernel's
    invariant untouched. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant of this kernel's region, with the two running sums as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherStaging (F := F) c) ∗ (∃ r, prngReg c r)) := by
  unfold Pipeline.ΦA otherStaging; rw [scopedRest0_eq]; simp only [scM0_0, scM0_1, owns_whole]; try rfl

end Cert.Kernel.Hand

end
-- ==== Proof.KRegion0.lean ====
/-
  The statistics kernel's region, at the contents `V` its core's buffers hold when the region is entered: each
  window's block at a point; what each kind of point (first, middle, last) leaves in the two running sums and in the
  two output blocks; those contents point by point (the accumulation); the region's invariant (before the first point
  the running sums hold anything, afterwards what the point before left); the proof data; and the body obligation at
  every point. Stated at any float instance.
-/
import proofs.«164247_j79989470921164_2_alg».proof.Proof.KRegion0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's runs at a point's own memrefs -/

theorem nc0_of (t : Fin cfg0.N) (h : ¬t.val % 100 = 0) : ¬cond0_0 (grid0.coords t) := fun hc => h ((hcond0_0 t).mp hc)
theorem nc1_of (t : Fin cfg0.N) (h : ¬t.val % 100 = 99) : ¬cond0_1 (grid0.coords t) := fun hc => h ((hcond0_1 t).mp hc)

abbrev runA (c : Dev nD) (t : Fin cfg0.N) (hc0 : cond0_0 (grid0.coords t)) (hc1 : ¬cond0_1 (grid0.coords t)) (x0 : Vec F S20000x6 .f32) (x1 : Vec F S6x64 .f32) (x2 : Vec F S1x64 .f32) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2
abbrev runB (c : Dev nD) (t : Fin cfg0.N) (hc0 : ¬cond0_0 (grid0.coords t)) (hc1 : ¬cond0_1 (grid0.coords t)) (x0 : Vec F S20000x6 .f32) (x1 : Vec F S6x64 .f32) (x2 : Vec F S1x64 .f32) (xs0 xs1 : Vec F S1x64 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2 xs0 xs1
abbrev runC (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2 xs0 xs1

/-- A placeholder for an output block at a point that neither stores into it nor writes it back: nothing consults it. -/
def idleOut : Vec F S1x64 .f32 := VO0_3.read (Elt F) VO0_3.junk

/-- What the first point leaves in the two running sums: its stores read back. -/
def soutA (c : Dev nD) (t : Fin cfg0.N) (hc0 : cond0_0 (grid0.coords t)) (hc1 : ¬cond0_1 (grid0.coords t)) (x0 : Vec F S20000x6 .f32) (x1 : Vec F S6x64 .f32) (x2 : Vec F S1x64 .f32) : Vec F S1x64 .f32 × Vec F S1x64 .f32 :=
  (VS0_0.read (Elt F) (VS0_0.writes (Elt F) VS0_0.junk (runA c t hc0 hc1 x0 x1 x2).1),
   VS0_1.read (Elt F) (VS0_1.writes (Elt F) VS0_1.junk (runA c t hc0 hc1 x0 x1 x2).2.1))
theorem scoverA_0 (c : Dev nD) (t : Fin cfg0.N) (hc0 : cond0_0 (grid0.coords t)) (hc1 : ¬cond0_1 (grid0.coords t)) (x0 : Vec F S20000x6 .f32) (x1 : Vec F S6x64 .f32) (x2 : Vec F S1x64 .f32) (y : S1x64.Idx) :
    ∃ pc ∈ (runA c t hc0 hc1 x0 x1 x2).1, y ∈ pc.1.set :=
  View.cover_of_tiledL (runA c t hc0 hc1 x0 x1 x2).1 S1x64.size (by sl_kernel_rfl) y
theorem scoverA_1 (c : Dev nD) (t : Fin cfg0.N) (hc0 : cond0_0 (grid0.coords t)) (hc1 : ¬cond0_1 (grid0.coords t)) (x0 : Vec F S20000x6 .f32) (x1 : Vec F S6x64 .f32) (x2 : Vec F S1x64 .f32) (y : S1x64.Idx) :
    ∃ pc ∈ (runA c t hc0 hc1 x0 x1 x2).2.1, y ∈ pc.1.set :=
  View.cover_of_tiledL (runA c t hc0 hc1 x0 x1 x2).2.1 S1x64.size (by sl_kernel_rfl) y

/-- What a middle point leaves in the two running sums, over what the point before left. -/
def soutB (c : Dev nD) (t : Fin cfg0.N) (hc0 : ¬cond0_0 (grid0.coords t)) (hc1 : ¬cond0_1 (grid0.coords t)) (x0 : Vec F S20000x6 .f32) (x1 : Vec F S6x64 .f32) (x2 : Vec F S1x64 .f32) (xs0 xs1 : Vec F S1x64 .f32) : Vec F S1x64 .f32 × Vec F S1x64 .f32 :=
  (VS0_0.read (Elt F) (VS0_0.writes (Elt F) VS0_0.junk (runB c t hc0 hc1 x0 x1 x2 xs0 xs1).1),
   VS0_1.read (Elt F) (VS0_1.writes (Elt F) VS0_1.junk (runB c t hc0 hc1 x0 x1 x2 xs0 xs1).2.1))
theorem scoverB_0 (c : Dev nD) (t : Fin cfg0.N) (hc0 : ¬cond0_0 (grid0.coords t)) (hc1 : ¬cond0_1 (grid0.coords t)) (x0 : Vec F S20000x6 .f32) (x1 : Vec F S6x64 .f32) (x2 : Vec F S1x64 .f32) (xs0 xs1 : Vec F S1x64 .f32) (y : S1x64.Idx) :
    ∃ pc ∈ (runB c t hc0 hc1 x0 x1 x2 xs0 xs1).1, y ∈ pc.1.set :=
  View.cover_of_tiledL (runB c t hc0 hc1 x0 x1 x2 xs0 xs1).1 S1x64.size (by sl_kernel_rfl) y
theorem scoverB_1 (c : Dev nD) (t : Fin cfg0.N) (hc0 : ¬cond0_0 (grid0.coords t)) (hc1 : ¬cond0_1 (grid0.coords t)) (x0 : Vec F S20000x6 .f32) (x1 : Vec F S6x64 .f32) (x2 : Vec F S1x64 .f32) (xs0 xs1 : Vec F S1x64 .f32) (y : S1x64.Idx) :
    ∃ pc ∈ (runB c t hc0 hc1 x0 x1 x2 xs0 xs1).2.1, y ∈ pc.1.set :=
  View.cover_of_tiledL (runB c t hc0 hc1 x0 x1 x2 xs0 xs1).2.1 S1x64.size (by sl_kernel_rfl) y

/-- What the last point leaves in the two output blocks and in the two running sums. -/
def outC (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) : Vec F S1x64 .f32 × Vec F S1x64 .f32 :=
  (VO0_3.read (Elt F) (VO0_3.writes (Elt F) VO0_3.junk (runC c t hc0 hc1 x0 x1 x2 xs0 xs1).1),
   VO0_4.read (Elt F) (VO0_4.writes (Elt F) VO0_4.junk (runC c t hc0 hc1 x0 x1 x2 xs0 xs1).2.1))
def soutC (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) : Vec F S1x64 .f32 × Vec F S1x64 .f32 :=
  (VS0_0.read (Elt F) (VS0_0.writes (Elt F) VS0_0.junk (runC c t hc0 hc1 x0 x1 x2 xs0 xs1).2.2.1),
   VS0_1.read (Elt F) (VS0_1.writes (Elt F) VS0_1.junk (runC c t hc0 hc1 x0 x1 x2 xs0 xs1).2.2.2.1))
theorem coverC_3 (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) (y : S1x64.Idx) :
    ∃ pc ∈ (runC c t hc0 hc1 x0 x1 x2 xs0 xs1).1, y ∈ pc.1.set :=
  View.cover_of_tiledL (runC c t hc0 hc1 x0 x1 x2 xs0 xs1).1 S1x64.size (by sl_kernel_rfl) y
theorem coverC_4 (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) (y : S1x64.Idx) :
    ∃ pc ∈ (runC c t hc0 hc1 x0 x1 x2 xs0 xs1).2.1, y ∈ pc.1.set :=
  View.cover_of_tiledL (runC c t hc0 hc1 x0 x1 x2 xs0 xs1).2.1 S1x64.size (by sl_kernel_rfl) y
theorem scoverC_0 (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) (y : S1x64.Idx) :
    ∃ pc ∈ (runC c t hc0 hc1 x0 x1 x2 xs0 xs1).2.2.1, y ∈ pc.1.set :=
  View.cover_of_tiledL (runC c t hc0 hc1 x0 x1 x2 xs0 xs1).2.2.1 S1x64.size (by sl_kernel_rfl) y
theorem scoverC_1 (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) (y : S1x64.Idx) :
    ∃ pc ∈ (runC c t hc0 hc1 x0 x1 x2 xs0 xs1).2.2.2.1, y ∈ pc.1.set :=
  View.cover_of_tiledL (runC c t hc0 hc1 x0 x1 x2 xs0 xs1).2.2.2.1 S1x64.size (by sl_kernel_rfl) y

/-! ## The accumulation, point by point -/

/-- What the two output blocks' staging buffers (first pair) and the two running sums (second pair) hold after the body
    at position `n`: the first point from nothing; every later point over the running sums the point before left; the
    output blocks named only at the last point. -/
def outsAt0 (c : Dev nD) : (n : ℕ) → n < cfg0.N → (Vec F S1x64 .f32 × Vec F S1x64 .f32) × (Vec F S1x64 .f32 × Vec F S1x64 .f32)
  | 0, hn => ((idleOut, idleOut),
      soutA c ⟨0, hn⟩ ((hcond0_0 ⟨0, hn⟩).mpr (Nat.zero_mod _)) (nc1_of ⟨0, hn⟩ (fun h => absurd h (by decide : ¬(0 : ℕ) % 100 = 99))) (iblk0 V c 0 ⟨0, hn⟩) (iblk0 V c 1 ⟨0, hn⟩) (iblk0 V c 2 ⟨0, hn⟩))
  | n + 1, hn =>
    if h1 : (n + 1) % 100 = 99 then
      (outC c ⟨n + 1, hn⟩ (nc0_of ⟨n + 1, hn⟩ (by have hN : n + 1 < 100 := lt_of_lt_of_eq hn (show cfg0.N = 100 from N_0); show ¬(n + 1) % 100 = 0; omega)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       soutC c ⟨n + 1, hn⟩ (nc0_of ⟨n + 1, hn⟩ (by have hN : n + 1 < 100 := lt_of_lt_of_eq hn (show cfg0.N = 100 from N_0); show ¬(n + 1) % 100 = 0; omega)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
    else
      ((idleOut, idleOut),
       soutB c ⟨n + 1, hn⟩ (nc0_of ⟨n + 1, hn⟩ (by have hN : n + 1 < 100 := lt_of_lt_of_eq hn (show cfg0.N = 100 from N_0); show ¬(n + 1) % 100 = 0; omega)) (nc1_of ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 100 = 0) (h1 : ¬t.val % 100 = 99) :
    outsAt0 V c t.val t.isLt = ((idleOut, idleOut), soutA c t ((hcond0_0 t).mpr h0) (nc1_of t h1) (iblk0 V c 0 t) (iblk0 V c 1 t) (iblk0 V c 2 t)) := by
  obtain ⟨n, hn⟩ := t
  cases n with
  | zero => exact rfl
  | succ n => exact absurd h0 (by have hN : n + 1 < 100 := lt_of_lt_of_eq hn (show cfg0.N = 100 from N_0); show ¬(n + 1) % 100 = 0; omega)

theorem outsAt0_B (c : Dev nD) (t : Fin cfg0.N) (h0 : ¬t.val % 100 = 0) (h1 : ¬t.val % 100 = 99) :
    outsAt0 V c t.val t.isLt = ((idleOut, idleOut), soutB c t (nc0_of t h0) (nc1_of t h1) (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h1).trans rfl

theorem outsAt0_C (c : Dev nD) (t : Fin cfg0.N) (h0 : ¬t.val % 100 = 0) (h1 : t.val % 100 = 99) :
    outsAt0 V c t.val t.isLt = (outC c t (nc0_of t h0) ((hcond0_1 t).mpr h1) (iblk0 V c 0 t) (iblk0 V c 1 t) (iblk0 V c 2 t)
        (outsAt0 V c (t.val - 1) (Nat.lt_of_le_of_lt (Nat.sub_le _ _) t.isLt)).2.1 (outsAt0 V c (t.val - 1) (Nat.lt_of_le_of_lt (Nat.sub_le _ _) t.isLt)).2.2,
      soutC c t (nc0_of t h0) ((hcond0_1 t).mpr h1) (iblk0 V c 0 t) (iblk0 V c 1 t) (iblk0 V c 2 t)
        (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd (Nat.zero_mod _) h0
  | succ n => exact (dif_pos h1).trans rfl

/-! ## The region's invariant -/

/-- Before position `n`: before the first point the class's invariant (the running sums at anything); afterwards the
    running sums at what the point before left, the other kernel's staging buffers at anything, the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ otherStaging (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ otherStaging (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ otherStaging (F := F) c) ∗ (∃ r, prngReg c r)) := by
  cases n with
  | zero => exact absurd rfl hz
  | succ n => rfl

/-! ## The proof data -/

/-- The proof data of the statistics kernel's pipeline on core `c`: the arrays as the region finds them; after the
    body at point `t` each input's buffer at its block and the two outputs' at the accumulation's first pair; the
    invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1.1
    | ⟨4, _⟩ => (outsAt0 V c t.val t.isLt).1.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1.1 := by dsimp only [dat0]
theorem after0_4 (c : Dev nD) (t : Fin cfg0.N) : (dat0 V c).after 4 t = (outsAt0 V c t.val t.isLt).1.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.Kernel.Hand

end
-- ==== Proof.KRegion0Body.lean ====
/-
  The statistics kernel's body obligation: at every grid point, from the region's invariant and each window's
  current staging buffer at what the pipeline hands it, the body runs and leaves the invariant of the next point
  and each buffer at what the proof data state. The three kinds of point (first, middle, last) are told apart by the
  two conditionals' closed forms; at the first point the running sums come out of the class's invariant at
  anything, afterwards at what the point before left.
-/
import proofs.«164247_j79989470921164_2_alg».proof.Proof.KRegion0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 100 := lt_of_lt_of_eq t.isLt (show cfg0.N = 100 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 100 = 0
  · -- the first point
    have h1 : ¬t.val % 100 = 99 := by omega
    have hz : t.val = 0 := by omega
    rw [Dat.leavesExact_idle (dat0 V c) 3 t (idleAt0_3 t (nc1_of t h1)) (noFlush0_3 t (nc1_of t h1))]
    rw [Dat.leavesExact_idle (dat0 V c) 4 t (idleAt0_4 t (nc1_of t h1)) (noFlush0_4 t (nc1_of t h1))]
    rw [outsAt0_A V c t h0 h1]
    unfold soutA; (try dsimp only)
    rw [PhiS_castSucc V c t, PhiS_zero V c _ _ hz, PhiA0_eq]
    iintro ⟨⟨⟨HS0, HS1, Hrest⟩, Hg⟩, Ho, ⟨%d0, H0⟩, ⟨%d1, H1⟩, ⟨%d2, H2⟩, ⟨%d3, H3⟩, ⟨%d4, H4⟩⟩
    iapply ((runA c t ((hcond0_0 t).mpr h0) (nc1_of t h1) (iblk0 V c 0 t) (iblk0 V c 1 t) (iblk0 V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scoverA_0 c t _ _ _ _ _)
        isplitl [HS1]
        · unfold owns; iexists _; isplitr
          swap; · iexact HS1
          ipureintro; exact View.read_writes_of_cover _ _ _ _ _ (scoverA_1 c t _ _ _ _ _)
        iexact Hrest
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := fun e => h0 (by rw [e])
    by_cases h1 : t.val % 100 = 99
    · -- the last point
      rw [show (dat0 V c).leavesExact 3 t = owns (c : Thread nD τ) (ms0_3 t) fullShare ((dat0 V c).after 3 t) from by
          unfold Dat.leavesExact; rw [liveAt0_3 t ((hcond0_1 t).mpr h1)], after0_3]
      rw [show (dat0 V c).leavesExact 4 t = owns (c : Thread nD τ) (ms0_4 t) fullShare ((dat0 V c).after 4 t) from by
          unfold Dat.leavesExact; rw [liveAt0_4 t ((hcond0_1 t).mpr h1)], after0_4]
      rw [outsAt0_C V c t h0 h1]
      unfold outC soutC; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((runC c t (nc0_of t h0) ((hcond0_1 t).mpr h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverC_0 c t _ _ _ _ _ _ _)
          isplitl [HS1]
          · unfold owns; iexists _; isplitr
            swap; · iexact HS1
            ipureintro; exact View.read_writes_of_cover _ _ _ _ _ (scoverC_1 c t _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_3 c t _ _ _ _ _ _ _)
      unfold owns; iexists _; isplitr
      swap; · iexact H4
      ipureintro; exact View.read_writes_of_cover _ _ _ _ _ (coverC_4 c t _ _ _ _ _ _ _)
    · -- a middle point
      rw [Dat.leavesExact_idle (dat0 V c) 3 t (idleAt0_3 t (nc1_of t h1)) (noFlush0_3 t (nc1_of t h1))]
      rw [Dat.leavesExact_idle (dat0 V c) 4 t (idleAt0_4 t (nc1_of t h1)) (noFlush0_4 t (nc1_of t h1))]
      rw [outsAt0_B V c t h0 h1]
      unfold soutB; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((runB c t (nc0_of t h0) (nc1_of t h1) (iblk0 V c 0 t) (iblk0 V c 1 t) (iblk0 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverB_0 c t _ _ _ _ _ _ _)
          isplitl [HS1]
          · unfold owns; iexists _; isplitr
            swap; · iexact HS1
            ipureintro; exact View.read_writes_of_cover _ _ _ _ _ (scoverB_1 c t _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the running sums' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 100 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.Kernel.Hand

end
-- ==== Proof.KRegion1.lean ====
/-
  The second kernel call (the normalising kernel), as one region of the program: what each of its eight windows
  holds at a grid point, what the body leaves in the output window's buffer, the body's triple, and the proof
  data and body obligation the pipeline's loop rule asks for.

  The grid has 100 points. Window 0 is the block of 20000 rows of the point cloud at the point (a new block at every
  point); windows 1 … 6 are the whole weight matrix and five whole rows (bias, scale, shift, mean, variance), the
  same block at every point; window 7 is the block of 20000 output rows, written back at every point. The body
  reads the seven inputs whole and overwrites the output block whole with one value computed from them.
-/
import proofs.«164247_j79989470921164_2_alg».proof.Proof.Gen.Kernel.Launch
import proofs.«164247_j79989470921164_2_alg».proof.Proof.Gen.Kernel.Skeleton
import proofs.«164247_j79989470921164_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 20000 rows: the structural recursion goes once per coordinate of the long axis
set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: everything below is stated at this parameter
variable (V : (c : Dev nD) → (b : Ref sig .tc) → Buf (Elt F) ((c : Thread nD τ).loc b))

/-! ## The windows' blocks -/

/-- Window \`w\`'s block at point \`t\`, read off its array as the region finds it (\`V\`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows of the point cloud at the point) holds its block at every point, for any proof data
    whose array is \`V\`'s and whose body leaves the block in place: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight matrix, whole) holds its block at every point: fetched at the first point, and at a
    later point the block index has not moved, so the block kept from the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias row): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the scale row): as window 1. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the shift row): as window 1. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the mean row): as window 1. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (the variance row): as window 1. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole block of point rows, the whole weight matrix, a whole row, the whole output block: the four rectangles
    the body's loads and its one store go through. -/
abbrev rX : Rect S20000x6 := Rect.unit (s := S20000x6) ![0, 0] S20000x6.size inb_S20000x6_S20000x6_0_0
abbrev rW : Rect S6x64 := Rect.unit (s := S6x64) ![0, 0] S6x64.size inb_S6x64_S6x64_0_0
abbrev rRow : Rect S1x64 := Rect.unit (s := S1x64) ![0, 0] S1x64.size inb_S1x64_S1x64_0_0
abbrev r1_7 : Rect S20000x64 := Rect.unit (s := S20000x64) ![0, 0] S20000x64.size inb_S20000x64_S20000x64_0_0

/-! ## What the body leaves in the output window's buffer -/

/-- Window 7's staging buffer after the body, from the seven input windows' blocks (in window order: point rows,
    weight matrix, bias, scale, shift, mean, variance): its one store as a piece. The body's value takes them in the
    order it reads them: point rows, weights, bias, variance, scale, mean, shift. -/
def out1_7 (x0 : Vec F S20000x6 .f32) (x1 : Vec F S6x64 .f32) (x2 x3 x4 x5 x6 : Vec F S1x64 .f32) : Vec F S20000x64 .f32 :=
  View.canon [⟨r1_7, k1_pay1 (View.ld x0 rX) (View.ld x1 rW) (View.ld x2 rRow) (View.ld x6 rRow) (View.ld x3 rRow) (View.ld x5 rRow) (View.ld x4 rRow)⟩]

/-- The one store is the whole block, so it covers the buffer. -/
theorem cover1_7 (p0 : Vec F S20000x64 .f32) (y : S20000x64.Idx) :
    ∃ pc ∈ ([⟨r1_7, p0⟩] : List (View.Piece (Elt F) S20000x64 .f32)), y ∈ pc.1.set :=
  View.cover_of_tiled [⟨r1_7, p0⟩] S20000x64.size (by rfl) y

/-! ## The body's triple -/

set_option maxHeartbeats 4000000 in
/-- The kernel body on whole staging memrefs, the seven inputs' at read contents and the output's at anything, runs to
    the continuation holding the inputs' as they were and the output's at \`out1_7\` of the inputs': the printed function
    is its skeleton, eight whole loads and one whole store, run a step at a time. -/
theorem sound_kernel1 (c : Dev nD) (E : Set ℕ) (i : grid1.Coords)
    (arg1 : Memref sig .tc .vmem S20000x6 .f32) (harg1 : arg1.IsWhole) (arg2 : Memref sig .tc .vmem S6x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S20000x64 .f32) (harg8 : arg8.IsWhole)
    (x0 : Vec F S20000x6 .f32) (x1 : Vec F S6x64 .f32) (x2 x3 x4 x5 x6 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__norm_kernel i arg1 harg1 arg2 harg2 arg3 harg3 arg4 harg4 arg5 harg5 arg6 harg6 arg7 harg7 arg8 harg8) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of this pipeline on core \`c\`: the arrays as the region finds them (\`V\`); after the body at point
    \`t\` each input's buffer at its block and the output's at \`out1_7\` of the seven input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point \`t\`: the invariant, what the core owes, and the eight windows' current
    buffers one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (\`before1_W\`), so \`sound_kernel1\` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.KRun.lean ====
/-
  The whole program as a run: host operations, the statistics kernel's region, host operations (mean and variance),
  the normalising kernel's region, host operations (the scatter into the pillar grid). The contents of every
  unscoped buffer at each of the six boundaries are a fold from the launch memory: a stretch of host operations
  applies them; a region puts each of its arrays at what its write-backs leave and keeps every other buffer. Every
  weakly fair execution terminates, faulting nowhere, with every unscoped buffer at the last boundary's contents.
  Stated at any float instance.
-/
import proofs.«164247_j79989470921164_2_alg».proof.Proof.KRegion0Body
import proofs.«164247_j79989470921164_2_alg».proof.Proof.KRegion1
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first stretch of host operations (the statistics kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the statistics kernel: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second stretch (the normalising kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the normalising kernel. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last stretch: the end. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Kernel region 0 over the thread state: entered from every unscoped buffer at the boundary's contents, left at
    the next boundary's. Its arrays are split out of the unscoped buffers and put back at their exit contents; the
    generator register goes into the region's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine BIBase.Entails.trans (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the boundary's contents, left at
    the next boundary's. Its arrays are split out of the unscoped buffers and put back at their exit contents; the
    generator register goes into the region's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)) ]
theorem main_run (c : Dev nD) : main (F := F) c = Pipeline.Seg.run (segs m) := (main_chain c).trans (by chain_rfl)

set_option backward.isDefEq.respectTransparency.types false in
/-- THE RUN: from any memory with zero counters every weakly fair execution of the program on the TensorCores
    terminates, nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.KArgs.lean ====
/-
  The argument arrays at the end of the run: no host operation writes an argument and neither kernel's region
  changes one (the point cloud is an INPUT window of both kernels; the other arguments are no window at all), so
  each argument's buffer at the last boundary walks back through the fold to its launch contents. From this and the
  run: the frame statement (every argument ends as launched), and the same with the result buffer named at the last
  boundary's contents. Stated at any float instance.
-/
import proofs.«164247_j79989470921164_2_alg».proof.Proof.KRun
import proofs.«164247_j79989470921164_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- The point cloud is read by both kernels through an input window and written by nothing. -/
theorem W5_main_arg0 (c : Dev nD) : W5 m c main_arg0 = m ((c : Thread nD τ).loc main_arg0) :=
  (W5_of m c main_arg0 (by decide)).trans <|
    ((W4_arr m c 0).trans (((dat1 (V3 m) c).arrAt_in 0 rfl _).trans (A_eq1 (V3 m) c 0))).trans <|
    (W3_of m c main_arg0 (by decide)).trans <|
    ((W2_arr m c 0).trans (((dat0 (V1 m) c).arrAt_in 0 rfl _).trans (A_eq0 (V1 m) c 0))).trans <|
    (W1_of m c main_arg0 (by decide)).trans rfl
theorem W5_main_arg1 (c : Dev nD) : W5 m c main_arg1 = m ((c : Thread nD τ).loc main_arg1) :=
  (W5_of m c main_arg1 (by decide)).trans <| (W4_of_ne m c main_arg1 (by decide)).trans <| (W3_of m c main_arg1 (by decide)).trans <| (W2_of_ne m c main_arg1 (by decide)).trans <| (W1_of m c main_arg1 (by decide)).trans rfl
theorem W5_main_arg2 (c : Dev nD) : W5 m c main_arg2 = m ((c : Thread nD τ).loc main_arg2) :=
  (W5_of m c main_arg2 (by decide)).trans <| (W4_of_ne m c main_arg2 (by decide)).trans <| (W3_of m c main_arg2 (by decide)).trans <| (W2_of_ne m c main_arg2 (by decide)).trans <| (W1_of m c main_arg2 (by decide)).trans rfl
theorem W5_main_arg3 (c : Dev nD) : W5 m c main_arg3 = m ((c : Thread nD τ).loc main_arg3) :=
  (W5_of m c main_arg3 (by decide)).trans <| (W4_of_ne m c main_arg3 (by decide)).trans <| (W3_of m c main_arg3 (by decide)).trans <| (W2_of_ne m c main_arg3 (by decide)).trans <| (W1_of m c main_arg3 (by decide)).trans rfl
theorem W5_main_arg4 (c : Dev nD) : W5 m c main_arg4 = m ((c : Thread nD τ).loc main_arg4) :=
  (W5_of m c main_arg4 (by decide)).trans <| (W4_of_ne m c main_arg4 (by decide)).trans <| (W3_of m c main_arg4 (by decide)).trans <| (W2_of_ne m c main_arg4 (by decide)).trans <| (W1_of m c main_arg4 (by decide)).trans rfl
theorem W5_main_arg5 (c : Dev nD) : W5 m c main_arg5 = m ((c : Thread nD τ).loc main_arg5) :=
  (W5_of m c main_arg5 (by decide)).trans <| (W4_of_ne m c main_arg5 (by decide)).trans <| (W3_of m c main_arg5 (by decide)).trans <| (W2_of_ne m c main_arg5 (by decide)).trans <| (W1_of m c main_arg5 (by decide)).trans rfl

/-- THE FRAME: every weakly fair execution terminates, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c)⟩) (run_all m ρ)

/-- THE RUN WITH THE RESULT NAMED: the pillar grid's buffer ends at the last boundary's contents, the arguments as launched. -/
theorem run_val : θ_run defs (onTc (τ := τ) (main (F := F))) ⟨m, fun _ => 0, ρ⟩ (fun r => ∀ c : Dev nD,
      r.2.mem ((c.tc : Thread nD τ).loc main_v32) = W5 m c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v32 (by decide)),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c)⟩) (run_all m ρ)

end Cert.Kernel.Hand

end
-- ==== Proof.KIRegion0Runs.lean ====
/-
  The statistics kernel (the first of the program's two kernels) on its grid of 100 blocks of 20 000 points:
  its two conditionals decided over the grid, where its output blocks are idle, and its body run once per kind
  of point — the first (the running sums are zeroed, then accumulated), a middle one (accumulated), the last
  (accumulated, then copied to the output blocks). Stated at any float instance.
-/
import proofs.«164247_j79989470921164_2_alg».proof.Proof.Gen.KernelIdeal.Launch
import proofs.«164247_j79989470921164_2_alg».proof.Proof.Gen.KernelIdeal.Skeleton
import proofs.«164247_j79989470921164_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The statistics kernel's two conditionals, and where its outputs are idle

The body zeroes its two running sums at the grid's first point, adds the block's column sums (of the linear layer
and of its square) at every point, and copies the running sums to the two output blocks at the last point. -/

/-- "This is the first point": the condition under which the running sums are zeroed. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 100 = 0 :=
  (by decide +kernel : ∀ t : Fin grid0.N, cond0_0 (grid0.coords t) ↔ t.val % 100 = 0)

/-- "This is the last point": the condition under which the running sums are copied out. -/
abbrev cond0_1 (i : grid0.Coords) : Prop := k0_cond2 i = 1#1
theorem hcond0_1 : ∀ t : Fin cfg0.N, cond0_1 (grid0.coords t) ↔ t.val % 100 = 99 :=
  (by decide +kernel : ∀ t : Fin grid0.N, cond0_1 (grid0.coords t) ↔ t.val % 100 = 99)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the two output blocks are neither stored into nor written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-- Each window's current staging memref at point `t`, and its wholeness. -/
abbrev ms0_0 (t : Fin cfg0.N) : Memref sig .tc .vmem S20000x6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S6x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x64 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
/-- The two running sums: whole scoped buffers of the kernel's own. -/
abbrev scM0_0 : Memref sig .tc .vmem S1x64 .f32 := Memref.whole cc0_scratch0
abbrev scM0_1 : Memref sig .tc .vmem S1x64 .f32 := Memref.whole cc0_scratch1
abbrev VS0_0 : View sig .tc .vmem S1x64 .f32 := scM0_0.view
abbrev VS0_1 : View sig .tc .vmem S1x64 .f32 := scM0_1.view
abbrev VO0_3 : View sig .tc .vmem S1x64 .f32 := (Memref.whole cc0_stg3_0 : Memref sig .tc .vmem S1x64 .f32).view
abbrev VO0_4 : View sig .tc .vmem S1x64 .f32 := (Memref.whole cc0_stg4_0 : Memref sig .tc .vmem S1x64 .f32).view

set_option maxHeartbeats 1000000 in
/-- A MIDDLE point (neither first nor last): from the three input blocks at their contents, the two output blocks
    at contents handed back untouched and the two running sums at what the point before left, the body runs to its
    return with each running sum's buffer rewritten by the pieces found here. -/
noncomputable def kernelRun0_B (c : Dev nD) (i : grid0.Coords) (arg1 : Memref sig .tc .vmem S20000x6 .f32) (harg1 : arg1.IsWhole) (arg2 : Memref sig .tc .vmem S6x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : ¬cond0_1 i)
    (x0 : Vec F S20000x6 .f32) (x1 : Vec F S6x64 .f32) (x2 : Vec F S1x64 .f32) (xs0 xs1 : Vec F S1x64 .f32) :
    Σ' (LS0 : List (View.Piece (Elt F) S1x64 .f32)), { LS1 : List (View.Piece (Elt F) S1x64 .f32) //
      ∀ (xi3 xi4 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _; iexact HS0
    iexists _; iexact HS1

set_option maxHeartbeats 1000000 in
/-- The FIRST point: the running sums hold anything on entry; the body zeroes them, then accumulates. -/
noncomputable def kernelRun0_A (c : Dev nD) (i : grid0.Coords) (arg1 : Memref sig .tc .vmem S20000x6 .f32) (harg1 : arg1.IsWhole) (arg2 : Memref sig .tc .vmem S6x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : cond0_0 i) (hc1 : ¬cond0_1 i)
    (x0 : Vec F S20000x6 .f32) (x1 : Vec F S6x64 .f32) (x2 : Vec F S1x64 .f32) :
    Σ' (LS0 : List (View.Piece (Elt F) S1x64 .f32)), { LS1 : List (View.Piece (Elt F) S1x64 .f32) //
      ∀ (xi3 xi4 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, fun xi3 xi4 E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, %hfs0, HS0⟩, ⟨%ds1, %fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [HS0]
    · iexists _; iexact HS0
    iexists _; iexact HS1

set_option maxHeartbeats 1000000 in
/-- The LAST point: the running sums are accumulated once more and then copied to the two output blocks, which
    hold anything on entry. -/
noncomputable def kernelRun0_C (c : Dev nD) (i : grid0.Coords) (arg1 : Memref sig .tc .vmem S20000x6 .f32) (harg1 : arg1.IsWhole) (arg2 : Memref sig .tc .vmem S6x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (hc0 : ¬cond0_0 i) (hc1 : cond0_1 i)
    (x0 : Vec F S20000x6 .f32) (x1 : Vec F S6x64 .f32) (x2 : Vec F S1x64 .f32) (xs0 xs1 : Vec F S1x64 .f32) :
    Σ' (L3 : List (View.Piece (Elt F) S1x64 .f32)) (L4 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs0 ∗ owns (c : Thread nD τ) arg7 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg1 harg1 arg2 harg2 arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    unfold owns
    iintro ⟨⟨%f0, %hf0, H0⟩, ⟨%f1, %hf1, H1⟩, ⟨%f2, %hf2, H2⟩, ⟨%d3, %f3, %hf3, H3⟩, ⟨%d4, %f4, %hf4, H4⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hf3; obtain rfl := harg5.eq_unread hf4
    obtain rfl := harg6.eq_unread hfs0; obtain rfl := harg7.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; iexact H3
    isplitl [H4]
    · iexists _; iexact H4
    isplitl [HS0]
    · iexists _; iexact HS0
    iexists _; iexact HS1

/-- The ten scoped buffers of the other kernel, each whole at some contents: what rides through this kernel's
    invariant untouched. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant of this kernel's region, with the two running sums as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherStaging (F := F) c) ∗ (∃ r, prngReg c r)) := by
  unfold Pipeline.ΦA otherStaging; rw [scopedRest0_eq]; simp only [scM0_0, scM0_1, owns_whole]; try rfl

end Cert.KernelIdeal.Hand

end
-- ==== Proof.KIRegion0.lean ====
/-
  The statistics kernel's region, at the contents `V` its core's buffers hold when the region is entered: each
  window's block at a point; what each kind of point (first, middle, last) leaves in the two running sums and in the
  two output blocks; those contents point by point (the accumulation); the region's invariant (before the first point
  the running sums hold anything, afterwards what the point before left); the proof data; and the body obligation at
  every point. Stated at any float instance.
-/
import proofs.«164247_j79989470921164_2_alg».proof.Proof.KIRegion0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's runs at a point's own memrefs -/

theorem nc0_of (t : Fin cfg0.N) (h : ¬t.val % 100 = 0) : ¬cond0_0 (grid0.coords t) := fun hc => h ((hcond0_0 t).mp hc)
theorem nc1_of (t : Fin cfg0.N) (h : ¬t.val % 100 = 99) : ¬cond0_1 (grid0.coords t) := fun hc => h ((hcond0_1 t).mp hc)

abbrev runA (c : Dev nD) (t : Fin cfg0.N) (hc0 : cond0_0 (grid0.coords t)) (hc1 : ¬cond0_1 (grid0.coords t)) (x0 : Vec F S20000x6 .f32) (x1 : Vec F S6x64 .f32) (x2 : Vec F S1x64 .f32) :=
  kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2
abbrev runB (c : Dev nD) (t : Fin cfg0.N) (hc0 : ¬cond0_0 (grid0.coords t)) (hc1 : ¬cond0_1 (grid0.coords t)) (x0 : Vec F S20000x6 .f32) (x1 : Vec F S6x64 .f32) (x2 : Vec F S1x64 .f32) (xs0 xs1 : Vec F S1x64 .f32) :=
  kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2 xs0 xs1
abbrev runC (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) :=
  kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) hc0 hc1 x0 x1 x2 xs0 xs1

/-- A placeholder for an output block at a point that neither stores into it nor writes it back: nothing consults it. -/
def idleOut : Vec F S1x64 .f32 := VO0_3.read (Elt F) VO0_3.junk

/-- What the first point leaves in the two running sums: its stores read back. -/
def soutA (c : Dev nD) (t : Fin cfg0.N) (hc0 : cond0_0 (grid0.coords t)) (hc1 : ¬cond0_1 (grid0.coords t)) (x0 : Vec F S20000x6 .f32) (x1 : Vec F S6x64 .f32) (x2 : Vec F S1x64 .f32) : Vec F S1x64 .f32 × Vec F S1x64 .f32 :=
  (VS0_0.read (Elt F) (VS0_0.writes (Elt F) VS0_0.junk (runA c t hc0 hc1 x0 x1 x2).1),
   VS0_1.read (Elt F) (VS0_1.writes (Elt F) VS0_1.junk (runA c t hc0 hc1 x0 x1 x2).2.1))
theorem scoverA_0 (c : Dev nD) (t : Fin cfg0.N) (hc0 : cond0_0 (grid0.coords t)) (hc1 : ¬cond0_1 (grid0.coords t)) (x0 : Vec F S20000x6 .f32) (x1 : Vec F S6x64 .f32) (x2 : Vec F S1x64 .f32) (y : S1x64.Idx) :
    ∃ pc ∈ (runA c t hc0 hc1 x0 x1 x2).1, y ∈ pc.1.set :=
  View.cover_of_tiledL (runA c t hc0 hc1 x0 x1 x2).1 S1x64.size (by sl_kernel_rfl) y
theorem scoverA_1 (c : Dev nD) (t : Fin cfg0.N) (hc0 : cond0_0 (grid0.coords t)) (hc1 : ¬cond0_1 (grid0.coords t)) (x0 : Vec F S20000x6 .f32) (x1 : Vec F S6x64 .f32) (x2 : Vec F S1x64 .f32) (y : S1x64.Idx) :
    ∃ pc ∈ (runA c t hc0 hc1 x0 x1 x2).2.1, y ∈ pc.1.set :=
  View.cover_of_tiledL (runA c t hc0 hc1 x0 x1 x2).2.1 S1x64.size (by sl_kernel_rfl) y

/-- What a middle point leaves in the two running sums, over what the point before left. -/
def soutB (c : Dev nD) (t : Fin cfg0.N) (hc0 : ¬cond0_0 (grid0.coords t)) (hc1 : ¬cond0_1 (grid0.coords t)) (x0 : Vec F S20000x6 .f32) (x1 : Vec F S6x64 .f32) (x2 : Vec F S1x64 .f32) (xs0 xs1 : Vec F S1x64 .f32) : Vec F S1x64 .f32 × Vec F S1x64 .f32 :=
  (VS0_0.read (Elt F) (VS0_0.writes (Elt F) VS0_0.junk (runB c t hc0 hc1 x0 x1 x2 xs0 xs1).1),
   VS0_1.read (Elt F) (VS0_1.writes (Elt F) VS0_1.junk (runB c t hc0 hc1 x0 x1 x2 xs0 xs1).2.1))
theorem scoverB_0 (c : Dev nD) (t : Fin cfg0.N) (hc0 : ¬cond0_0 (grid0.coords t)) (hc1 : ¬cond0_1 (grid0.coords t)) (x0 : Vec F S20000x6 .f32) (x1 : Vec F S6x64 .f32) (x2 : Vec F S1x64 .f32) (xs0 xs1 : Vec F S1x64 .f32) (y : S1x64.Idx) :
    ∃ pc ∈ (runB c t hc0 hc1 x0 x1 x2 xs0 xs1).1, y ∈ pc.1.set :=
  View.cover_of_tiledL (runB c t hc0 hc1 x0 x1 x2 xs0 xs1).1 S1x64.size (by sl_kernel_rfl) y
theorem scoverB_1 (c : Dev nD) (t : Fin cfg0.N) (hc0 : ¬cond0_0 (grid0.coords t)) (hc1 : ¬cond0_1 (grid0.coords t)) (x0 : Vec F S20000x6 .f32) (x1 : Vec F S6x64 .f32) (x2 : Vec F S1x64 .f32) (xs0 xs1 : Vec F S1x64 .f32) (y : S1x64.Idx) :
    ∃ pc ∈ (runB c t hc0 hc1 x0 x1 x2 xs0 xs1).2.1, y ∈ pc.1.set :=
  View.cover_of_tiledL (runB c t hc0 hc1 x0 x1 x2 xs0 xs1).2.1 S1x64.size (by sl_kernel_rfl) y

/-- What the last point leaves in the two output blocks and in the two running sums. -/
def outC (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) : Vec F S1x64 .f32 × Vec F S1x64 .f32 :=
  (VO0_3.read (Elt F) (VO0_3.writes (Elt F) VO0_3.junk (runC c t hc0 hc1 x0 x1 x2 xs0 xs1).1),
   VO0_4.read (Elt F) (VO0_4.writes (Elt F) VO0_4.junk (runC c t hc0 hc1 x0 x1 x2 xs0 xs1).2.1))
def soutC (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) : Vec F S1x64 .f32 × Vec F S1x64 .f32 :=
  (VS0_0.read (Elt F) (VS0_0.writes (Elt F) VS0_0.junk (runC c t hc0 hc1 x0 x1 x2 xs0 xs1).2.2.1),
   VS0_1.read (Elt F) (VS0_1.writes (Elt F) VS0_1.junk (runC c t hc0 hc1 x0 x1 x2 xs0 xs1).2.2.2.1))
theorem coverC_3 (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) (y : S1x64.Idx) :
    ∃ pc ∈ (runC c t hc0 hc1 x0 x1 x2 xs0 xs1).1, y ∈ pc.1.set :=
  View.cover_of_tiledL (runC c t hc0 hc1 x0 x1 x2 xs0 xs1).1 S1x64.size (by sl_kernel_rfl) y
theorem coverC_4 (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) (y : S1x64.Idx) :
    ∃ pc ∈ (runC c t hc0 hc1 x0 x1 x2 xs0 xs1).2.1, y ∈ pc.1.set :=
  View.cover_of_tiledL (runC c t hc0 hc1 x0 x1 x2 xs0 xs1).2.1 S1x64.size (by sl_kernel_rfl) y
theorem scoverC_0 (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) (y : S1x64.Idx) :
    ∃ pc ∈ (runC c t hc0 hc1 x0 x1 x2 xs0 xs1).2.2.1, y ∈ pc.1.set :=
  View.cover_of_tiledL (runC c t hc0 hc1 x0 x1 x2 xs0 xs1).2.2.1 S1x64.size (by sl_kernel_rfl) y
theorem scoverC_1 (c : Dev nD) (t : Fin cfg0.N) (hc0 : ¬cond0_0 (grid0.coords t)) (hc1 : cond0_1 (grid0.coords t)) (x0 : Vec F S20000x6 .f32) (x1 : Vec F S6x64 .f32) (x2 : Vec F S1x64 .f32) (xs0 xs1 : Vec F S1x64 .f32) (y : S1x64.Idx) :
    ∃ pc ∈ (runC c t hc0 hc1 x0 x1 x2 xs0 xs1).2.2.2.1, y ∈ pc.1.set :=
  View.cover_of_tiledL (runC c t hc0 hc1 x0 x1 x2 xs0 xs1).2.2.2.1 S1x64.size (by sl_kernel_rfl) y

/-! ## The accumulation, point by point -/

/-- What the two output blocks' staging buffers (first pair) and the two running sums (second pair) hold after the body
    at position `n`: the first point from nothing; every later point over the running sums the point before left; the
    output blocks named only at the last point. -/
def outsAt0 (c : Dev nD) : (n : ℕ) → n < cfg0.N → (Vec F S1x64 .f32 × Vec F S1x64 .f32) × (Vec F S1x64 .f32 × Vec F S1x64 .f32)
  | 0, hn => ((idleOut, idleOut),
      soutA c ⟨0, hn⟩ ((hcond0_0 ⟨0, hn⟩).mpr (Nat.zero_mod _)) (nc1_of ⟨0, hn⟩ (fun h => absurd h (by decide : ¬(0 : ℕ) % 100 = 99))) (iblk0 V c 0 ⟨0, hn⟩) (iblk0 V c 1 ⟨0, hn⟩) (iblk0 V c 2 ⟨0, hn⟩))
  | n + 1, hn =>
    if h1 : (n + 1) % 100 = 99 then
      (outC c ⟨n + 1, hn⟩ (nc0_of ⟨n + 1, hn⟩ (by have hN : n + 1 < 100 := lt_of_lt_of_eq hn (show cfg0.N = 100 from N_0); show ¬(n + 1) % 100 = 0; omega)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2,
       soutC c ⟨n + 1, hn⟩ (nc0_of ⟨n + 1, hn⟩ (by have hN : n + 1 < 100 := lt_of_lt_of_eq hn (show cfg0.N = 100 from N_0); show ¬(n + 1) % 100 = 0; omega)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
    else
      ((idleOut, idleOut),
       soutB c ⟨n + 1, hn⟩ (nc0_of ⟨n + 1, hn⟩ (by have hN : n + 1 < 100 := lt_of_lt_of_eq hn (show cfg0.N = 100 from N_0); show ¬(n + 1) % 100 = 0; omega)) (nc1_of ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

theorem outsAt0_A (c : Dev nD) (t : Fin cfg0.N) (h0 : t.val % 100 = 0) (h1 : ¬t.val % 100 = 99) :
    outsAt0 V c t.val t.isLt = ((idleOut, idleOut), soutA c t ((hcond0_0 t).mpr h0) (nc1_of t h1) (iblk0 V c 0 t) (iblk0 V c 1 t) (iblk0 V c 2 t)) := by
  obtain ⟨n, hn⟩ := t
  cases n with
  | zero => exact rfl
  | succ n => exact absurd h0 (by have hN : n + 1 < 100 := lt_of_lt_of_eq hn (show cfg0.N = 100 from N_0); show ¬(n + 1) % 100 = 0; omega)

theorem outsAt0_B (c : Dev nD) (t : Fin cfg0.N) (h0 : ¬t.val % 100 = 0) (h1 : ¬t.val % 100 = 99) :
    outsAt0 V c t.val t.isLt = ((idleOut, idleOut), soutB c t (nc0_of t h0) (nc1_of t h1) (iblk0 V c 0 t) (iblk0 V c 1 t) (iblk0 V c 2 t)
      (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd (Nat.zero_mod _) h0
  | succ n => exact (dif_neg h1).trans rfl

theorem outsAt0_C (c : Dev nD) (t : Fin cfg0.N) (h0 : ¬t.val % 100 = 0) (h1 : t.val % 100 = 99) :
    outsAt0 V c t.val t.isLt = (outC c t (nc0_of t h0) ((hcond0_1 t).mpr h1) (iblk0 V c 0 t) (iblk0 V c 1 t) (iblk0 V c 2 t)
        (outsAt0 V c (t.val - 1) (Nat.lt_of_le_of_lt (Nat.sub_le _ _) t.isLt)).2.1 (outsAt0 V c (t.val - 1) (Nat.lt_of_le_of_lt (Nat.sub_le _ _) t.isLt)).2.2,
      soutC c t (nc0_of t h0) ((hcond0_1 t).mpr h1) (iblk0 V c 0 t) (iblk0 V c 1 t) (iblk0 V c 2 t)
        (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact absurd (Nat.zero_mod _) h0
  | succ n => exact (dif_pos h1).trans rfl

/-! ## The region's invariant -/

/-- Before position `n`: before the first point the class's invariant (the running sums at anything); afterwards the
    running sums at what the point before left, the other kernel's staging buffers at anything, the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ otherStaging (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ otherStaging (F := F) c) ∗ (∃ r, prngReg c r)) := rfl
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ otherStaging (F := F) c) ∗ (∃ r, prngReg c r)) := by
  cases n with
  | zero => exact absurd rfl hz
  | succ n => rfl

/-! ## The proof data -/

/-- The proof data of the statistics kernel's pipeline on core `c`: the arrays as the region finds them; after the
    body at point `t` each input's buffer at its block and the two outputs' at the accumulation's first pair; the
    invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1.1
    | ⟨4, _⟩ => (outsAt0 V c t.val t.isLt).1.2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) :
    (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1.1 := by dsimp only [dat0]
theorem after0_4 (c : Dev nD) (t : Fin cfg0.N) : (dat0 V c).after 4 t = (outsAt0 V c t.val t.isLt).1.2 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

end Cert.KernelIdeal.Hand

end
-- ==== Proof.KIRegion0Body.lean ====
/-
  The statistics kernel's body obligation: at every grid point, from the region's invariant and each window's
  current staging buffer at what the pipeline hands it, the body runs and leaves the invariant of the next point
  and each buffer at what the proof data state. The three kinds of point (first, middle, last) are told apart by the
  two conditionals' closed forms; at the first point the running sums come out of the class's invariant at
  anything, afterwards at what the point before left.
-/
import proofs.«164247_j79989470921164_2_alg».proof.Proof.KIRegion0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 100 := lt_of_lt_of_eq t.isLt (show cfg0.N = 100 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 100 = 0
  · -- the first point
    have h1 : ¬t.val % 100 = 99 := by omega
    have hz : t.val = 0 := by omega
    rw [Dat.leavesExact_idle (dat0 V c) 3 t (idleAt0_3 t (nc1_of t h1)) (noFlush0_3 t (nc1_of t h1))]
    rw [Dat.leavesExact_idle (dat0 V c) 4 t (idleAt0_4 t (nc1_of t h1)) (noFlush0_4 t (nc1_of t h1))]
    rw [outsAt0_A V c t h0 h1]
    unfold soutA; (try dsimp only)
    rw [PhiS_castSucc V c t, PhiS_zero V c _ _ hz, PhiA0_eq]
    iintro ⟨⟨⟨HS0, HS1, Hrest⟩, Hg⟩, Ho, ⟨%d0, H0⟩, ⟨%d1, H1⟩, ⟨%d2, H2⟩, ⟨%d3, H3⟩, ⟨%d4, H4⟩⟩
    iapply ((runA c t ((hcond0_0 t).mpr h0) (nc1_of t h1) (iblk0 V c 0 t) (iblk0 V c 1 t) (iblk0 V c 2 t)).2.2 _ _ Set.univ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scoverA_0 c t _ _ _ _ _)
        isplitl [HS1]
        · unfold owns; iexists _; isplitr
          swap; · iexact HS1
          ipureintro; exact View.read_writes_of_cover _ _ _ _ _ (scoverA_1 c t _ _ _ _ _)
        iexact Hrest
      iexact Hg
    isplitl [Ho]; · iexact Ho
    isplitl [H0]; · iexact H0
    isplitl [H1]; · iexact H1
    isplitl [H2]; · iexact H2
    isplitl [H3]; · iexists _; iexact H3
    iexists _; iexact H4
  · have hz : t.val ≠ 0 := fun e => h0 (by rw [e])
    by_cases h1 : t.val % 100 = 99
    · -- the last point
      rw [show (dat0 V c).leavesExact 3 t = owns (c : Thread nD τ) (ms0_3 t) fullShare ((dat0 V c).after 3 t) from by
          unfold Dat.leavesExact; rw [liveAt0_3 t ((hcond0_1 t).mpr h1)], after0_3]
      rw [show (dat0 V c).leavesExact 4 t = owns (c : Thread nD τ) (ms0_4 t) fullShare ((dat0 V c).after 4 t) from by
          unfold Dat.leavesExact; rw [liveAt0_4 t ((hcond0_1 t).mpr h1)], after0_4]
      rw [outsAt0_C V c t h0 h1]
      unfold outC soutC; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((runC c t (nc0_of t h0) ((hcond0_1 t).mpr h1) (iblk0 V c 0 t) (iblk0 V c 1 t) (iblk0 V c 2 t) _ _).2.2.2.2 Set.univ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, ⟨%e3, H3⟩, ⟨%e4, H4⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverC_0 c t _ _ _ _ _ _ _)
          isplitl [HS1]
          · unfold owns; iexists _; isplitr
            swap; · iexact HS1
            ipureintro; exact View.read_writes_of_cover _ _ _ _ _ (scoverC_1 c t _ _ _ _ _ _ _)
          iexact Hrest
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (coverC_3 c t _ _ _ _ _ _ _)
      unfold owns; iexists _; isplitr
      swap; · iexact H4
      ipureintro; exact View.read_writes_of_cover _ _ _ _ _ (coverC_4 c t _ _ _ _ _ _ _)
    · -- a middle point
      rw [Dat.leavesExact_idle (dat0 V c) 3 t (idleAt0_3 t (nc1_of t h1)) (noFlush0_3 t (nc1_of t h1))]
      rw [Dat.leavesExact_idle (dat0 V c) 4 t (idleAt0_4 t (nc1_of t h1)) (noFlush0_4 t (nc1_of t h1))]
      rw [outsAt0_B V c t h0 h1]
      unfold soutB; (try dsimp only)
      rw [PhiS_castSucc V c t, PhiS_pos V c _ _ hz]
      iintro ⟨⟨⟨HS0, HS1, Hrest⟩, Hg⟩, Ho, ⟨%d0, H0⟩, ⟨%d1, H1⟩, ⟨%d2, H2⟩, ⟨%d3, H3⟩, ⟨%d4, H4⟩⟩
      iapply ((runB c t (nc0_of t h0) (nc1_of t h1) (iblk0 V c 0 t) (iblk0 V c 1 t) (iblk0 V c 2 t) _ _).2.2 _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scoverB_0 c t _ _ _ _ _ _ _)
          isplitl [HS1]
          · unfold owns; iexists _; isplitr
            swap; · iexact HS1
            ipureintro; exact View.read_writes_of_cover _ _ _ _ _ (scoverB_1 c t _ _ _ _ _ _ _)
          iexact Hrest
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the running sums' named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 100 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end Cert.KernelIdeal.Hand

end
-- ==== Proof.KIRegion1.lean ====
/-
  The second kernel call (the normalising kernel), as one region of the program: what each of its eight windows
  holds at a grid point, what the body leaves in the output window's buffer, the body's triple, and the proof
  data and body obligation the pipeline's loop rule asks for.

  The grid has 100 points. Window 0 is the block of 20000 rows of the point cloud at the point (a new block at every
  point); windows 1 … 6 are the whole weight matrix and five whole rows (bias, scale, shift, mean, variance), the
  same block at every point; window 7 is the block of 20000 output rows, written back at every point. The body
  reads the seven inputs whole and overwrites the output block whole with one value computed from them.
-/
import proofs.«164247_j79989470921164_2_alg».proof.Proof.Gen.KernelIdeal.Launch
import proofs.«164247_j79989470921164_2_alg».proof.Proof.Gen.KernelIdeal.Skeleton
import proofs.«164247_j79989470921164_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 20000 rows: the structural recursion goes once per coordinate of the long axis
set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: everything below is stated at this parameter
variable (V : (c : Dev nD) → (b : Ref sig .tc) → Buf (Elt F) ((c : Thread nD τ).loc b))

/-! ## The windows' blocks -/

/-- Window \`w\`'s block at point \`t\`, read off its array as the region finds it (\`V\`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 (the rows of the point cloud at the point) holds its block at every point, for any proof data
    whose array is \`V\`'s and whose body leaves the block in place: the window is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the weight matrix, whole) holds its block at every point: fetched at the first point, and at a
    later point the block index has not moved, so the block kept from the point before is this point's. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the bias row): as window 1. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 (the scale row): as window 1. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4 (the shift row): as window 1. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5 (the mean row): as window 1. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6 (the variance row): as window 1. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole block of point rows, the whole weight matrix, a whole row, the whole output block: the four rectangles
    the body's loads and its one store go through. -/
abbrev rX : Rect S20000x6 := Rect.unit (s := S20000x6) ![0, 0] S20000x6.size inb_S20000x6_S20000x6_0_0
abbrev rW : Rect S6x64 := Rect.unit (s := S6x64) ![0, 0] S6x64.size inb_S6x64_S6x64_0_0
abbrev rRow : Rect S1x64 := Rect.unit (s := S1x64) ![0, 0] S1x64.size inb_S1x64_S1x64_0_0
abbrev r1_7 : Rect S20000x64 := Rect.unit (s := S20000x64) ![0, 0] S20000x64.size inb_S20000x64_S20000x64_0_0

/-! ## What the body leaves in the output window's buffer -/

/-- Window 7's staging buffer after the body, from the seven input windows' blocks (in window order: point rows,
    weight matrix, bias, scale, shift, mean, variance): its one store as a piece. The body's value takes them in the
    order it reads them: point rows, weights, bias, variance, scale, mean, shift. -/
def out1_7 (x0 : Vec F S20000x6 .f32) (x1 : Vec F S6x64 .f32) (x2 x3 x4 x5 x6 : Vec F S1x64 .f32) : Vec F S20000x64 .f32 :=
  View.canon [⟨r1_7, k1_pay1 (View.ld x0 rX) (View.ld x1 rW) (View.ld x2 rRow) (View.ld x6 rRow) (View.ld x3 rRow) (View.ld x5 rRow) (View.ld x4 rRow)⟩]

/-- The one store is the whole block, so it covers the buffer. -/
theorem cover1_7 (p0 : Vec F S20000x64 .f32) (y : S20000x64.Idx) :
    ∃ pc ∈ ([⟨r1_7, p0⟩] : List (View.Piece (Elt F) S20000x64 .f32)), y ∈ pc.1.set :=
  View.cover_of_tiled [⟨r1_7, p0⟩] S20000x64.size (by rfl) y

/-! ## The body's triple -/

set_option maxHeartbeats 4000000 in
/-- The kernel body on whole staging memrefs, the seven inputs' at read contents and the output's at anything, runs to
    the continuation holding the inputs' as they were and the output's at \`out1_7\` of the inputs': the printed function
    is its skeleton, eight whole loads and one whole store, run a step at a time. -/
theorem sound_kernel1 (c : Dev nD) (E : Set ℕ) (i : grid1.Coords)
    (arg1 : Memref sig .tc .vmem S20000x6 .f32) (harg1 : arg1.IsWhole) (arg2 : Memref sig .tc .vmem S6x64 .f32) (harg2 : arg2.IsWhole)
    (arg3 : Memref sig .tc .vmem S1x64 .f32) (harg3 : arg3.IsWhole) (arg4 : Memref sig .tc .vmem S1x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S20000x64 .f32) (harg8 : arg8.IsWhole)
    (x0 : Vec F S20000x6 .f32) (x1 : Vec F S6x64 .f32) (x2 x3 x4 x5 x6 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6
            ∗ owns (c : Thread nD τ) arg8 fullShare (out1_7 x0 x1 x2 x3 x4 x5 x6)) -∗ K ⟨⟩))
      ⊢ wp frame (wpE (defs₀ (F := F)) Variants.none c none) E
          (cc1__norm_kernel i arg1 harg1 arg2 harg2 arg3 harg3 arg4 harg4 arg5 harg5 arg6 harg6 arg7 harg7 arg8 harg8) K := by
  simp only [cc1__norm_kernel_eq_skeleton]; unfold cc1__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-! ## The pipeline's proof data -/

/-- The proof data of this pipeline on core \`c\`: the arrays as the region finds them (\`V\`); after the body at point
    \`t\` each input's buffer at its block and the output's at \`out1_7\` of the seven input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t
    = out1_7 (iblk1 V c 0 t) (iblk1 V c 1 t) (iblk1 V c 2 t) (iblk1 V c 3 t) (iblk1 V c 4 t) (iblk1 V c 5 t) (iblk1 V c 6 t) := by
  dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-! ## The body obligation, at a generic point -/

/-- What the body is called with at point \`t\`: the invariant, what the core owes, and the eight windows' current
    buffers one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks (\`before1_W\`), so \`sound_kernel1\` applies; the
    invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ _ _ _ _ _ _ _ _ _ _ _ _ _ _ _ _ _
    (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KIRun.lean ====
/-
  The whole program as a run: host operations, the statistics kernel's region, host operations (mean and variance),
  the normalising kernel's region, host operations (the scatter into the pillar grid). The contents of every
  unscoped buffer at each of the six boundaries are a fold from the launch memory: a stretch of host operations
  applies them; a region puts each of its arrays at what its write-backs leave and keeps every other buffer. Every
  weakly fair execution terminates, faulting nowhere, with every unscoped buffer at the last boundary's contents.
  Stated at any float instance.
-/
import proofs.«164247_j79989470921164_2_alg».proof.Proof.KIRegion0Body
import proofs.«164247_j79989470921164_2_alg».proof.Proof.KIRegion1
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => m (c, b)
/-- After the first stretch of host operations (the statistics kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the statistics kernel: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the second stretch (the normalising kernel's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the normalising kernel. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)
/-- After the last stretch: the end. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing
    nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- Kernel region 0 over the thread state: entered from every unscoped buffer at the boundary's contents, left at
    the next boundary's. Its arrays are split out of the unscoped buffers and put back at their exit contents; the
    generator register goes into the region's invariant and comes back; nothing is owed; the kernel has no semaphore
    of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    refine BIBase.Entails.trans (hout0 (V1 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Kernel region 1 over the thread state: entered from every unscoped buffer at the boundary's contents, left at
    the next boundary's. Its arrays are split out of the unscoped buffers and put back at their exit contents; the
    generator register goes into the region's invariant and comes back; nothing is owed; the kernel has no semaphore
    of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh' (W0 m)),
    .region (reg0 m),
    .host (hseg hostOps1 hostOps1_sub hostOps1_fresh' (W2 m)),
    .region (reg1 m),
    .host (hseg hostOps2 hostOps2_sub hostOps2_fresh' (W4 m)) ]
theorem main_run (c : Dev nD) : main (F := F) c = Pipeline.Seg.run (segs m) := (main_chain c).trans (by chain_rfl)

set_option backward.isDefEq.respectTransparency.types false in
/-- THE RUN: from any memory with zero counters every weakly fair execution of the program on the TensorCores
    terminates, nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W5 m c) ∗ ∃ r, prngReg c r))
    (hch := ⟨fun _ => .rfl, fun _ => .rfl, fun _ => .rfl, fun _ => .rfl, fun _ => .rfl, fun c => by
      show (iprop(StableHlo.held (c : Thread nD τ) (Pipeline.ucRefs τ sig) (W5 m c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KIArgs.lean ====
/-
  The argument arrays at the end of the run: no host operation writes an argument and neither kernel's region
  changes one (the point cloud is an INPUT window of both kernels; the other arguments are no window at all), so
  each argument's buffer at the last boundary walks back through the fold to its launch contents. From this and the
  run: the frame statement (every argument ends as launched), and the same with the result buffer named at the last
  boundary's contents. Stated at any float instance.
-/
import proofs.«164247_j79989470921164_2_alg».proof.Proof.KIRun
import proofs.«164247_j79989470921164_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- The point cloud is read by both kernels through an input window and written by nothing. -/
theorem W5_main_arg0 (c : Dev nD) : W5 m c main_arg0 = m ((c : Thread nD τ).loc main_arg0) :=
  (W5_of m c main_arg0 (by decide)).trans <|
    ((W4_arr m c 0).trans (((dat1 (V3 m) c).arrAt_in 0 rfl _).trans (A_eq1 (V3 m) c 0))).trans <|
    (W3_of m c main_arg0 (by decide)).trans <|
    ((W2_arr m c 0).trans (((dat0 (V1 m) c).arrAt_in 0 rfl _).trans (A_eq0 (V1 m) c 0))).trans <|
    (W1_of m c main_arg0 (by decide)).trans rfl
theorem W5_main_arg1 (c : Dev nD) : W5 m c main_arg1 = m ((c : Thread nD τ).loc main_arg1) :=
  (W5_of m c main_arg1 (by decide)).trans <| (W4_of_ne m c main_arg1 (by decide)).trans <| (W3_of m c main_arg1 (by decide)).trans <| (W2_of_ne m c main_arg1 (by decide)).trans <| (W1_of m c main_arg1 (by decide)).trans rfl
theorem W5_main_arg2 (c : Dev nD) : W5 m c main_arg2 = m ((c : Thread nD τ).loc main_arg2) :=
  (W5_of m c main_arg2 (by decide)).trans <| (W4_of_ne m c main_arg2 (by decide)).trans <| (W3_of m c main_arg2 (by decide)).trans <| (W2_of_ne m c main_arg2 (by decide)).trans <| (W1_of m c main_arg2 (by decide)).trans rfl
theorem W5_main_arg3 (c : Dev nD) : W5 m c main_arg3 = m ((c : Thread nD τ).loc main_arg3) :=
  (W5_of m c main_arg3 (by decide)).trans <| (W4_of_ne m c main_arg3 (by decide)).trans <| (W3_of m c main_arg3 (by decide)).trans <| (W2_of_ne m c main_arg3 (by decide)).trans <| (W1_of m c main_arg3 (by decide)).trans rfl
theorem W5_main_arg4 (c : Dev nD) : W5 m c main_arg4 = m ((c : Thread nD τ).loc main_arg4) :=
  (W5_of m c main_arg4 (by decide)).trans <| (W4_of_ne m c main_arg4 (by decide)).trans <| (W3_of m c main_arg4 (by decide)).trans <| (W2_of_ne m c main_arg4 (by decide)).trans <| (W1_of m c main_arg4 (by decide)).trans rfl
theorem W5_main_arg5 (c : Dev nD) : W5 m c main_arg5 = m ((c : Thread nD τ).loc main_arg5) :=
  (W5_of m c main_arg5 (by decide)).trans <| (W4_of_ne m c main_arg5 (by decide)).trans <| (W3_of m c main_arg5 (by decide)).trans <| (W2_of_ne m c main_arg5 (by decide)).trans <| (W1_of m c main_arg5 (by decide)).trans rfl

/-- THE FRAME: every weakly fair execution terminates, nothing faulting, every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c)⟩) (run_all m ρ)

/-- THE RUN WITH THE RESULT NAMED: the pillar grid's buffer ends at the last boundary's contents, the arguments as launched. -/
theorem run_val : θ_run defs (onTc (τ := τ) (main (F := F))) ⟨m, fun _ => 0, ρ⟩ (fun r => ∀ c : Dev nD,
      r.2.mem ((c.tc : Thread nD τ).loc main_v32) = W5 m c main_v32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v32 (by decide)),
      (h c _ (mem_uc main_arg0 (by decide))).trans (W5_main_arg0 m c),
      (h c _ (mem_uc main_arg1 (by decide))).trans (W5_main_arg1 m c),
      (h c _ (mem_uc main_arg2 (by decide))).trans (W5_main_arg2 m c),
      (h c _ (mem_uc main_arg3 (by decide))).trans (W5_main_arg3 m c),
      (h c _ (mem_uc main_arg4 (by decide))).trans (W5_main_arg4 m c),
      (h c _ (mem_uc main_arg5 (by decide))).trans (W5_main_arg5 m c)⟩) (run_all m ρ)

end Cert.KernelIdeal.Hand

end
-- ==== Proof.Spec.lean ====
/-
  The mathematics of the pillar feature net, stated once over the extended reals, with no program in sight.

  For a point cloud `X` (2 000 000 rows of 6 features), a weight matrix `W` (64 × 6) and a bias `b` (64):
  * the linear layer `lin X W b n j = (∑ k, X(n,k) · W(j,k)) + b(j)`;
  * per output channel `j`, the batch mean `mean h j = (∑ n, h n j) / N` with `N = 2·10⁶`;
  * the batch variance in its two textbook forms: the CENTRED form `varC h j = (∑ n, (h n j − mean h j)²) / N`
    and the MOMENT form `varM h j = max ((∑ n, (h n j)²) / N − (mean h j)², 0)`;
  * the normalised, affinely rescaled and rectified feature
    `norm h μ v γ β n j = max (γ(j) · (h n j − μ j) · rsqrt (v j + ε) + β(j), 0)`.
  `outC` / `outM` are the [2 000 000, 64] feature arrays with the centred / the moment variance.
  Quotients are `Ideal.div`, the reciprocal square root is `Ideal.rsqrt`; `N` and `ε` are the two float words the
  programs share (2.0e6 exactly; the float nearest 1e-5), kept as words: both sides read the same word.
-/
import Idealize.ShloMosaic.PureOps.Ideal
import Idealize.ShloMosaic.Lib.ValueIdx

noncomputable section

open scoped BigOperators

namespace Cert.Pillar

open Idealize.ShloMosaic Idealize.ShloMosaic.ValueIdx

/-- The number of points, as the float word both programs divide by (2.0e6). -/
def nPts : EReal := Ideal.ofBits .f32 0x49F42400#32
/-- The variance's stabiliser, as the float word both programs add (the float nearest 1e-5). -/
def eps : EReal := Ideal.ofBits .f32 0x3727C5AC#32

/-- The linear layer at point `n`, channel `j`. -/
def lin (X : (⟨2, ![2000000, 6]⟩ : Shape).Idx → EReal) (W : (⟨2, ![64, 6]⟩ : Shape).Idx → EReal)
    (b : (⟨1, ![64]⟩ : Shape).Idx → EReal) (n : Fin 2000000) (j : Fin 64) : EReal :=
  (∑ k : Fin 6, X (ix2 n k) * W (ix2 j k)) + b (ix1 j)

/-- The batch mean of channel `j`. -/
def mean (h : Fin 2000000 → Fin 64 → EReal) (j : Fin 64) : EReal :=
  Ideal.div (∑ n : Fin 2000000, h n j) nPts

/-- The batch variance of channel `j`, centred form: the mean of the squared deviations. -/
def varC (h : Fin 2000000 → Fin 64 → EReal) (j : Fin 64) : EReal :=
  Ideal.div (∑ n : Fin 2000000, (h n j - mean h j) * (h n j - mean h j)) nPts

/-- The batch variance of channel `j`, moment form: the mean of the squares less the squared mean, clamped at zero. -/
def varM (h : Fin 2000000 → Fin 64 → EReal) (j : Fin 64) : EReal :=
  max (Ideal.div (∑ n : Fin 2000000, h n j * h n j) nPts - mean h j * mean h j) 0

/-- One feature normalised by a mean `μ` and a variance `v`, rescaled by `γ`, shifted by `β`, rectified. -/
def norm (h : Fin 2000000 → Fin 64 → EReal) (μ v : Fin 64 → EReal)
    (γ β : (⟨1, ![64]⟩ : Shape).Idx → EReal) (n : Fin 2000000) (j : Fin 64) : EReal :=
  max (γ (ix1 j) * (h n j - μ j) * Ideal.rsqrt (v j + eps) + β (ix1 j)) 0

/-- The feature array with the centred variance. -/
def outC (X : (⟨2, ![2000000, 6]⟩ : Shape).Idx → EReal) (W : (⟨2, ![64, 6]⟩ : Shape).Idx → EReal)
    (b γ β : (⟨1, ![64]⟩ : Shape).Idx → EReal) : (⟨2, ![2000000, 64]⟩ : Shape).Idx → EReal :=
  fun i => norm (lin X W b) (mean (lin X W b)) (varC (lin X W b)) γ β (i 0) (i 1)

/-- The feature array with the moment variance. -/
def outM (X : (⟨2, ![2000000, 6]⟩ : Shape).Idx → EReal) (W : (⟨2, ![64, 6]⟩ : Shape).Idx → EReal)
    (b γ β : (⟨1, ![64]⟩ : Shape).Idx → EReal) : (⟨2, ![2000000, 64]⟩ : Shape).Idx → EReal :=
  fun i => norm (lin X W b) (mean (lin X W b)) (varM (lin X W b)) γ β (i 0) (i 1)

end Cert.Pillar

end
-- ==== Proof.RefValue.lean ====
/-
  The reference program's rectified feature array is the pillar feature net with the centred variance.

  The reference computes, for a point cloud `X`, weights `W`, bias `b`, scale `γ` and shift `β`: the linear layer
  `h(n,j) = (∑ k, X(n,k) · W(j,k)) + b(j)` (a transpose of `W`, a product, a broadcast sum); the batch mean
  `(0 + ∑ n, h(n,j)) / N`; the centred variance `(0 + ∑ n, (h(n,j) − mean j)²) / N`; and the rectified, rescaled
  feature `max (γ(j) · (h(n,j) − mean j) · rsqrt (var j + ε) + β(j), 0)`. Read index by index this is
  `Cert.Pillar.outC`: the only arithmetic is dropping the zero a sum starts from. The features are then
  scatter-added into a zero grid at indices computed from the integer argument alone; that chain of operations is
  one function `tail` of the integer argument and the feature array.
-/
import proofs.«164247_j79989470921164_2_alg».proof.Proof.Gen.ReferenceIdeal.Read
import proofs.«164247_j79989470921164_2_alg».proof.Proof.Spec

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

variable (X : (⟨S2000000x6, .f32⟩ : BufTy).Contents (Elt Ideal)) (W : (⟨S64x6, .f32⟩ : BufTy).Contents (Elt Ideal))
  (b γ β : (⟨S64, .f32⟩ : BufTy).Contents (Elt Ideal))

/-! ## The stages, index by index -/

/-- The biased product at point `n`, channel `j` is the linear layer: the transposed weight at `(k, j)` is `W(j,k)`. -/
theorem lin_eq (n : Fin 2000000) (j : Fin 64) :
    val_main_v4 (F := Ideal) X W b (ix2 n j) = Cert.Pillar.lin X W b n j := by
  have el : ∀ k : Fin 6, lidx_main_v1 (ix2 n j) k = ix2 n k := fun k =>
    funext fun a => Fin.ext (by match a with | ⟨0, _⟩ => rfl | ⟨1, _⟩ => rfl)
  have er : ∀ k : Fin 6, idx_main_v0 (ridx_main_v1 (ix2 n j) k) = ix2 j k := fun k =>
    funext fun a => Fin.ext (by match a with | ⟨0, _⟩ => rfl | ⟨1, _⟩ => rfl)
  have eb : idx_main_v2 (idx_main_v3 (ix2 n j)) = ix1 j :=
    funext fun a => Fin.ext (by match a with | ⟨0, _⟩ => rfl)
  rw [val_main_v4_apply, val_main_v1_apply, val_main_v3_apply, val_main_v2_apply]
  simp only [val_main_v0_apply, el, er, eb, Ideal.addf_def]
  rfl

/-- The first reduction divided by the point count is the batch mean: the sum starts from the zero word. -/
theorem mean_eq (j : Fin 64) :
    val_main_v7 (F := Ideal) X W b (ix1 j) = Cert.Pillar.mean (Cert.Pillar.lin X W b) j := by
  have e5 : ∀ k : Fin 2000000, idx_main_v5 (ix1 j) k = ix2 k j := fun k =>
    funext fun a => Fin.ext (by match a with | ⟨0, _⟩ => rfl | ⟨1, _⟩ => rfl)
  rw [val_main_v7_apply, val_main_v5_apply, val_main_v6_apply, val_main_cst_0_apply, val_main_cst_apply]
  simp only [e5, lin_eq, Ideal.hostDivf_def, Ideal.ofBits_def, Ideal.ofBits_zero_f32, zero_add]
  rfl

/-- The deviation from the batch mean (the program forms it twice, from two broadcasts of the one mean). -/
theorem dev_eq (n : Fin 2000000) (j : Fin 64) :
    val_main_v10 (F := Ideal) X W b (ix2 n j)
      = Cert.Pillar.lin X W b n j - Cert.Pillar.mean (Cert.Pillar.lin X W b) j := by
  have e : idx_main_v8 (idx_main_v9 (ix2 n j)) = ix1 j :=
    funext fun a => Fin.ext (by match a with | ⟨0, _⟩ => rfl)
  rw [val_main_v10_apply, val_main_v9_apply, val_main_v8_apply, e, lin_eq, mean_eq]
  rfl

/-- The same deviation, at its second occurrence (the operand of the rescaling). -/
theorem dev_eq' (n : Fin 2000000) (j : Fin 64) :
    val_main_v17 (F := Ideal) X W b (ix2 n j)
      = Cert.Pillar.lin X W b n j - Cert.Pillar.mean (Cert.Pillar.lin X W b) j := by
  have e : idx_main_v15 (idx_main_v16 (ix2 n j)) = ix1 j :=
    funext fun a => Fin.ext (by match a with | ⟨0, _⟩ => rfl)
  rw [val_main_v17_apply, val_main_v16_apply, val_main_v15_apply, e, lin_eq, mean_eq]
  rfl

/-- The second reduction divided by the point count is the centred variance. -/
theorem var_eq (j : Fin 64) :
    val_main_v14 (F := Ideal) X W b (ix1 j) = Cert.Pillar.varC (Cert.Pillar.lin X W b) j := by
  have e12 : ∀ k : Fin 2000000, idx_main_v12 (ix1 j) k = ix2 k j := fun k =>
    funext fun a => Fin.ext (by match a with | ⟨0, _⟩ => rfl | ⟨1, _⟩ => rfl)
  rw [val_main_v14_apply, val_main_v12_apply, val_main_v13_apply, val_main_cst_2_apply, val_main_cst_1_apply]
  simp only [e12, val_main_v11_apply, dev_eq, Ideal.hostDivf_def, Ideal.mulf_def, Ideal.ofBits_def,
    Ideal.ofBits_zero_f32, zero_add]
  rfl

/-- The reference's rectified feature array is the specification's, with the centred variance. -/
theorem relu_eq : val_main_v30 (F := Ideal) X W b γ β = Cert.Pillar.outC X W b γ β := by
  funext i
  obtain ⟨n, j, rfl⟩ : ∃ (n : Fin 2000000) (j : Fin 64), i = ix2 n j := ⟨i 0, i 1, eq_ix2 i⟩
  have eγ : idx_main_v18 (idx_main_v19 (ix2 n j)) = ix1 j :=
    funext fun a => Fin.ext (by match a with | ⟨0, _⟩ => rfl)
  have eβ : idx_main_v27 (idx_main_v28 (ix2 n j)) = ix1 j :=
    funext fun a => Fin.ext (by match a with | ⟨0, _⟩ => rfl)
  have ev : idx_main_v24 (idx_main_v25 (ix2 n j)) = ix1 j :=
    funext fun a => Fin.ext (by match a with | ⟨0, _⟩ => rfl)
  rw [val_main_v30_apply, val_main_v29_apply, val_main_v26_apply, val_main_v20_apply, val_main_v19_apply,
    val_main_v18_apply, val_main_v25_apply, val_main_v24_apply, val_main_v23_apply, val_main_v22_apply,
    val_main_v21_apply, val_main_cst_3_apply, val_main_v28_apply, val_main_v27_apply, val_main_call0_v0_apply,
    val_main_call0_cst_apply, eγ, eβ, ev, dev_eq', var_eq]
  simp only [Ideal.maximumf_def, Ideal.addf_def, Ideal.mulf_def, Ideal.hostUnary_rsqrt_def, Ideal.ofBits_def,
    Ideal.ofBits_zero_f32]
  rfl

/-! ## The shared tail and the run -/

/-- What both programs do with the feature array `u` and the integer argument `idx`: a zero grid, the two index
    columns (a negative index moved up by 512) joined again, and the scatter-add of `u` at those indices. -/
def tail (idx : (⟨S2000000x2, .i32⟩ : BufTy).Contents (Elt Ideal)) (u : (⟨S2000000x64, .f32⟩ : BufTy).Contents (Elt Ideal)) :
    (⟨S512x512x64, .f32⟩ : BufTy).Contents (Elt Ideal) :=
  Host.scatterAdd (F := Ideal) scatter_S512x512x64_S2000000x2_S2000000x64_1_01_01_1
    (broadcastInDim S512x512x64 ![] bcast_S_S512x512x64 (constant (F := Ideal) S_ .f32 0x00000000#32))
    (concatenate S2000000x2 1
      [⟨S2000000x1, broadcastInDim S2000000x1 ![0] bcast_S2000000_S2000000x1_0
          (select (cmpi .slt (shapeCast S2000000 (extractStridedSlice S2000000x1 ![0, 0] idx slices_S2000000x2_S2000000x1_0_0) shapeCasts_S2000000x1_S2000000) (broadcastInDim S2000000 ![] bcast_S_S2000000 (constantI S_ 32 0#32)))
            (addi (shapeCast S2000000 (extractStridedSlice S2000000x1 ![0, 0] idx slices_S2000000x2_S2000000x1_0_0) shapeCasts_S2000000x1_S2000000) (broadcastInDim S2000000 ![] bcast_S_S2000000 (constantI S_ 32 512#32)))
            (shapeCast S2000000 (extractStridedSlice S2000000x1 ![0, 0] idx slices_S2000000x2_S2000000x1_0_0) shapeCasts_S2000000x1_S2000000))⟩,
       ⟨S2000000x1, broadcastInDim S2000000x1 ![0] bcast_S2000000_S2000000x1_0
          (select (cmpi .slt (shapeCast S2000000 (extractStridedSlice S2000000x1 ![0, 1] idx slices_S2000000x2_S2000000x1_0_1) shapeCasts_S2000000x1_S2000000) (broadcastInDim S2000000 ![] bcast_S_S2000000 (constantI S_ 32 0#32)))
            (addi (shapeCast S2000000 (extractStridedSlice S2000000x1 ![0, 1] idx slices_S2000000x2_S2000000x1_0_1) shapeCasts_S2000000x1_S2000000) (broadcastInDim S2000000 ![] bcast_S_S2000000 (constantI S_ 32 512#32)))
            (shapeCast S2000000 (extractStridedSlice S2000000x1 ![0, 1] idx slices_S2000000x2_S2000000x1_0_1) shapeCasts_S2000000x1_S2000000))⟩]
      concatenates_S2000000x1_S2000000x1_S2000000x2_d1)
    u

/-- The reference's result is the tail of the integer argument and the specified features; its arguments end
    unchanged. -/
theorem run (m' : (ℓ : Loc nD τ sig) → Buf (Elt Ideal) ℓ) (g' : Dev nD → PrngReg) :
    θ_run defs (onTc (τ := τ) (main (F := Ideal))) ⟨m', fun _ => 0, g'⟩ (fun r => ∀ c : Dev nD,
      r.2.mem ((c.tc : Thread nD τ).loc main_v49)
        = tail (m' ((c.tc : Thread nD τ).loc main_arg1))
            (Cert.Pillar.outC (m' ((c.tc : Thread nD τ).loc main_arg0)) (m' ((c.tc : Thread nD τ).loc main_arg2))
              (m' ((c.tc : Thread nD τ).loc main_arg3)) (m' ((c.tc : Thread nD τ).loc main_arg4))
              (m' ((c.tc : Thread nD τ).loc main_arg5)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run defs _ _).mono (fun _ h c => ⟨(h c).1.trans (by
      rw [val_main_v49_eq]
      unfold val_main_v49
      rw [relu_eq]
      rfl), (h c).2⟩)
    (Cert.ReferenceIdeal.Value.run (F := Ideal) m' g')

/-- The reference runs and leaves its arguments unchanged. -/
theorem frame (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (Cert.ReferenceIdeal.Value.run (F := Ideal) m g)

end Cert.ReferenceIdeal.RefValue

end
-- ==== Proof.KIHost.lean ====
/-
  The host operations of the two-pass program, read as values over the extended reals.

  Around its two kernel calls the program runs three stretches of host operations. Before the first: the weight
  matrix transposed, and bias, scale and shift each given a leading unit axis. Between the two: from the row of
  column sums `s` and the row of column sums of squares `q` the first call leaves, the mean row `s / N` and the
  variance row `max (q / N − (s / N)², 0)` (the moment form). After the second: the features scatter-added into a
  zero grid, the same chain of operations the reference ends with. Each stretch is read here from ANY contents `W`
  of the buffers it starts from, so that the three readings chain.
-/
import proofs.«164247_j79989470921164_2_alg».proof.Proof.Gen.KernelIdeal.Regions
import proofs.«164247_j79989470921164_2_alg».proof.Proof.RefValue
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HostVal

open Cert.KernelIdeal Cert.KernelIdeal.Gen
open Idealize.ShloMosaic Idealize.ShloMosaic.TcCoe Idealize.SL.Sem Idealize.ShloMosaic.StableHlo Idealize.ShloMosaic.ValueIdx

variable (W : Valuation τ sig (Elt Ideal))

/-! ## What each stretch leaves untouched -/

theorem h0_of (r : Ref sig .tc) (h : r ∉ hostOps0_W) :
    StableHlo.after (hostOps0 (F := Ideal)) W (Proc.devRef .tc r) = W (Proc.devRef .tc r) :=
  StableHlo.after_of_writes_sub hostOps0 _ hostOps0_writes h
theorem h1_of (r : Ref sig .tc) (h : r ∉ hostOps1_W) :
    StableHlo.after (hostOps1 (F := Ideal)) W (Proc.devRef .tc r) = W (Proc.devRef .tc r) :=
  StableHlo.after_of_writes_sub hostOps1 _ hostOps1_writes h
theorem h2_of (r : Ref sig .tc) (h : r ∉ hostOps2_W) :
    StableHlo.after (hostOps2 (F := Ideal)) W (Proc.devRef .tc r) = W (Proc.devRef .tc r) :=
  StableHlo.after_of_writes_sub hostOps2 _ hostOps2_writes h

theorem h0_main_arg0 : StableHlo.after (hostOps0 (F := Ideal)) W (Proc.devRef .tc main_arg0) = W (Proc.devRef .tc main_arg0) := h0_of W main_arg0 (by decide)
theorem h0_main_arg1 : StableHlo.after (hostOps0 (F := Ideal)) W (Proc.devRef .tc main_arg1) = W (Proc.devRef .tc main_arg1) := h0_of W main_arg1 (by decide)
theorem h0_main_arg2 : StableHlo.after (hostOps0 (F := Ideal)) W (Proc.devRef .tc main_arg2) = W (Proc.devRef .tc main_arg2) := h0_of W main_arg2 (by decide)
theorem h0_main_arg3 : StableHlo.after (hostOps0 (F := Ideal)) W (Proc.devRef .tc main_arg3) = W (Proc.devRef .tc main_arg3) := h0_of W main_arg3 (by decide)
theorem h0_main_arg4 : StableHlo.after (hostOps0 (F := Ideal)) W (Proc.devRef .tc main_arg4) = W (Proc.devRef .tc main_arg4) := h0_of W main_arg4 (by decide)
theorem h0_main_arg5 : StableHlo.after (hostOps0 (F := Ideal)) W (Proc.devRef .tc main_arg5) = W (Proc.devRef .tc main_arg5) := h0_of W main_arg5 (by decide)

theorem h1_main_arg0 : StableHlo.after (hostOps1 (F := Ideal)) W (Proc.devRef .tc main_arg0) = W (Proc.devRef .tc main_arg0) := h1_of W main_arg0 (by decide)
theorem h1_main_arg1 : StableHlo.after (hostOps1 (F := Ideal)) W (Proc.devRef .tc main_arg1) = W (Proc.devRef .tc main_arg1) := h1_of W main_arg1 (by decide)
theorem h1_main_arg2 : StableHlo.after (hostOps1 (F := Ideal)) W (Proc.devRef .tc main_arg2) = W (Proc.devRef .tc main_arg2) := h1_of W main_arg2 (by decide)
theorem h1_main_arg3 : StableHlo.after (hostOps1 (F := Ideal)) W (Proc.devRef .tc main_arg3) = W (Proc.devRef .tc main_arg3) := h1_of W main_arg3 (by decide)
theorem h1_main_arg4 : StableHlo.after (hostOps1 (F := Ideal)) W (Proc.devRef .tc main_arg4) = W (Proc.devRef .tc main_arg4) := h1_of W main_arg4 (by decide)
theorem h1_main_arg5 : StableHlo.after (hostOps1 (F := Ideal)) W (Proc.devRef .tc main_arg5) = W (Proc.devRef .tc main_arg5) := h1_of W main_arg5 (by decide)
theorem h1_main_v0 : StableHlo.after (hostOps1 (F := Ideal)) W (Proc.devRef .tc main_v0) = W (Proc.devRef .tc main_v0) := h1_of W main_v0 (by decide)
theorem h1_main_v1 : StableHlo.after (hostOps1 (F := Ideal)) W (Proc.devRef .tc main_v1) = W (Proc.devRef .tc main_v1) := h1_of W main_v1 (by decide)
theorem h1_main_v2 : StableHlo.after (hostOps1 (F := Ideal)) W (Proc.devRef .tc main_v2) = W (Proc.devRef .tc main_v2) := h1_of W main_v2 (by decide)
theorem h1_main_v3 : StableHlo.after (hostOps1 (F := Ideal)) W (Proc.devRef .tc main_v3) = W (Proc.devRef .tc main_v3) := h1_of W main_v3 (by decide)

theorem h2_main_arg0 : StableHlo.after (hostOps2 (F := Ideal)) W (Proc.devRef .tc main_arg0) = W (Proc.devRef .tc main_arg0) := h2_of W main_arg0 (by decide)
theorem h2_main_arg1 : StableHlo.after (hostOps2 (F := Ideal)) W (Proc.devRef .tc main_arg1) = W (Proc.devRef .tc main_arg1) := h2_of W main_arg1 (by decide)
theorem h2_main_arg2 : StableHlo.after (hostOps2 (F := Ideal)) W (Proc.devRef .tc main_arg2) = W (Proc.devRef .tc main_arg2) := h2_of W main_arg2 (by decide)
theorem h2_main_arg3 : StableHlo.after (hostOps2 (F := Ideal)) W (Proc.devRef .tc main_arg3) = W (Proc.devRef .tc main_arg3) := h2_of W main_arg3 (by decide)
theorem h2_main_arg4 : StableHlo.after (hostOps2 (F := Ideal)) W (Proc.devRef .tc main_arg4) = W (Proc.devRef .tc main_arg4) := h2_of W main_arg4 (by decide)
theorem h2_main_arg5 : StableHlo.after (hostOps2 (F := Ideal)) W (Proc.devRef .tc main_arg5) = W (Proc.devRef .tc main_arg5) := h2_of W main_arg5 (by decide)
theorem h2_main_v13 : StableHlo.after (hostOps2 (F := Ideal)) W (Proc.devRef .tc main_v13) = W (Proc.devRef .tc main_v13) := h2_of W main_v13 (by decide)

/-! ## Before the first call: the transposed weights and the three rows -/

/-- A vector of 64 entries given a leading unit axis, read at `(0, j)`, is its entry `j`. -/
theorem row_apply {α : Type} (x : S64.Idx → α) (j : Fin 64) :
    shapeCast S1x64 x shapeCasts_S64_S1x64 (ix2 (0 : Fin 1) j) = x (ix1 j) :=
  shapeCast_apply x shapeCasts_S64_S1x64 (ix2 (0 : Fin 1) j) (ix1 j)
    (by rewrite [Shape.rowMajor_val_one, Shape.rowMajor_val_two]; show j.val = 0 * 64 + j.val; omega)

/-- `main_v0` is the weight matrix transposed. -/
theorem h0_v0 : StableHlo.after (hostOps0 (F := Ideal)) W (Proc.devRef .tc main_v0)
    = transpose S6x64 [1, 0] (W (Proc.devRef .tc main_arg2)) transposes_S64x6_S6x64_1_0 := by
  after_results <;> rfl
theorem h0_v0_apply (k : Fin 6) (j : Fin 64) :
    StableHlo.after (hostOps0 (F := Ideal)) W (Proc.devRef .tc main_v0) (ix2 k j)
      = W (Proc.devRef .tc main_arg2) (ix2 j k) := by
  rw [h0_v0]
  exact transpose_apply [1, 0] _ transposes_S64x6_S6x64_1_0 (ix2 k j) (ix2 j k)
    (fun b => match b with | ⟨0, _⟩ => rfl | ⟨1, _⟩ => rfl)

/-- The row `main_v1` is the vector `main_arg3` with a leading unit axis. -/
theorem h0_v1 : StableHlo.after (hostOps0 (F := Ideal)) W (Proc.devRef .tc main_v1)
    = shapeCast S1x64 (W (Proc.devRef .tc main_arg3)) shapeCasts_S64_S1x64 := by
  after_results <;> rfl
theorem h0_v1_apply (j : Fin 64) :
    StableHlo.after (hostOps0 (F := Ideal)) W (Proc.devRef .tc main_v1) (ix2 (0 : Fin 1) j)
      = W (Proc.devRef .tc main_arg3) (ix1 j) := by
  rw [h0_v1]
  exact row_apply _ j

/-- The row `main_v2` is the vector `main_arg4` with a leading unit axis. -/
theorem h0_v2 : StableHlo.after (hostOps0 (F := Ideal)) W (Proc.devRef .tc main_v2)
    = shapeCast S1x64 (W (Proc.devRef .tc main_arg4)) shapeCasts_S64_S1x64 := by
  after_results <;> rfl
theorem h0_v2_apply (j : Fin 64) :
    StableHlo.after (hostOps0 (F := Ideal)) W (Proc.devRef .tc main_v2) (ix2 (0 : Fin 1) j)
      = W (Proc.devRef .tc main_arg4) (ix1 j) := by
  rw [h0_v2]
  exact row_apply _ j

/-- The row `main_v3` is the vector `main_arg5` with a leading unit axis. -/
theorem h0_v3 : StableHlo.after (hostOps0 (F := Ideal)) W (Proc.devRef .tc main_v3)
    = shapeCast S1x64 (W (Proc.devRef .tc main_arg5)) shapeCasts_S64_S1x64 := by
  after_results <;> rfl
theorem h0_v3_apply (j : Fin 64) :
    StableHlo.after (hostOps0 (F := Ideal)) W (Proc.devRef .tc main_v3) (ix2 (0 : Fin 1) j)
      = W (Proc.devRef .tc main_arg5) (ix1 j) := by
  rw [h0_v3]
  exact row_apply _ j

/-! ## Between the calls: the mean row and the moment-form variance row -/

/-- `main_v6` is the row of sums divided by the point count. -/
theorem h1_v6 : StableHlo.after (hostOps1 (F := Ideal)) W (Proc.devRef .tc main_v6)
    = Host.divf (F := Ideal) (W (Proc.devRef .tc main_v4_0))
        (broadcastInDim S1x64 ![] bcast_S_S1x64 (constant (F := Ideal) S_ .f32 0x49F42400#32)) := by
  after_results <;> rfl
theorem h1_v6_apply (j : Fin 64) :
    (StableHlo.after (hostOps1 (F := Ideal)) W (Proc.devRef .tc main_v6) (ix2 (0 : Fin 1) j) : EReal)
      = Ideal.div (W (Proc.devRef .tc main_v4_0) (ix2 (0 : Fin 1) j)) (Ideal.ofBits .f32 0x49F42400#32) := by
  rw [h1_v6]; rfl

/-- `main_v12` is the row of sums of squares divided by the point count, less the squared mean, clamped at zero. -/
theorem h1_v12 : StableHlo.after (hostOps1 (F := Ideal)) W (Proc.devRef .tc main_v12)
    = maximumf
        (subf
          (Host.divf (F := Ideal) (W (Proc.devRef .tc main_v4_1))
            (broadcastInDim S1x64 ![] bcast_S_S1x64 (constant (F := Ideal) S_ .f32 0x49F42400#32)))
          (mulf
            (Host.divf (F := Ideal) (W (Proc.devRef .tc main_v4_0))
              (broadcastInDim S1x64 ![] bcast_S_S1x64 (constant (F := Ideal) S_ .f32 0x49F42400#32)))
            (Host.divf (F := Ideal) (W (Proc.devRef .tc main_v4_0))
              (broadcastInDim S1x64 ![] bcast_S_S1x64 (constant (F := Ideal) S_ .f32 0x49F42400#32)))))
        (broadcastInDim S1x64 ![] bcast_S_S1x64 (constant (F := Ideal) S_ .f32 0x00000000#32)) := by
  after_results <;> rfl
theorem h1_v12_apply (j : Fin 64) :
    (StableHlo.after (hostOps1 (F := Ideal)) W (Proc.devRef .tc main_v12) (ix2 (0 : Fin 1) j) : EReal)
      = (max (Ideal.div (W (Proc.devRef .tc main_v4_1) (ix2 (0 : Fin 1) j)) (Ideal.ofBits .f32 0x49F42400#32)
          - Ideal.div (W (Proc.devRef .tc main_v4_0) (ix2 (0 : Fin 1) j)) (Ideal.ofBits .f32 0x49F42400#32)
            * Ideal.div (W (Proc.devRef .tc main_v4_0) (ix2 (0 : Fin 1) j)) (Ideal.ofBits .f32 0x49F42400#32)) 0 : EReal) := by
  rw [h1_v12]
  show (max _ (Ideal.ofBits .f32 0x00000000#32) : EReal) = _
  rw [Ideal.ofBits_zero_f32]
  rfl

/-! ## After the second call: the shared tail -/

/-- The result is the reference's tail of the integer argument and the second call's feature array. -/
theorem h2_v32 : StableHlo.after (hostOps2 (F := Ideal)) W (Proc.devRef .tc main_v32)
    = Cert.ReferenceIdeal.RefValue.tail (W (Proc.devRef .tc main_arg1)) (W (Proc.devRef .tc main_v13)) := by
  after_results_simp <;> rfl

end Cert.KernelIdeal.HostVal

end
-- ==== Proof.KIChain.lean ====
/-
  The buffer contents at the boundaries of the two-pass program, read back to the launch memory.

  The contents at each boundary are a fold from the launch memory: a stretch of host operations, then the
  statistics pass (which changes only its two output rows), a stretch, the normalising pass (which changes only the
  feature array), a stretch. Walking the fold back: what the first pass reads is the point cloud, the weight
  matrix transposed and the bias as a row; what the second pass reads is those, the scale and the shift as rows,
  the mean row `s / N` and the variance row `max (q / N − (s / N)², 0)` of the first pass's two output rows `s`
  and `q`; and the program's result is the shared tail of the integer argument and the second pass's output.
-/
import proofs.«164247_j79989470921164_2_alg».proof.Proof.KIRun
import proofs.«164247_j79989470921164_2_alg».proof.Proof.KIHost

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ) (c : Dev nD)

/-! ## Through the first pass: an input window's array, and a buffer that is no window, keep their contents -/

/-- The first pass leaves the array of an input window as it found it. -/
theorem W2_in (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))

/-- The second pass leaves the array of an input window as it found it. -/
theorem W4_in (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))

/-! ## What the first pass reads -/

theorem V1_main_arg0 : V1 m c main_arg0 = m ((c : Thread nD τ).loc main_arg0) :=
  HostVal.h0_main_arg0 (W0 m c)
theorem V1_main_v0 (k : Fin 6) (j : Fin 64) :
    V1 m c main_v0 (ix2 k j) = m ((c : Thread nD τ).loc main_arg2) (ix2 j k) :=
  HostVal.h0_v0_apply (W0 m c) k j
theorem V1_main_v1 (j : Fin 64) :
    V1 m c main_v1 (ix2 (0 : Fin 1) j) = m ((c : Thread nD τ).loc main_arg3) (ix1 j) :=
  HostVal.h0_v1_apply (W0 m c) j

/-! ## What the second pass reads -/

theorem V3_main_arg0 : V3 m c main_arg0 = m ((c : Thread nD τ).loc main_arg0) :=
  (HostVal.h1_main_arg0 (W2 m c)).trans ((W2_in m c 0 rfl).trans (V1_main_arg0 m c))
theorem V3_main_v0 (k : Fin 6) (j : Fin 64) :
    V3 m c main_v0 (ix2 k j) = m ((c : Thread nD τ).loc main_arg2) (ix2 j k) :=
  (congrFun ((HostVal.h1_main_v0 (W2 m c)).trans (W2_in m c 1 rfl)) (ix2 k j)).trans (V1_main_v0 m c k j)
theorem V3_main_v1 (j : Fin 64) :
    V3 m c main_v1 (ix2 (0 : Fin 1) j) = m ((c : Thread nD τ).loc main_arg3) (ix1 j) :=
  (congrFun ((HostVal.h1_main_v1 (W2 m c)).trans (W2_in m c 2 rfl)) (ix2 (0 : Fin 1) j)).trans (V1_main_v1 m c j)
theorem V3_main_v2 (j : Fin 64) :
    V3 m c main_v2 (ix2 (0 : Fin 1) j) = m ((c : Thread nD τ).loc main_arg4) (ix1 j) :=
  (congrFun ((HostVal.h1_main_v2 (W2 m c)).trans (W2_of_ne m c main_v2 (by decide))) (ix2 (0 : Fin 1) j)).trans
    (HostVal.h0_v2_apply (W0 m c) j)
theorem V3_main_v3 (j : Fin 64) :
    V3 m c main_v3 (ix2 (0 : Fin 1) j) = m ((c : Thread nD τ).loc main_arg5) (ix1 j) :=
  (congrFun ((HostVal.h1_main_v3 (W2 m c)).trans (W2_of_ne m c main_v3 (by decide))) (ix2 (0 : Fin 1) j)).trans
    (HostVal.h0_v3_apply (W0 m c) j)

/-- The mean row: the first pass's row of sums over the point count. -/
theorem V3_main_v6 (j : Fin 64) :
    (V3 m c main_v6 (ix2 (0 : Fin 1) j) : EReal)
      = Ideal.div ((dat0 (V1 m) c).arrAt 3 cfg0.N (ix2 (0 : Fin 1) j)) Cert.Pillar.nPts := by
  refine (HostVal.h1_v6_apply (W2 m c) j).trans ?_
  rw [show W2 m c (Proc.devRef .tc main_v4_0) = (dat0 (V1 m) c).arrAt 3 cfg0.N from W2_arr m c 3]
  rfl

/-- The variance row, moment form: the first pass's row of sums of squares over the point count, less the squared
    mean, clamped at zero. -/
theorem V3_main_v12 (j : Fin 64) :
    (V3 m c main_v12 (ix2 (0 : Fin 1) j) : EReal)
      = (max (Ideal.div ((dat0 (V1 m) c).arrAt 4 cfg0.N (ix2 (0 : Fin 1) j)) Cert.Pillar.nPts
          - Ideal.div ((dat0 (V1 m) c).arrAt 3 cfg0.N (ix2 (0 : Fin 1) j)) Cert.Pillar.nPts
            * Ideal.div ((dat0 (V1 m) c).arrAt 3 cfg0.N (ix2 (0 : Fin 1) j)) Cert.Pillar.nPts) 0 : EReal) := by
  refine (HostVal.h1_v12_apply (W2 m c) j).trans ?_
  rw [show W2 m c (Proc.devRef .tc main_v4_0) = (dat0 (V1 m) c).arrAt 3 cfg0.N from W2_arr m c 3,
    show W2 m c (Proc.devRef .tc main_v4_1) = (dat0 (V1 m) c).arrAt 4 cfg0.N from W2_arr m c 4]
  rfl

/-! ## The result -/

/-- The integer argument reaches the last stretch as launched: no host operation writes it and it is no window. -/
theorem W4_main_arg1 : W4 m c (Proc.devRef .tc main_arg1) = m ((c : Thread nD τ).loc main_arg1) :=
  (W4_of_ne m c main_arg1 (by decide)).trans <| (HostVal.h1_main_arg1 (W2 m c)).trans <|
    (W2_of_ne m c main_arg1 (by decide)).trans (HostVal.h0_main_arg1 (W0 m c))

/-- The program's result: the shared tail of the integer argument and the second pass's feature array. -/
theorem W5_main_v32 :
    W5 m c main_v32
      = Cert.ReferenceIdeal.RefValue.tail (m ((c : Thread nD τ).loc main_arg1)) ((dat1 (V3 m) c).arrAt 7 cfg1.N) := by
  refine (HostVal.h2_v32 (W4 m c)).trans ?_
  rw [W4_main_arg1 m c, show W4 m c (Proc.devRef .tc main_v13) = (dat1 (V3 m) c).arrAt 7 cfg1.N from W4_arr m c 7]

end Cert.KernelIdeal.Hand

end
-- ==== Proof.LibAccBlocks.lean ====
import Mathlib
import Idealize.ShloMosaic.Lib.ValueIdx

/-!
# A running accumulator over column blocks is the flat sum

A row of `a * b` entries is visited in `a` consecutive blocks of `b` entries.  An accumulator starts at `z` and, at block
`j`, adds the sum of that block's entries, the entry `l` of block `j` sitting at position `j * b + l`.  After the last
block the accumulator holds `z` plus the sum of all `a * b` entries.  This holds in any commutative additive monoid
(the extended reals are one).
-/

noncomputable section

namespace Cert.LibAccBlocks

/-- Position `l` of block `j` lies inside the row: `j * b + l < a * b` when `j < a` and `l < b`. -/
theorem idx_lt {a b j l : ℕ} (hj : j < a) (hl : l < b) : j * b + l < a * b :=
  calc j * b + l < j * b + b := Nat.add_lt_add_left hl _
    _ = (j + 1) * b := (Nat.succ_mul j b).symm
    _ ≤ a * b := Nat.mul_le_mul_right b hj

/-- The sum over a row of `a * b` entries is the sum over the `a` blocks of each block's `b` entries. -/
theorem sum_eq_sum_blocks {M : Type*} [AddCommMonoid M] (a b : ℕ) (f : Fin (a * b) → M) :
    ∑ k : Fin (a * b), f k = ∑ j : Fin a, ∑ l : Fin b, f ⟨j.val * b + l.val, idx_lt j.isLt l.isLt⟩ := by
  rw [← (finProdFinEquiv (m := a) (n := b)).sum_comp, Fintype.sum_prod_type]
  refine Finset.sum_congr rfl fun j _ => Finset.sum_congr rfl fun l _ => ?_
  congr 1
  ext
  simp only [finProdFinEquiv_apply_val]
  rw [Nat.mul_comm, Nat.add_comm]

/-- **The accumulator lemma.**  If `acc 0 = z` and, for each block `j < a`, `acc (j + 1)` is `acc j` plus the sum of block
    `j`'s entries, then `acc a` is `z` plus the sum of the whole row. -/
theorem acc_blocks {M : Type*} [AddCommMonoid M] (a b : ℕ) (f : Fin (a * b) → M) (z : M) (acc : ℕ → M)
    (h0 : acc 0 = z)
    (hstep : ∀ (j : ℕ) (hj : j < a), acc (j + 1) = acc j + ∑ l : Fin b, f ⟨j * b + l.val, idx_lt hj l.isLt⟩) :
    acc a = z + ∑ k : Fin (a * b), f k := by
  -- the block sums as a function of a bare natural number (zero past the last block)
  let g : ℕ → M := fun j => if hj : j < a then ∑ l : Fin b, f ⟨j * b + l.val, idx_lt hj l.isLt⟩ else 0
  have hpre : ∀ m : ℕ, m ≤ a → acc m = z + ∑ j ∈ Finset.range m, g j := by
    intro m
    induction m with
    | zero => intro _; simp [h0]
    | succ m ih =>
      intro hm
      have hlt : m < a := hm
      rw [hstep m hlt, ih (Nat.le_of_lt hlt), Finset.sum_range_succ, add_assoc]
      congr 2
      simp only [g, dif_pos hlt]
  rw [hpre a le_rfl, sum_eq_sum_blocks, ← Fin.sum_univ_eq_sum_range]
  congr 1
  refine Finset.sum_congr rfl fun j _ => ?_
  simp only [g, dif_pos j.isLt]

/-- The accumulator lemma at the sizes of a 4096-entry row visited in 8 blocks of 512 entries. -/
theorem acc_blocks_8_512 {M : Type*} [AddCommMonoid M] (f : Fin 4096 → M) (z : M) (acc : ℕ → M)
    (h0 : acc 0 = z)
    (hstep : ∀ (j : ℕ) (hj : j < 8),
      acc (j + 1) = acc j + ∑ l : Fin 512, f ⟨j * 512 + l.val, idx_lt (a := 8) (b := 512) hj l.isLt⟩) :
    acc 8 = z + ∑ k : Fin 4096, f k :=
  acc_blocks 8 512 f z acc h0 hstep

end Cert.LibAccBlocks
-- ==== Proof.Sums.lean ====
/-
  A sum over the 2 000 000 points, taken in 100 consecutive blocks of 20 000 points: point r of block t is
  point t · 20000 + r. The flat sum is the sum over the blocks of each block's sum, and an accumulator that
  starts at zero and adds one block's sum per step holds the flat sum after the hundredth step. Only the
  commutativity and associativity of addition are used, so both hold on the extended reals with their
  infinities.
-/
import proofs.«164247_j79989470921164_2_alg».proof.Proof.LibAccBlocks

noncomputable section

open scoped BigOperators

namespace Cert.Pillar

/-- Point r of block t is one of the 2 000 000 points. -/
theorem blk_lt {t r : ℕ} (ht : t < 100) (hr : r < 20000) : t * 20000 + r < 2000000 := by omega

/-- Point r of block t. -/
def blkPt (t : Fin 100) (r : Fin 20000) : Fin 2000000 := ⟨t.val * 20000 + r.val, blk_lt t.isLt r.isLt⟩

theorem blkPt_val (t : Fin 100) (r : Fin 20000) : (blkPt t r).val = t.val * 20000 + r.val := rfl

/-- The sum over all points is the sum over the 100 blocks of the sum over a block's 20 000 points. -/
theorem sum_points_blocks {M : Type*} [AddCommMonoid M] (f : Fin 2000000 → M) :
    ∑ n : Fin 2000000, f n = ∑ t : Fin 100, ∑ r : Fin 20000, f ⟨t.val * 20000 + r.val, blk_lt t.isLt r.isLt⟩ :=
  Cert.LibAccBlocks.sum_eq_sum_blocks 100 20000 f

/-- The same with the point named. -/
theorem sum_points_blkPt {M : Type*} [AddCommMonoid M] (f : Fin 2000000 → M) :
    ∑ n : Fin 2000000, f n = ∑ t : Fin 100, ∑ r : Fin 20000, f (blkPt t r) :=
  sum_points_blocks f

/-- The running form: an accumulator that starts at zero and at step t < 100 adds the sum of block t ends,
    after 100 steps, at the sum over all points. -/
theorem acc_points {M : Type*} [AddCommMonoid M] (f : Fin 2000000 → M) (acc : ℕ → M) (h0 : acc 0 = 0)
    (hstep : ∀ (t : ℕ) (ht : t < 100),
      acc (t + 1) = acc t + ∑ r : Fin 20000, f ⟨t * 20000 + r.val, blk_lt ht r.isLt⟩) :
    acc 100 = ∑ n : Fin 2000000, f n := by
  have h := Cert.LibAccBlocks.acc_blocks 100 20000 f 0 acc h0 hstep
  rw [h, zero_add]

/-- The running form from any starting value z: the end value is z plus the sum over all points. -/
theorem acc_points_from {M : Type*} [AddCommMonoid M] (f : Fin 2000000 → M) (z : M) (acc : ℕ → M) (h0 : acc 0 = z)
    (hstep : ∀ (t : ℕ) (ht : t < 100),
      acc (t + 1) = acc t + ∑ r : Fin 20000, f ⟨t * 20000 + r.val, blk_lt ht r.isLt⟩) :
    acc 100 = z + ∑ n : Fin 2000000, f n :=
  Cert.LibAccBlocks.acc_blocks 100 20000 f z acc h0 hstep

end Cert.Pillar

end
-- ==== Proof.KIBlocks.lean ====
/-
  Each window's block at a grid point, read at an index, as the window's array read where the block sits: a
  block's coordinate in the array is, on each axis, the block index times the block's size plus the coordinate
  inside the block. The block of 20000 point rows at point t starts at row t · 20000; the weight matrix and the
  rows (bias, scale, shift, mean, variance) are whole arrays, the same block at every point. For both kernels'
  pipelines, at any float instance.
-/
import proofs.«164247_j79989470921164_2_alg».proof.Proof.KIRegion0
import proofs.«164247_j79989470921164_2_alg».proof.Proof.KIRegion1
import proofs.«164247_j79989470921164_2_alg».proof.Proof.Sums
import Idealize.ShloMosaic.Lib.Pipeline.Value
import Idealize.ShloMosaic.Lib.ValueIdx

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

variable (V : (c : Dev nD) → (b : Ref sig .tc) → Buf (Elt F) ((c : Thread nD τ).loc b))

/-! ## The index maps, decided once over each grid -/

/-- The statistics kernel's three input windows: the block of point rows moves down one block per point; the weight
    matrix and the bias row stay. -/
theorem idx_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ t.val < 100 :=
  (by decide +kernel : ∀ t : Fin grid0.N, _)

/-- The normalising kernel's eight windows: the block of point rows and the block of output rows move down one block
    per point; the weight matrix and the five rows stay. -/
theorem idx_facts1 : ∀ t : Fin cfg1.N,
    (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0)
    ∧ t.val < 100 :=
  (by decide +kernel : ∀ t : Fin grid1.N, _)

/-- A point of either grid is below 100. -/
theorem lt100_0 (t : Fin cfg0.N) : t.val < 100 := (idx_facts0 t).2.2.2
theorem lt100_1 (t : Fin cfg1.N) : t.val < 100 := (idx_facts1 t).2.2.2.2.2.2.2.2

/-! ## The statistics kernel's input blocks -/

/-- Row r, feature k of the block of point rows at point t is row t · 20000 + r of the point cloud: stated at any
    index i of the array with those two coordinates. -/
theorem iblk0_0_apply (c : Dev nD) (t : Fin cfg0.N) (r : Fin 20000) (k : Fin 6) (i : S2000000x6.Idx)
    (hi0 : (i 0).val = t.val * 20000 + r.val) (hi1 : (i 1).val = k.val) :
    (iblk0 V c 0 t : Vec F S20000x6 .f32) (ix2 r k) = (V c (Pipeline.arrRef spec0 0) : S2000000x6.Idx → Elt F .f32) i := by
  have e0 : win0_0.index t (0 : Fin 2) = t.val := (idx_facts0 t).1.1
  have e1 : win0_0.index t (1 : Fin 2) = 0 := (idx_facts0 t).1.2
  unfold iblk0
  rw [View.read_apply]
  show V c (Pipeline.arrRef spec0 0) _ = V c (Pipeline.arrRef spec0 0) _
  congr 1
  funext a
  apply Fin.ext
  match a with
  | ⟨0, _⟩ => show win0_0.index t 0 * 20000 + 1 * r.val = (i 0).val; rw [e0, hi0]; omega
  | ⟨1, _⟩ => show win0_0.index t 1 * 6 + 1 * k.val = (i 1).val; rw [e1, hi1]; omega

/-- The same at the index written by its coordinates, whatever the proof of the row's bound. -/
theorem iblk0_0_row (c : Dev nD) (t : Fin cfg0.N) (r : Fin 20000) (k : Fin 6) (h : t.val * 20000 + r.val < 2000000) :
    (iblk0 V c 0 t : Vec F S20000x6 .f32) (ix2 r k)
      = (V c (Pipeline.arrRef spec0 0) : S2000000x6.Idx → Elt F .f32) (ix2 (⟨t.val * 20000 + r.val, h⟩ : Fin 2000000) k) :=
  iblk0_0_apply V c t r k _ rfl rfl

/-- The same at point r of block t as the sums over the points name it. -/
theorem iblk0_0_blkPt (c : Dev nD) (t : Fin cfg0.N) (r : Fin 20000) (k : Fin 6) :
    (iblk0 V c 0 t : Vec F S20000x6 .f32) (ix2 r k)
      = (V c (Pipeline.arrRef spec0 0) : S2000000x6.Idx → Elt F .f32) (ix2 (Cert.Pillar.blkPt ⟨t.val, lt100_0 t⟩ r) k) :=
  iblk0_0_apply V c t r k _ rfl rfl

theorem iblk0_1_apply (c : Dev nD) (t : Fin cfg0.N) (y : S6x64.Idx) :
    (iblk0 V c 1 t : Vec F S6x64 .f32) y = (V c (Pipeline.arrRef spec0 1) : S6x64.Idx → Elt F .f32) y := by
  have e0 : win0_1.index t (0 : Fin 2) = 0 := (idx_facts0 t).2.1.1
  have e1 : win0_1.index t (1 : Fin 2) = 0 := (idx_facts0 t).2.1.2
  unfold iblk0
  rw [View.read_apply]
  show V c (Pipeline.arrRef spec0 1) _ = V c (Pipeline.arrRef spec0 1) _
  congr 1
  funext a
  apply Fin.ext
  match a with
  | ⟨0, _⟩ => show win0_1.index t 0 * 6 + 1 * (y 0).val = (y 0).val; rw [e0]; omega
  | ⟨1, _⟩ => show win0_1.index t 1 * 64 + 1 * (y 1).val = (y 1).val; rw [e1]; omega

theorem iblk0_1_eq (c : Dev nD) (t : Fin cfg0.N) :
    (iblk0 V c 1 t : Vec F S6x64 .f32) = (V c (Pipeline.arrRef spec0 1) : S6x64.Idx → Elt F .f32) :=
  funext (iblk0_1_apply V c t)

theorem iblk0_2_apply (c : Dev nD) (t : Fin cfg0.N) (y : S1x64.Idx) :
    (iblk0 V c 2 t : Vec F S1x64 .f32) y = (V c (Pipeline.arrRef spec0 2) : S1x64.Idx → Elt F .f32) y := by
  have e0 : win0_2.index t (0 : Fin 2) = 0 := (idx_facts0 t).2.2.1.1
  have e1 : win0_2.index t (1 : Fin 2) = 0 := (idx_facts0 t).2.2.1.2
  unfold iblk0
  rw [View.read_apply]
  show V c (Pipeline.arrRef spec0 2) _ = V c (Pipeline.arrRef spec0 2) _
  congr 1
  funext a
  apply Fin.ext
  match a with
  | ⟨0, _⟩ => show win0_2.index t 0 * 1 + 1 * (y 0).val = (y 0).val; rw [e0]; omega
  | ⟨1, _⟩ => show win0_2.index t 1 * 64 + 1 * (y 1).val = (y 1).val; rw [e1]; omega

theorem iblk0_2_eq (c : Dev nD) (t : Fin cfg0.N) :
    (iblk0 V c 2 t : Vec F S1x64 .f32) = (V c (Pipeline.arrRef spec0 2) : S1x64.Idx → Elt F .f32) :=
  funext (iblk0_2_apply V c t)

/-! ## The normalising kernel's input blocks -/

/-- Row r, feature k of the block of point rows at point t is row t · 20000 + r of the point cloud: stated at any
    index i of the array with those two coordinates. -/
theorem iblk1_0_apply (c : Dev nD) (t : Fin cfg1.N) (r : Fin 20000) (k : Fin 6) (i : S2000000x6.Idx)
    (hi0 : (i 0).val = t.val * 20000 + r.val) (hi1 : (i 1).val = k.val) :
    (iblk1 V c 0 t : Vec F S20000x6 .f32) (ix2 r k) = (V c (Pipeline.arrRef spec1 0) : S2000000x6.Idx → Elt F .f32) i := by
  have e0 : win1_0.index t (0 : Fin 2) = t.val := (idx_facts1 t).1.1
  have e1 : win1_0.index t (1 : Fin 2) = 0 := (idx_facts1 t).1.2
  unfold iblk1
  rw [View.read_apply]
  show V c (Pipeline.arrRef spec1 0) _ = V c (Pipeline.arrRef spec1 0) _
  congr 1
  funext a
  apply Fin.ext
  match a with
  | ⟨0, _⟩ => show win1_0.index t 0 * 20000 + 1 * r.val = (i 0).val; rw [e0, hi0]; omega
  | ⟨1, _⟩ => show win1_0.index t 1 * 6 + 1 * k.val = (i 1).val; rw [e1, hi1]; omega

/-- The same at the index written by its coordinates, whatever the proof of the row's bound. -/
theorem iblk1_0_row (c : Dev nD) (t : Fin cfg1.N) (r : Fin 20000) (k : Fin 6) (h : t.val * 20000 + r.val < 2000000) :
    (iblk1 V c 0 t : Vec F S20000x6 .f32) (ix2 r k)
      = (V c (Pipeline.arrRef spec1 0) : S2000000x6.Idx → Elt F .f32) (ix2 (⟨t.val * 20000 + r.val, h⟩ : Fin 2000000) k) :=
  iblk1_0_apply V c t r k _ rfl rfl

/-- The same at point r of block t as the sums over the points name it. -/
theorem iblk1_0_blkPt (c : Dev nD) (t : Fin cfg1.N) (r : Fin 20000) (k : Fin 6) :
    (iblk1 V c 0 t : Vec F S20000x6 .f32) (ix2 r k)
      = (V c (Pipeline.arrRef spec1 0) : S2000000x6.Idx → Elt F .f32) (ix2 (Cert.Pillar.blkPt ⟨t.val, lt100_1 t⟩ r) k) :=
  iblk1_0_apply V c t r k _ rfl rfl

theorem iblk1_1_apply (c : Dev nD) (t : Fin cfg1.N) (y : S6x64.Idx) :
    (iblk1 V c 1 t : Vec F S6x64 .f32) y = (V c (Pipeline.arrRef spec1 1) : S6x64.Idx → Elt F .f32) y := by
  have e0 : win1_1.index t (0 : Fin 2) = 0 := (idx_facts1 t).2.1.1
  have e1 : win1_1.index t (1 : Fin 2) = 0 := (idx_facts1 t).2.1.2
  unfold iblk1
  rw [View.read_apply]
  show V c (Pipeline.arrRef spec1 1) _ = V c (Pipeline.arrRef spec1 1) _
  congr 1
  funext a
  apply Fin.ext
  match a with
  | ⟨0, _⟩ => show win1_1.index t 0 * 6 + 1 * (y 0).val = (y 0).val; rw [e0]; omega
  | ⟨1, _⟩ => show win1_1.index t 1 * 64 + 1 * (y 1).val = (y 1).val; rw [e1]; omega

theorem iblk1_1_eq (c : Dev nD) (t : Fin cfg1.N) :
    (iblk1 V c 1 t : Vec F S6x64 .f32) = (V c (Pipeline.arrRef spec1 1) : S6x64.Idx → Elt F .f32) :=
  funext (iblk1_1_apply V c t)

theorem iblk1_2_apply (c : Dev nD) (t : Fin cfg1.N) (y : S1x64.Idx) :
    (iblk1 V c 2 t : Vec F S1x64 .f32) y = (V c (Pipeline.arrRef spec1 2) : S1x64.Idx → Elt F .f32) y := by
  have e0 : win1_2.index t (0 : Fin 2) = 0 := (idx_facts1 t).2.2.1.1
  have e1 : win1_2.index t (1 : Fin 2) = 0 := (idx_facts1 t).2.2.1.2
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * (y 0).val = (y 0).val; rw [e0]; omega
  | ⟨1, _⟩ => show win1_2.index t 1 * 64 + 1 * (y 1).val = (y 1).val; rw [e1]; omega

theorem iblk1_2_eq (c : Dev nD) (t : Fin cfg1.N) :
    (iblk1 V c 2 t : Vec F S1x64 .f32) = (V c (Pipeline.arrRef spec1 2) : S1x64.Idx → Elt F .f32) :=
  funext (iblk1_2_apply V c t)

theorem iblk1_3_apply (c : Dev nD) (t : Fin cfg1.N) (y : S1x64.Idx) :
    (iblk1 V c 3 t : Vec F S1x64 .f32) y = (V c (Pipeline.arrRef spec1 3) : S1x64.Idx → Elt F .f32) y := by
  have e0 : win1_3.index t (0 : Fin 2) = 0 := (idx_facts1 t).2.2.2.1.1
  have e1 : win1_3.index t (1 : Fin 2) = 0 := (idx_facts1 t).2.2.2.1.2
  unfold iblk1
  rw [View.read_apply]
  show V c (Pipeline.arrRef spec1 3) _ = V c (Pipeline.arrRef spec1 3) _
  congr 1
  funext a
  apply Fin.ext
  match a with
  | ⟨0, _⟩ => show win1_3.index t 0 * 1 + 1 * (y 0).val = (y 0).val; rw [e0]; omega
  | ⟨1, _⟩ => show win1_3.index t 1 * 64 + 1 * (y 1).val = (y 1).val; rw [e1]; omega

theorem iblk1_3_eq (c : Dev nD) (t : Fin cfg1.N) :
    (iblk1 V c 3 t : Vec F S1x64 .f32) = (V c (Pipeline.arrRef spec1 3) : S1x64.Idx → Elt F .f32) :=
  funext (iblk1_3_apply V c t)

theorem iblk1_4_apply (c : Dev nD) (t : Fin cfg1.N) (y : S1x64.Idx) :
    (iblk1 V c 4 t : Vec F S1x64 .f32) y = (V c (Pipeline.arrRef spec1 4) : S1x64.Idx → Elt F .f32) y := by
  have e0 : win1_4.index t (0 : Fin 2) = 0 := (idx_facts1 t).2.2.2.2.1.1
  have e1 : win1_4.index t (1 : Fin 2) = 0 := (idx_facts1 t).2.2.2.2.1.2
  unfold iblk1
  rw [View.read_apply]
  show V c (Pipeline.arrRef spec1 4) _ = V c (Pipeline.arrRef spec1 4) _
  congr 1
  funext a
  apply Fin.ext
  match a with
  | ⟨0, _⟩ => show win1_4.index t 0 * 1 + 1 * (y 0).val = (y 0).val; rw [e0]; omega
  | ⟨1, _⟩ => show win1_4.index t 1 * 64 + 1 * (y 1).val = (y 1).val; rw [e1]; omega

theorem iblk1_4_eq (c : Dev nD) (t : Fin cfg1.N) :
    (iblk1 V c 4 t : Vec F S1x64 .f32) = (V c (Pipeline.arrRef spec1 4) : S1x64.Idx → Elt F .f32) :=
  funext (iblk1_4_apply V c t)

theorem iblk1_5_apply (c : Dev nD) (t : Fin cfg1.N) (y : S1x64.Idx) :
    (iblk1 V c 5 t : Vec F S1x64 .f32) y = (V c (Pipeline.arrRef spec1 5) : S1x64.Idx → Elt F .f32) y := by
  have e0 : win1_5.index t (0 : Fin 2) = 0 := (idx_facts1 t).2.2.2.2.2.1.1
  have e1 : win1_5.index t (1 : Fin 2) = 0 := (idx_facts1 t).2.2.2.2.2.1.2
  unfold iblk1
  rw [View.read_apply]
  show V c (Pipeline.arrRef spec1 5) _ = V c (Pipeline.arrRef spec1 5) _
  congr 1
  funext a
  apply Fin.ext
  match a with
  | ⟨0, _⟩ => show win1_5.index t 0 * 1 + 1 * (y 0).val = (y 0).val; rw [e0]; omega
  | ⟨1, _⟩ => show win1_5.index t 1 * 64 + 1 * (y 1).val = (y 1).val; rw [e1]; omega

theorem iblk1_5_eq (c : Dev nD) (t : Fin cfg1.N) :
    (iblk1 V c 5 t : Vec F S1x64 .f32) = (V c (Pipeline.arrRef spec1 5) : S1x64.Idx → Elt F .f32) :=
  funext (iblk1_5_apply V c t)

theorem iblk1_6_apply (c : Dev nD) (t : Fin cfg1.N) (y : S1x64.Idx) :
    (iblk1 V c 6 t : Vec F S1x64 .f32) y = (V c (Pipeline.arrRef spec1 6) : S1x64.Idx → Elt F .f32) y := by
  have e0 : win1_6.index t (0 : Fin 2) = 0 := (idx_facts1 t).2.2.2.2.2.2.1.1
  have e1 : win1_6.index t (1 : Fin 2) = 0 := (idx_facts1 t).2.2.2.2.2.2.1.2
  unfold iblk1
  rw [View.read_apply]
  show V c (Pipeline.arrRef spec1 6) _ = V c (Pipeline.arrRef spec1 6) _
  congr 1
  funext a
  apply Fin.ext
  match a with
  | ⟨0, _⟩ => show win1_6.index t 0 * 1 + 1 * (y 0).val = (y 0).val; rw [e0]; omega
  | ⟨1, _⟩ => show win1_6.index t 1 * 64 + 1 * (y 1).val = (y 1).val; rw [e1]; omega

theorem iblk1_6_eq (c : Dev nD) (t : Fin cfg1.N) :
    (iblk1 V c 6 t : Vec F S1x64 .f32) = (V c (Pipeline.arrRef spec1 6) : S1x64.Idx → Elt F .f32) :=
  funext (iblk1_6_apply V c t)

end Cert.KernelIdeal.Hand

end
-- ==== Proof.LibPlainDot.lean ====
/-
  The plain product of an M×K matrix by a K×N matrix, read at one entry, at the ideal values:
  entry (a, b) is the sum over the contracted coordinate c of A(a, c) · B(c, b).
  Stated for ANY dimension record equal to the plain one (rows × contraction by contraction × columns, no batch
  axis), for a kernel's matrix product accumulated into the zero splat and for the host's product, which has no
  accumulator: adding to zero is the only arithmetic used, so both hold at the infinities too.
-/
import Idealize.ShloMosaic.Lib.StackMember

noncomputable section

namespace Cert.LibPlainDot

open Idealize.ShloMosaic Idealize.ShloMosaic.ValueIdx
open scoped BigOperators

variable {M K N : Nat} {φ₁ φ₂ : FTy}

/-- The host's plain product at entry (a, b): the sum over c of A(a, c) · B(c, b). -/
theorem dotGeneral_plain_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    Host.dotGeneral D prec A B (ix2 a b) = ∑ c : Fin K, A (ix2 a c) * B (ix2 c b) := by
  subst hD
  exact StackMember.dotGeneral_plain_apply prec A B a b

/-- A kernel's plain product accumulated into the zero splat, at entry (a, b): the same sum. -/
theorem matmul_plain_zero_apply (D : DotDims ⟨2, ![M, K]⟩ ⟨2, ![K, N]⟩ ⟨2, ![M, N]⟩) (hD : D = DotDims.plain M K N)
    (prec : Option ContractPrecision) (A : FVec Ideal ⟨2, ![M, K]⟩ φ₁) (B : FVec Ideal ⟨2, ![K, N]⟩ φ₂)
    (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact dotGeneral_plain_apply D hD prec A B a b

end Cert.LibPlainDot

end
-- ==== Proof.Payloads.lean ====
/-
  The kernel's payloads read at one index, at the ideal values.

  The statistics kernel computes, on a block of 20000 points, the linear layer
  h(r, j) = (Σ_k X(r, k) · W(k, j)) + b(j), then adds the column sums Σ_r h(r, j) and Σ_r h(r, j)² to two
  running rows. The normalising kernel recomputes the same linear layer and applies
  max(γ(j) · (h(r, j) − mean(j)) · rsqrt(var(j) + ε) + β(j), 0).
  Format changes are the identity on the extended reals, a cast of a shape to itself is the identity, a
  row broadcast reads its one row, a sum over the leading axis is the sum over that axis's coordinate, and
  a product accumulated into the zero splat is the sum over the contracted coordinate.
-/
import proofs.«164247_j79989470921164_2_alg».proof.Proof.Gen.KernelIdeal.Skeleton
import proofs.«164247_j79989470921164_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open scoped BigOperators

/-! ## The layout operations of these kernels at an index -/

/-- The kernel's product is the plain one: 20000×6 by 6×64, no batch axis. -/
theorem dot_eq_plain : dot_S20000x6_S6x64_S20000x64_1_0_0_1_n_n = DotDims.plain 20000 6 64 := rfl

/-- A [1, 64] row, cast to its own shape and broadcast over the 20000 rows, reads at (r, j) the row at j. -/
theorem row_bcast_apply (v : FVec Ideal S1x64 .f32) (h1 : S1x64.ShapeCasts S1x64) (h2 : S1x64.Broadcasts S20000x64)
    (r : Fin 20000) (j : Fin 64) :
    broadcastTo S20000x64 (shapeCast S1x64 v h1) h2 (ix2 r j) = v (ix2 (0 : Fin 1) j) := by
  rw [shapeCast_self]
  exact broadcastTo_1b_ab_apply _ _ r j

/-- The sum over the leading axis of a [20000, 64] array, from the zero word, read at channel j: the sum over the
    20000 rows of the entry (r, j). -/
theorem colsum_apply (src : FVec Ideal S20000x64 .f32) (h : S20000x64.Reduces [0] S64) (hφ : FKind.Formats .f32)
    (hacc : (0x00000000#32 : BitVec 32) = 0x00000000#32) (j : Fin 64) :
    multiReduction (F := Ideal) .add [0] S64 src 0x00000000#32 h hφ hacc (ix1 j) = ∑ r : Fin 20000, src (ix2 r j) := by
  refine (Ideal.multiReduction_add_single src 0x00000000#32 h hφ hacc (ix1 j)).trans ?_
  refine Finset.sum_congr rfl fun r _ => congrArg src ?_
  funext a
  apply Fin.ext
  match a with
  | ⟨0, _⟩ => rfl
  | ⟨1, _⟩ => rfl

/-! ## The statistics kernel -/

/-- The zero splat the two running rows start from. -/
theorem pay1_zero (i : S1x64.Idx) : k0_pay1 (F := Ideal) i = 0 := by
  unfold k0_pay1
  refine (congrFun (shapeCast_self _ _) _).trans ?_
  exact Ideal.ofBits_zero_f32

theorem pay2_zero (i : S1x64.Idx) : k0_pay2 (F := Ideal) i = 0 := by
  unfold k0_pay2
  refine (congrFun (shapeCast_self _ _) _).trans ?_
  exact Ideal.ofBits_zero_f32

theorem pay1_zero_apply (j : Fin 64) : k0_pay1 (F := Ideal) (ix2 (0 : Fin 1) j) = 0 := pay1_zero _
theorem pay2_zero_apply (j : Fin 64) : k0_pay2 (F := Ideal) (ix2 (0 : Fin 1) j) = 0 := pay2_zero _

/-- The linear layer at (r, j): the sum over the 6 input features of X(r, k) · W(k, j), plus the bias b(j). -/
theorem pay3_apply (v3 : Vec Ideal S20000x6 .f32) (v5 : Vec Ideal S6x64 .f32) (v9 : Vec Ideal S1x64 .f32)
    (r : Fin 20000) (j : Fin 64) :
    k0_pay3 (F := Ideal) v3 v5 v9 (ix2 r j)
      = (∑ k : Fin 6, v3 (ix2 r k) * v5 (ix2 k j)) + v9 (ix2 (0 : Fin 1) j) := by
  unfold k0_pay3
  refine (addf_apply _ _ _).trans ?_
  congr 1
  · refine (Cert.LibPlainDot.matmul_plain_zero_apply _ dot_eq_plain none _ _ r j).trans ?_
    refine Finset.sum_congr rfl fun k _ => ?_
    rw [shapeCast_self]
    rfl
  · exact row_bcast_apply v9 _ _ r j

/-- The first running row after a block: the row before, plus the block's column sum of the linear layer. -/
theorem pay4_apply (v3 : Vec Ideal S20000x6 .f32) (v5 : Vec Ideal S6x64 .f32) (v9 : Vec Ideal S1x64 .f32)
    (v13 : Vec Ideal S1x64 .f32) (j : Fin 64) :
    k0_pay4 (F := Ideal) v3 v5 v9 v13 (ix2 (0 : Fin 1) j)
      = v13 (ix2 (0 : Fin 1) j) + ∑ r : Fin 20000, k0_pay3 (F := Ideal) v3 v5 v9 (ix2 r j) := by
  unfold k0_pay4
  refine (congrFun (shapeCast_self _ _) _).trans ?_
  refine (addf_apply _ _ _).trans ?_
  refine congrArg (v13 (ix2 (0 : Fin 1) j) + ·) ?_
  refine (shapeCast_a_1a_apply _ _ 0 j).trans ?_
  exact colsum_apply _ _ _ _ j

/-- The second running row after a block: the row before, plus the block's column sum of the squared linear layer. -/
theorem pay5_apply (v3 : Vec Ideal S20000x6 .f32) (v5 : Vec Ideal S6x64 .f32) (v9 : Vec Ideal S1x64 .f32)
    (v20 : Vec Ideal S1x64 .f32) (j : Fin 64) :
    k0_pay5 (F := Ideal) v3 v5 v9 v20 (ix2 (0 : Fin 1) j)
      = v20 (ix2 (0 : Fin 1) j)
        + ∑ r : Fin 20000, k0_pay3 (F := Ideal) v3 v5 v9 (ix2 r j) * k0_pay3 (F := Ideal) v3 v5 v9 (ix2 r j) := by
  unfold k0_pay5
  refine (congrFun (shapeCast_self _ _) _).trans ?_
  refine (addf_apply _ _ _).trans ?_
  refine congrArg (v20 (ix2 (0 : Fin 1) j) + ·) ?_
  refine (shapeCast_a_1a_apply _ _ 0 j).trans ?_
  exact colsum_apply _ _ _ _ j

/-! ## The normalising kernel -/

/-- The normalised feature at (r, j): γ(j) · (h(r, j) − μ(j)) · rsqrt(v(j) + ε) + β(j), rectified; h is the
    statistics kernel's linear layer on the same operands. -/
theorem pay1_apply (v0 : Vec Ideal S20000x6 .f32) (v2 : Vec Ideal S6x64 .f32) (v6 v10 v15 v17 v25 : Vec Ideal S1x64 .f32)
    (r : Fin 20000) (j : Fin 64) :
    k1_pay1 (F := Ideal) v0 v2 v6 v10 v15 v17 v25 (ix2 r j)
      = max (v15 (ix2 (0 : Fin 1) j) * (k0_pay3 (F := Ideal) v0 v2 v6 (ix2 r j) - v17 (ix2 (0 : Fin 1) j))
              * Ideal.rsqrt (v10 (ix2 (0 : Fin 1) j) + Ideal.ofBits .f32 0x3727C5AC#32)
            + v25 (ix2 (0 : Fin 1) j)) 0 := by
  unfold k1_pay1
  refine (maximumf_apply _ _ _).trans ?_
  refine congrArg₂ max ?_ Ideal.ofBits_zero_f32
  refine (addf_apply _ _ _).trans ?_
  refine congrArg₂ (· + ·) ?_ (row_bcast_apply v25 _ _ r j)
  refine (mulf_apply _ _ _).trans ?_
  refine congrArg₂ (· * ·) ?_ ?_
  · refine (mulf_apply _ _ _).trans ?_
    refine congrArg₂ (· * ·) (row_bcast_apply v15 _ _ r j) ?_
    refine (subf_apply _ _ _).trans ?_
    exact congrArg₂ (· - ·) rfl (row_bcast_apply v17 _ _ r j)
  · refine (broadcastTo_1b_ab_apply _ _ r j).trans ?_
    rw [shapeCast_self]
    rfl

end Cert.KernelIdeal.Pay

end
-- ==== Proof.KIValue1.lean ====
/-
  The value of the normalising kernel's region: after its 100 points the output array holds, at row n and channel
  j, the normalised feature max(γ(j) · (h(n, j) − μ(j)) · rsqrt(v(j) + ε) + β(j), 0) of the seven input arrays as
  the region finds them, h(n, j) = (Σ_k X(n, k) · W(k, j)) + b(j) being the linear layer.
  Point t writes back the block of rows t · 20000 … t · 20000 + 19999; the body's one store is the payload of the
  seven input blocks; each input block, read at an index, is its array read where the block sits; and every row n
  lies in the block of point n / 20000, so the 100 blocks cover the array.
-/
import proofs.«164247_j79989470921164_2_alg».proof.Proof.KIBlocks
import proofs.«164247_j79989470921164_2_alg».proof.Proof.Payloads

set_option maxRecDepth 65536

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

open Cert.KernelIdeal.Pay

/-! ## The function the output array ends at -/

/-- The normalised, rescaled, shifted and rectified feature of point n, channel j, from the point cloud X, the
    weight matrix W (features by channels), and the rows bias b, scale γ, shift β, mean μ, variance v. -/
def feat (X : S2000000x6.Idx → EReal) (W : S6x64.Idx → EReal) (b γ β μ v : S1x64.Idx → EReal)
    (n : Fin 2000000) (j : Fin 64) : EReal :=
  max (γ (ix2 (0 : Fin 1) j) * (((∑ k : Fin 6, X (ix2 n k) * W (ix2 k j)) + b (ix2 (0 : Fin 1) j)) - μ (ix2 (0 : Fin 1) j))
          * Ideal.rsqrt (v (ix2 (0 : Fin 1) j) + Ideal.ofBits .f32 0x3727C5AC#32)
        + β (ix2 (0 : Fin 1) j)) 0

/-- The body's value at row r, channel j of a block, when the block of point rows holds at row r the array's row n. -/
theorem out_point (x0 : Vec Ideal S20000x6 .f32) (x1 : Vec Ideal S6x64 .f32) (x2 x3 x4 x5 x6 : Vec Ideal S1x64 .f32)
    (X : S2000000x6.Idx → EReal) (n : Fin 2000000) (r : Fin 20000) (j : Fin 64)
    (h0 : ∀ k : Fin 6, x0 (ix2 r k) = X (ix2 n k)) :
    k1_pay1 (F := Ideal) x0 x1 x2 x6 x3 x5 x4 (ix2 r j) = feat X x1 x2 x3 x4 x5 x6 n j := by
  have hs : (∑ k : Fin 6, x0 (ix2 r k) * x1 (ix2 k j)) = ∑ k : Fin 6, X (ix2 n k) * x1 (ix2 k j) :=
    Finset.sum_congr rfl fun k _ => by rw [h0 k]
  rw [pay1_apply, pay3_apply, hs]
  rfl

section Value
variable (V : (c : Dev nD) → (b : Ref sig .tc) → Buf (Elt Ideal) ((c : Thread nD τ).loc b))

/-- The arrays of the eight windows, by name. -/
theorem arrRef1_0 : Pipeline.arrRef spec1 0 = main_arg0 := rfl
theorem arrRef1_1 : Pipeline.arrRef spec1 1 = main_v0 := rfl
theorem arrRef1_2 : Pipeline.arrRef spec1 2 = main_v1 := rfl
theorem arrRef1_3 : Pipeline.arrRef spec1 3 = main_v2 := rfl
theorem arrRef1_4 : Pipeline.arrRef spec1 4 = main_v3 := rfl
theorem arrRef1_5 : Pipeline.arrRef spec1 5 = main_v6 := rfl
theorem arrRef1_6 : Pipeline.arrRef spec1 6 = main_v12 := rfl
theorem arrRef1_7 : Pipeline.arrRef spec1 7 = main_v13 := rfl

/-- What the output array ends holding: at (n, j), the feature of the seven input arrays as the region finds them
    (in window order: point cloud, weight matrix, bias, scale, shift, mean, variance). -/
def G1 (c : Dev nD) : S2000000x64.Idx → Elt Ideal .f32 := fun i =>
  feat (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (i 0) (i 1)

theorem G1_apply (c : Dev nD) (i : S2000000x64.Idx) :
    G1 V c i = feat (V c main_arg0) (V c main_v0) (V c main_v1) (V c main_v2) (V c main_v3) (V c main_v6) (V c main_v12) (i 0) (i 1) := rfl

theorem G1_ix2 (c : Dev nD) (n : Fin 2000000) (j : Fin 64) :
    G1 V c (ix2 n j) = feat (V c main_arg0) (V c main_v0) (V c main_v1) (V c main_v2) (V c main_v3) (V c main_v6) (V c main_v12) n j := rfl

/-! ## What a point writes back -/

theorem hz2 : (![0, 0] : Fin 2 → Nat) = fun _ => 0 := funext fun a => by fin_cases a <;> rfl

/-- What a write-back takes from the output window's staging buffer is the buffer: the block is never cut at the
    array's end. Stated over any contents. -/
theorem cut1_7_apply {α : Type} (t : Fin cfg1.N) (P : S20000x64.Idx → α) (r : Fin 20000) (j : Fin 64) :
    (cfg1.win 7).cut (grid1.coords t) P (ix2 r j) = P (ix2 r j) := rfl

/-- Block t of any contents of the output array, read at row r and channel j, is the contents at row
    t · 20000 + r and channel j. -/
theorem read_blk1_7_apply (t : Fin cfg1.N) (G : S2000000x64.Idx → Elt Ideal .f32) (r : Fin 20000) (j : Fin 64)
    (h : t.val * 20000 + r.val < 2000000) :
    ((cfg1.win 7).blk t).view.read (Elt Ideal) G (ix2 r j) = G (ix2 (⟨t.val * 20000 + r.val, h⟩ : Fin 2000000) j) := by
  have e0 : win1_7.index t (0 : Fin 2) = t.val := (idx_facts1 t).2.2.2.2.2.2.2.1.1
  have e1 : win1_7.index t (1 : Fin 2) = 0 := (idx_facts1 t).2.2.2.2.2.2.2.1.2
  rw [View.read_apply]
  show G _ = G _
  congr 1
  funext a
  apply Fin.ext
  match a with
  | ⟨0, _⟩ => show win1_7.index t 0 * 20000 + 1 * r.val = t.val * 20000 + r.val; rw [e0]; omega
  | ⟨1, _⟩ => show win1_7.index t 1 * 64 + 1 * j.val = j.val; rw [e1]; omega

/-- What point t writes back is block t of G1. -/
theorem flushed1_7_eq (c : Dev nD) (t : Fin cfg1.N) :
    (dat1 V c).flushed 7 t = ((cfg1.win 7).blk t).view.read (Elt Ideal) (G1 V c) := by
  have ht : t.val < 100 := lt100_1 t
  show (cfg1.win 7).cut (grid1.coords t) ((dat1 V c).after 7 t) = _
  rw [after1_7]
  unfold out1_7
  rw [View.canon_unit_zero hz2]
  simp only [View.ld_unit_zero (S := S20000x6) hz2, View.ld_unit_zero (S := S6x64) hz2, View.ld_unit_zero (S := S1x64) hz2]
  funext y
  obtain ⟨r, j, rfl⟩ : ∃ (r : Fin 20000) (j : Fin 64), y = ix2 r j := ⟨y 0, y 1, eq_ix2 y⟩
  refine (cut1_7_apply t _ r j).trans ?_
  refine Eq.trans ?_ (read_blk1_7_apply t (G1 V c) r j (Cert.Pillar.blk_lt ht r.isLt)).symm
  refine (out_point (iblk1 V c 0 t) (iblk1 V c 1 t) (iblk1 V c 2 t) (iblk1 V c 3 t) (iblk1 V c 4 t) (iblk1 V c 5 t) (iblk1 V c 6 t)
    (V c (Pipeline.arrRef spec1 0)) ⟨t.val * 20000 + r.val, Cert.Pillar.blk_lt ht r.isLt⟩ r j
    (fun k => iblk1_0_row V c t r k _)).trans ?_
  rw [iblk1_1_eq, iblk1_2_eq, iblk1_3_eq, iblk1_4_eq, iblk1_5_eq, iblk1_6_eq]
  rfl

/-! ## The blocks cover the array -/

/-- An index of the array is in point t's block iff each coordinate is in the block's range on its axis. -/
theorem mem_blk1_7 (t : Fin cfg1.N) (i : S2000000x64.Idx) :
    i ∈ ((cfg1.win 7).blk t).view.set
      ↔ ∀ a : Fin 2, win1_7.index t a * S20000x64.size a ≤ (i a).val ∧ (i a).val < win1_7.index t a * S20000x64.size a + S20000x64.size a := by
  show i ∈ ((View.whole main_v13).slice (win1_7.rect t)).set ↔ _
  rw [View.set_slice_whole, Rect.mem_set_unit]
  exact Iff.rfl

/-- Row n lies in the block of point n / 20000, and every point writes its block back. -/
theorem cover1_7_all (i : S2000000x64.Idx) :
    ∃ t : Fin cfg1.N, (cfg1.win 7).flush t = true ∧ i ∈ ((cfg1.win 7).blk t).view.set := by
  have hi0 : (i 0).val < 2000000 := (i 0).isLt
  have hi1 : (i 1).val < 64 := (i 1).isLt
  obtain ⟨t, ht⟩ : ∃ t : Fin cfg1.N, t.val = (i 0).val / 20000 :=
    ⟨⟨(i 0).val / 20000, Nat.lt_of_lt_of_eq (by omega : (i 0).val / 20000 < 100) N_1.symm⟩, rfl⟩
  have e0 : win1_7.index t (0 : Fin 2) = t.val := (idx_facts1 t).2.2.2.2.2.2.2.1.1
  have e1 : win1_7.index t (1 : Fin 2) = 0 := (idx_facts1 t).2.2.2.2.2.2.2.1.2
  refine ⟨t, flush1_7 t, ?_⟩
  rw [mem_blk1_7]
  intro a
  match a with
  | ⟨0, _⟩ =>
    show win1_7.index t 0 * 20000 ≤ (i 0).val ∧ (i 0).val < win1_7.index t 0 * 20000 + 20000
    rw [e0, ht]; omega
  | ⟨1, _⟩ =>
    show win1_7.index t 1 * 64 ≤ (i 1).val ∧ (i 1).val < win1_7.index t 1 * 64 + 64
    rw [e1]; omega

/-! ## The array after the run -/

/-- After the 100 points the output array holds G1. -/
theorem final1_7 (c : Dev nD) : (dat1 V c).arrAt 7 cfg1.N = G1 V c :=
  (dat1 V c).arrAt_eq_of_cover 7 (G1 V c) (fun t _ => flushed1_7_eq V c t) (cover1_7_all)

end Value

end Cert.KernelIdeal.Hand

end
-- ==== Proof.KIValue0.lean ====
/-
  The statistics kernel's region, read as values: what each kind of grid point leaves in the two running sums and in
  the two output blocks is the body's arithmetic applied to the point's input blocks and to the running sums the
  point before left; so the running sums after point `n` are the fold, over the points `0 … n`, of "add this block's
  column sums" (of the linear layer, and of its square) from zero; the last point copies them to the two output blocks,
  whose one block is the whole output array.
-/
import proofs.«164247_j79989470921164_2_alg».proof.Proof.KIRegion0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz00 : (![0, 0] : Fin 2 → Nat) = fun _ => 0 := funext fun a => by fin_cases a <;> rfl

/-! ## What each kind of point leaves -/

/-- A middle point leaves, in the two running sums, the body's two accumulated sums over what the point before left. -/
theorem soutB_eq (c : Dev nD) (t : Fin cfg0.N) (hc0 : ¬cond0_0 (grid0.coords t)) (hc1 : ¬cond0_1 (grid0.coords t))
    (x0 : Vec F S20000x6 .f32) (x1 : Vec F S6x64 .f32) (x2 : Vec F S1x64 .f32) (xs0 xs1 : Vec F S1x64 .f32) :
    soutB c t hc0 hc1 x0 x1 x2 xs0 xs1 = (k0_pay4 x0 x1 x2 xs0, k0_pay5 x0 x1 x2 xs1) := by
  unfold soutB
  rw [View.read_writes_eq_canon _ _ _ (scoverB_0 c t hc0 hc1 x0 x1 x2 xs0 xs1),
    View.read_writes_eq_canon _ _ _ (scoverB_1 c t hc0 hc1 x0 x1 x2 xs0 xs1)]
  unfold runB kernelRun0_B
  dsimp only
  rw [View.canon_unit_zero hz00, View.canon_unit_zero hz00]
  simp only [View.readAt_eq_ld, Memref.IsWhole.read_unread, View.ld_unit_zero (S := S20000x6) hz00,
    View.ld_unit_zero (S := S6x64) hz00, View.ld_unit_zero (S := S1x64) hz00]
  exact congrArg₂ Prod.mk
    (congrArg (k0_pay4 x0 x1 x2) ((Memref.isWhole_whole cc0_scratch0).read_unread xs0))
    (congrArg (k0_pay5 x0 x1 x2) ((Memref.isWhole_whole cc0_scratch1).read_unread xs1))

/-- The last point leaves the same two accumulated sums in the running sums … -/
theorem soutC_eq (c : Dev nD) (t : Fin cfg0.N) (hc0 : ¬cond0_0 (grid0.coords t)) (hc1 : cond0_1 (grid0.coords t))
    (x0 : Vec F S20000x6 .f32) (x1 : Vec F S6x64 .f32) (x2 : Vec F S1x64 .f32) (xs0 xs1 : Vec F S1x64 .f32) :
    soutC c t hc0 hc1 x0 x1 x2 xs0 xs1 = (k0_pay4 x0 x1 x2 xs0, k0_pay5 x0 x1 x2 xs1) := by
  unfold soutC
  rw [View.read_writes_eq_canon _ _ _ (scoverC_0 c t hc0 hc1 x0 x1 x2 xs0 xs1),
    View.read_writes_eq_canon _ _ _ (scoverC_1 c t hc0 hc1 x0 x1 x2 xs0 xs1)]
  unfold runC kernelRun0_C
  dsimp only
  sl_unfold_words
  rw [View.canon_unit_zero hz00, View.canon_unit_zero hz00]
  simp only [View.readAt_eq_ld, Memref.IsWhole.read_unread, View.ld_unit_zero (S := S20000x6) hz00,
    View.ld_unit_zero (S := S6x64) hz00, View.ld_unit_zero (S := S1x64) hz00]
  exact congrArg₂ Prod.mk
    (congrArg (k0_pay4 x0 x1 x2) ((Memref.isWhole_whole cc0_scratch0).read_unread xs0))
    (congrArg (k0_pay5 x0 x1 x2) ((Memref.isWhole_whole cc0_scratch1).read_unread xs1))

/-- … and copies them, as updated, to the two output blocks. -/
theorem outC_eq (c : Dev nD) (t : Fin cfg0.N) (hc0 : ¬cond0_0 (grid0.coords t)) (hc1 : cond0_1 (grid0.coords t))
    (x0 : Vec F S20000x6 .f32) (x1 : Vec F S6x64 .f32) (x2 : Vec F S1x64 .f32) (xs0 xs1 : Vec F S1x64 .f32) :
    outC c t hc0 hc1 x0 x1 x2 xs0 xs1 = (k0_pay4 x0 x1 x2 xs0, k0_pay5 x0 x1 x2 xs1) := by
  unfold outC
  rw [View.read_writes_eq_canon _ _ _ (coverC_3 c t hc0 hc1 x0 x1 x2 xs0 xs1),
    View.read_writes_eq_canon _ _ _ (coverC_4 c t hc0 hc1 x0 x1 x2 xs0 xs1)]
  unfold runC kernelRun0_C
  dsimp only
  sl_unfold_words
  rw [View.canon_unit_zero hz00, View.canon_unit_zero hz00,
    View.readCov_unit_zero (S := S1x64) _ hz00, View.readCov_unit_zero (S := S1x64) _ hz00]
  simp only [View.readAt_eq_ld, Memref.IsWhole.read_unread, View.ld_unit_zero (S := S20000x6) hz00,
    View.ld_unit_zero (S := S6x64) hz00, View.ld_unit_zero (S := S1x64) hz00]
  exact congrArg₂ Prod.mk
    (congrArg (k0_pay4 x0 x1 x2) ((Memref.isWhole_whole cc0_scratch0).read_unread xs0))
    (congrArg (k0_pay5 x0 x1 x2) ((Memref.isWhole_whole cc0_scratch1).read_unread xs1))

/-- The first point zeroes the two running sums and then accumulates: it leaves the body's sums over the zero block. -/
theorem soutA_eq (c : Dev nD) (t : Fin cfg0.N) (hc0 : cond0_0 (grid0.coords t)) (hc1 : ¬cond0_1 (grid0.coords t))
    (x0 : Vec F S20000x6 .f32) (x1 : Vec F S6x64 .f32) (x2 : Vec F S1x64 .f32) :
    soutA c t hc0 hc1 x0 x1 x2 = (k0_pay4 x0 x1 x2 k0_pay1, k0_pay5 x0 x1 x2 k0_pay2) := by
  unfold soutA
  rw [View.read_writes_eq_canon _ _ _ (scoverA_0 c t hc0 hc1 x0 x1 x2),
    View.read_writes_eq_canon _ _ _ (scoverA_1 c t hc0 hc1 x0 x1 x2)]
  unfold runA kernelRun0_A
  dsimp only
  sl_unfold_words
  rw [View.canon_cons_unit_zero (S := S1x64) hz00, View.canon_cons_unit_zero (S := S1x64) hz00,
    View.readCov_unit_zero (S := S1x64) _ hz00, View.readCov_unit_zero (S := S1x64) _ hz00]
  simp only [View.readAt_eq_ld, Memref.IsWhole.read_unread, View.ld_unit_zero (S := S20000x6) hz00,
    View.ld_unit_zero (S := S6x64) hz00, View.ld_unit_zero (S := S1x64) hz00]

/-! ## The running sums, point by point -/

variable (V : (c : Dev nD) → (b : Ref sig .tc) → Buf (Elt F) ((c : Thread nD τ).loc b))

/-- The two running sums after point `n`: at the first point the body's two sums over the zero blocks, at every later
    point the body's two sums over what the point before left — the fold, in point order, of "add this block's column
    sums of the linear layer" and of "add this block's column sums of its square". -/
def accS (c : Dev nD) : (n : ℕ) → n < cfg0.N → Vec F S1x64 .f32 × Vec F S1x64 .f32
  | 0, h => (k0_pay4 (iblk0 V c 0 ⟨0, h⟩) (iblk0 V c 1 ⟨0, h⟩) (iblk0 V c 2 ⟨0, h⟩) k0_pay1,
             k0_pay5 (iblk0 V c 0 ⟨0, h⟩) (iblk0 V c 1 ⟨0, h⟩) (iblk0 V c 2 ⟨0, h⟩) k0_pay2)
  | n + 1, h => (k0_pay4 (iblk0 V c 0 ⟨n + 1, h⟩) (iblk0 V c 1 ⟨n + 1, h⟩) (iblk0 V c 2 ⟨n + 1, h⟩) (accS c n (Nat.lt_of_succ_lt h)).1,
                 k0_pay5 (iblk0 V c 0 ⟨n + 1, h⟩) (iblk0 V c 1 ⟨n + 1, h⟩) (iblk0 V c 2 ⟨n + 1, h⟩) (accS c n (Nat.lt_of_succ_lt h)).2)

theorem accS_zero (c : Dev nD) (h : 0 < cfg0.N) :
    accS V c 0 h = (k0_pay4 (iblk0 V c 0 ⟨0, h⟩) (iblk0 V c 1 ⟨0, h⟩) (iblk0 V c 2 ⟨0, h⟩) k0_pay1,
                    k0_pay5 (iblk0 V c 0 ⟨0, h⟩) (iblk0 V c 1 ⟨0, h⟩) (iblk0 V c 2 ⟨0, h⟩) k0_pay2) := rfl
theorem accS_succ (c : Dev nD) (n : ℕ) (h : n + 1 < cfg0.N) :
    accS V c (n + 1) h
      = (k0_pay4 (iblk0 V c 0 ⟨n + 1, h⟩) (iblk0 V c 1 ⟨n + 1, h⟩) (iblk0 V c 2 ⟨n + 1, h⟩) (accS V c n (Nat.lt_of_succ_lt h)).1,
         k0_pay5 (iblk0 V c 0 ⟨n + 1, h⟩) (iblk0 V c 1 ⟨n + 1, h⟩) (iblk0 V c 2 ⟨n + 1, h⟩) (accS V c n (Nat.lt_of_succ_lt h)).2) := rfl

/-- What the two running sums hold after point `n` IS the fold — by induction on the point. -/
theorem outsAt0_snd (c : Dev nD) : ∀ (n : ℕ) (h : n < cfg0.N), (outsAt0 V c n h).2 = accS V c n h
  | 0, h => (congrArg Prod.snd (outsAt0_A V c ⟨0, h⟩ rfl (by show ¬(0 : ℕ) % 100 = 99; decide))).trans (soutA_eq ..)
  | n + 1, h => by
    have hN : cfg0.N = 100 := N_0
    have h0 : ¬(⟨n + 1, h⟩ : Fin cfg0.N).val % 100 = 0 := by dsimp only; omega
    have ih := outsAt0_snd c n (Nat.lt_of_succ_lt h)
    by_cases h1 : (⟨n + 1, h⟩ : Fin cfg0.N).val % 100 = 99
    · rw [outsAt0_C V c ⟨n + 1, h⟩ h0 h1]
      dsimp only
      rw [soutC_eq, accS_succ]
      show (k0_pay4 _ _ _ (outsAt0 V c n _).2.1, k0_pay5 _ _ _ (outsAt0 V c n _).2.2) = _
      rw [ih]
    · rw [outsAt0_B V c ⟨n + 1, h⟩ h0 h1]
      dsimp only
      rw [soutB_eq, accS_succ]
      show (k0_pay4 _ _ _ (outsAt0 V c n _).2.1, k0_pay5 _ _ _ (outsAt0 V c n _).2.2) = _
      rw [ih]

/-- At the last point the two output blocks receive the running sums as just updated. -/
theorem outsAt0_fst_last (c : Dev nD) (t : Fin cfg0.N) (h1 : t.val % 100 = 99) :
    (outsAt0 V c t.val t.isLt).1 = accS V c t.val t.isLt := by
  have hN : cfg0.N = 100 := N_0
  have h0 : ¬t.val % 100 = 0 := by omega
  rw [← outsAt0_snd V c t.val t.isLt, outsAt0_C V c t h0 h1]
  dsimp only
  rw [outC_eq, soutC_eq]

/-! ## The two output arrays after the region -/

/-- The last point. -/
abbrev t99 : Fin cfg0.N := ⟨99, by rw [show cfg0.N = 100 from N_0]; decide⟩

/-- The sums over all hundred blocks, as contents of the two output arrays (each array is its one block). -/
abbrev res3 (c : Dev nD) : Buf (Elt F) ((c : Thread nD τ).loc main_v4_0) := (accS V c 99 t99.isLt).1
abbrev res4 (c : Dev nD) : Buf (Elt F) ((c : Thread nD τ).loc main_v4_1) := (accS V c 99 t99.isLt).2

/-- The one write-back of the first output, at the last point, writes the first running sum. -/
theorem flushed0_3 (c : Dev nD) (t : Fin cfg0.N) (hf : (cfg0.win 3).flush t = true) :
    (dat0 V c).flushed 3 t = ((cfg0.win 3).blk t).view.read (Elt F) (res3 V c) := by
  have hN : cfg0.N = 100 := N_0
  have h99 : t.val = 99 := by have := (flush0_3 t).mp hf; have := t.isLt; omega
  obtain rfl : t = t99 := Fin.ext h99
  show (cfg0.win 3).cut (grid0.coords t99) ((dat0 V c).after 3 t99) = _
  rw [after0_3, outsAt0_fst_last V c t99 rfl]
  have hz' : (fun a => win0_3.index t99 a * main_v4_0.ty.shape.size a) = fun _ => 0 := funext fun a => by fin_cases a <;> decide
  exact (Memref.read_access_unit_zero (Elt F) main_v4_0 hz' (fun a => by rw [congrFun hz' a]; simp) (res3 V c)).symm

/-- The same for the second output and the second running sum. -/
theorem flushed0_4 (c : Dev nD) (t : Fin cfg0.N) (hf : (cfg0.win 4).flush t = true) :
    (dat0 V c).flushed 4 t = ((cfg0.win 4).blk t).view.read (Elt F) (res4 V c) := by
  have hN : cfg0.N = 100 := N_0
  have h99 : t.val = 99 := by have := (flush0_4 t).mp hf; have := t.isLt; omega
  obtain rfl : t = t99 := Fin.ext h99
  show (cfg0.win 4).cut (grid0.coords t99) ((dat0 V c).after 4 t99) = _
  rw [after0_4, outsAt0_fst_last V c t99 rfl]
  have hz' : (fun a => win0_4.index t99 a * main_v4_1.ty.shape.size a) = fun _ => 0 := funext fun a => by fin_cases a <;> decide
  exact (Memref.read_access_unit_zero (Elt F) main_v4_1 hz' (fun a => by rw [congrFun hz' a]; simp) (res4 V c)).symm

/-- So the first output array ends holding the first running sum after the last point: that point's block is the array. -/
theorem arr0_3 (c : Dev nD) : (dat0 V c).arrAt 3 cfg0.N = res3 V c :=
  (dat0 V c).arrAt_eq_of_cover 3 (res3 V c) (flushed0_3 V c) fun i =>
    ⟨t99, (flush0_3 t99).mpr rfl, by
      show i ∈ ((View.whole main_v4_0).slice (win0_3.rect t99)).set
      rw [View.set_slice_whole, Rect.mem_set_unit]
      intro a
      have h0 : (i 0 : Nat) < 1 := (i 0).isLt
      have h1 : (i 1 : Nat) < 64 := (i 1).isLt
      match a with
      | ⟨0, _⟩ => show win0_3.index t99 0 * win0_3.size 0 ≤ (i 0 : Nat) ∧ (i 0 : Nat) < win0_3.index t99 0 * win0_3.size 0 + win0_3.xsize (grid0.coords t99) 0
                  rw [show win0_3.index t99 0 * win0_3.size 0 = 0 from by decide +kernel, show win0_3.xsize (grid0.coords t99) 0 = 1 from by decide +kernel]; omega
      | ⟨1, _⟩ => show win0_3.index t99 1 * win0_3.size 1 ≤ (i 1 : Nat) ∧ (i 1 : Nat) < win0_3.index t99 1 * win0_3.size 1 + win0_3.xsize (grid0.coords t99) 1
                  rw [show win0_3.index t99 1 * win0_3.size 1 = 0 from by decide +kernel, show win0_3.xsize (grid0.coords t99) 1 = 64 from by decide +kernel]; omega⟩

/-- And the second output array the second running sum. -/
theorem arr0_4 (c : Dev nD) : (dat0 V c).arrAt 4 cfg0.N = res4 V c :=
  (dat0 V c).arrAt_eq_of_cover 4 (res4 V c) (flushed0_4 V c) fun i =>
    ⟨t99, (flush0_4 t99).mpr rfl, by
      show i ∈ ((View.whole main_v4_1).slice (win0_4.rect t99)).set
      rw [View.set_slice_whole, Rect.mem_set_unit]
      intro a
      have h0 : (i 0 : Nat) < 1 := (i 0).isLt
      have h1 : (i 1 : Nat) < 64 := (i 1).isLt
      match a with
      | ⟨0, _⟩ => show win0_4.index t99 0 * win0_4.size 0 ≤ (i 0 : Nat) ∧ (i 0 : Nat) < win0_4.index t99 0 * win0_4.size 0 + win0_4.xsize (grid0.coords t99) 0
                  rw [show win0_4.index t99 0 * win0_4.size 0 = 0 from by decide +kernel, show win0_4.xsize (grid0.coords t99) 0 = 1 from by decide +kernel]; omega
      | ⟨1, _⟩ => show win0_4.index t99 1 * win0_4.size 1 ≤ (i 1 : Nat) ∧ (i 1 : Nat) < win0_4.index t99 1 * win0_4.size 1 + win0_4.xsize (grid0.coords t99) 1
                  rw [show win0_4.index t99 1 * win0_4.size 1 = 0 from by decide +kernel, show win0_4.xsize (grid0.coords t99) 1 = 64 from by decide +kernel]; omega⟩

end Cert.KernelIdeal.Hand

end
-- ==== Proof.KIValue0Closed.lean ====
/-
  The statistics kernel's two output arrays in closed form, over the extended reals: channel `j` of the first is the
  sum over all 2 000 000 points of the linear layer at that point and channel, and of the second the sum of its square.
  Each point of the grid adds its block's column sums to the running sums, which start at zero; point `r` of block `t` is
  point `t · 20000 + r`; so after the hundredth block the running sums are the sums over all points. Only the
  commutativity and associativity of addition are used: no finiteness is needed here.
-/
import proofs.«164247_j79989470921164_2_alg».proof.Proof.KIValue0
import proofs.«164247_j79989470921164_2_alg».proof.Proof.KIBlocks
import proofs.«164247_j79989470921164_2_alg».proof.Proof.Payloads
import proofs.«164247_j79989470921164_2_alg».proof.Proof.Sums

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open scoped BigOperators

variable (V : (c : Dev nD) → (b : Ref sig .tc) → Buf (Elt Ideal) ((c : Thread nD τ).loc b))

/-- The three arrays the statistics kernel reads, as the region finds them: the point cloud [2000000, 6], the weight
    matrix laid out [6, 64], the bias as a row [1, 64]. -/
abbrev arrX (c : Dev nD) : S2000000x6.Idx → EReal := V c (Pipeline.arrRef spec0 0)
abbrev arrW (c : Dev nD) : S6x64.Idx → EReal := V c (Pipeline.arrRef spec0 1)
abbrev arrB (c : Dev nD) : S1x64.Idx → EReal := V c (Pipeline.arrRef spec0 2)

/-- The linear layer at point `n`, channel `j`, of those three arrays. -/
def linAt (c : Dev nD) (n : Fin 2000000) (j : Fin 64) : EReal :=
  (∑ k : Fin 6, arrX V c (ix2 n k) * arrW V c (ix2 k j)) + arrB V c (ix2 (0 : Fin 1) j)

/-- The body's linear layer on the blocks of point `t`, at row `r` and channel `j`, is the linear layer at point
    `r` of block `t`. -/
theorem pay3_blk (c : Dev nD) (t : Fin cfg0.N) (r : Fin 20000) (j : Fin 64) :
    k0_pay3 (F := Ideal) (iblk0 V c 0 t) (iblk0 V c 1 t) (iblk0 V c 2 t) (ix2 r j)
      = linAt V c (Cert.Pillar.blkPt ⟨t.val, lt100_0 t⟩ r) j := by
  rw [Cert.KernelIdeal.Pay.pay3_apply]
  unfold linAt arrX arrW arrB
  simp only [iblk0_0_blkPt V c t, iblk0_1_apply V c t, iblk0_2_apply V c t]

/-- The first running sum after point `n`, at channel `j`, as a sequence that starts at zero before the first point. -/
def seqS (c : Dev nD) (j : Fin 64) : ℕ → EReal
  | 0 => 0
  | n + 1 => if h : n < cfg0.N then (accS V c n h).1 (ix2 (0 : Fin 1) j) else 0
/-- The second running sum likewise. -/
def seqQ (c : Dev nD) (j : Fin 64) : ℕ → EReal
  | 0 => 0
  | n + 1 => if h : n < cfg0.N then (accS V c n h).2 (ix2 (0 : Fin 1) j) else 0

theorem seqS_succ (c : Dev nD) (j : Fin 64) (n : ℕ) (h : n < cfg0.N) :
    seqS V c j (n + 1) = (accS V c n h).1 (ix2 (0 : Fin 1) j) := dif_pos h
theorem seqQ_succ (c : Dev nD) (j : Fin 64) (n : ℕ) (h : n < cfg0.N) :
    seqQ V c j (n + 1) = (accS V c n h).2 (ix2 (0 : Fin 1) j) := dif_pos h

/-- Each point adds its block's column sum of the linear layer. -/
theorem seqS_step (c : Dev nD) (j : Fin 64) (t : ℕ) (ht : t < 100) :
    seqS V c j (t + 1) = seqS V c j t
      + ∑ r : Fin 20000, linAt V c ⟨t * 20000 + r.val, Cert.Pillar.blk_lt ht r.isLt⟩ j := by
  have hN : cfg0.N = 100 := N_0
  have h : t < cfg0.N := by omega
  rw [seqS_succ V c j t h]
  cases t with
  | zero =>
    rw [accS_zero]
    show k0_pay4 (F := Ideal) _ _ _ _ (ix2 (0 : Fin 1) j) = _
    rw [Cert.KernelIdeal.Pay.pay4_apply, Cert.KernelIdeal.Pay.pay1_zero_apply]
    refine congrArg₂ (· + ·) rfl (Finset.sum_congr rfl fun r _ => ?_)
    exact pay3_blk V c ⟨0, h⟩ r j
  | succ s =>
    rw [accS_succ]
    show k0_pay4 (F := Ideal) _ _ _ _ (ix2 (0 : Fin 1) j) = _
    rw [Cert.KernelIdeal.Pay.pay4_apply, seqS_succ V c j s (Nat.lt_of_succ_lt h)]
    refine congrArg₂ (· + ·) rfl (Finset.sum_congr rfl fun r _ => ?_)
    exact pay3_blk V c ⟨s + 1, h⟩ r j

/-- Each point adds its block's column sum of the squared linear layer. -/
theorem seqQ_step (c : Dev nD) (j : Fin 64) (t : ℕ) (ht : t < 100) :
    seqQ V c j (t + 1) = seqQ V c j t
      + ∑ r : Fin 20000, linAt V c ⟨t * 20000 + r.val, Cert.Pillar.blk_lt ht r.isLt⟩ j
          * linAt V c ⟨t * 20000 + r.val, Cert.Pillar.blk_lt ht r.isLt⟩ j := by
  have hN : cfg0.N = 100 := N_0
  have h : t < cfg0.N := by omega
  rw [seqQ_succ V c j t h]
  cases t with
  | zero =>
    rw [accS_zero]
    show k0_pay5 (F := Ideal) _ _ _ _ (ix2 (0 : Fin 1) j) = _
    rw [Cert.KernelIdeal.Pay.pay5_apply, Cert.KernelIdeal.Pay.pay2_zero_apply]
    refine congrArg₂ (· + ·) rfl (Finset.sum_congr rfl fun r _ => ?_)
    rw [pay3_blk V c ⟨0, h⟩ r j]; rfl
  | succ s =>
    rw [accS_succ]
    show k0_pay5 (F := Ideal) _ _ _ _ (ix2 (0 : Fin 1) j) = _
    rw [Cert.KernelIdeal.Pay.pay5_apply, seqQ_succ V c j s (Nat.lt_of_succ_lt h)]
    refine congrArg₂ (· + ·) rfl (Finset.sum_congr rfl fun r _ => ?_)
    rw [pay3_blk V c ⟨s + 1, h⟩ r j]; rfl

/-- The first output array, channel `j`: the sum over all points of the linear layer. -/
theorem res3_apply (c : Dev nD) (j : Fin 64) :
    (res3 V c : S1x64.Idx → EReal) (ix2 (0 : Fin 1) j) = ∑ n : Fin 2000000, linAt V c n j := by
  rw [← Cert.Pillar.acc_points (fun n => linAt V c n j) (seqS V c j) rfl (seqS_step V c j)]
  exact (seqS_succ V c j 99 t99.isLt).symm

/-- The second output array, channel `j`: the sum over all points of the squared linear layer. -/
theorem res4_apply (c : Dev nD) (j : Fin 64) :
    (res4 V c : S1x64.Idx → EReal) (ix2 (0 : Fin 1) j) = ∑ n : Fin 2000000, linAt V c n j * linAt V c n j := by
  rw [← Cert.Pillar.acc_points (fun n => linAt V c n j * linAt V c n j) (seqQ V c j) rfl (seqQ_step V c j)]
  exact (seqQ_succ V c j 99 t99.isLt).symm

/-- So after the region the two output arrays, as the pipeline's proof data names them, hold these sums. -/
theorem arr0_3_apply (c : Dev nD) (j : Fin 64) :
    ((dat0 V c).arrAt 3 cfg0.N : S1x64.Idx → EReal) (ix2 (0 : Fin 1) j) = ∑ n : Fin 2000000, linAt V c n j :=
  (congrFun (arr0_3 V c) _).trans (res3_apply V c j)
theorem arr0_4_apply (c : Dev nD) (j : Fin 64) :
    ((dat0 V c).arrAt 4 cfg0.N : S1x64.Idx → EReal) (ix2 (0 : Fin 1) j) = ∑ n : Fin 2000000, linAt V c n j * linAt V c n j :=
  (congrFun (arr0_4 V c) _).trans (res4_apply V c j)

end Cert.KernelIdeal.Hand

end
-- ==== Proof.KIFinal.lean ====
/-
  The two-pass program's feature array and result, in the specification's terms.

  The second pass leaves, at point `n` and channel `j`, the rectified feature of the arrays it reads. Read back to
  the launch memory those arrays are: the point cloud, the weight matrix transposed and the bias row, so its linear
  layer is the specification's `lin`; the scale and shift rows; the mean row, which is the first pass's row of sums
  of `lin` over the point count, the specification's `mean`; and the variance row, the first pass's row of sums of
  `lin²` over the point count less the squared mean, clamped at zero: the specification's moment-form `varM`. So the
  feature array is `outM` of the launch arguments, and the program's result is the shared tail of it.
-/
import proofs.«164247_j79989470921164_2_alg».proof.Proof.KIChain
import proofs.«164247_j79989470921164_2_alg».proof.Proof.KIValue1
import proofs.«164247_j79989470921164_2_alg».proof.Proof.KIValue0Closed

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open scoped BigOperators

/-! ## Two congruences over plain arrays -/

/-- A linear layer over arrays laid out as the passes read them (weights features-by-channels, bias a row) is the
    specification's over the arguments (weights channels-by-features, bias a vector). -/
theorem lin_congr (X' : S2000000x6.Idx → EReal) (W' : S6x64.Idx → EReal) (b' : S1x64.Idx → EReal)
    (X : (⟨2, ![2000000, 6]⟩ : Shape).Idx → EReal) (W : (⟨2, ![64, 6]⟩ : Shape).Idx → EReal)
    (b : (⟨1, ![64]⟩ : Shape).Idx → EReal) (n : Fin 2000000) (j : Fin 64)
    (hX : X' = X) (hW : ∀ k : Fin 6, W' (ix2 k j) = W (ix2 j k)) (hb : b' (ix2 (0 : Fin 1) j) = b (ix1 j)) :
    (∑ k : Fin 6, X' (ix2 n k) * W' (ix2 k j)) + b' (ix2 (0 : Fin 1) j) = Cert.Pillar.lin X W b n j := by
  subst hX
  unfold Cert.Pillar.lin
  rw [hb]
  exact congrArg (· + _) (Finset.sum_congr rfl fun k _ => by rw [hW k])

/-- The moment form of the variance from a sum `s` and a sum of squares `q`. -/
theorem varM_congr (h : Fin 2000000 → Fin 64 → EReal) (j : Fin 64) (s q : EReal)
    (hs : s = ∑ n : Fin 2000000, h n j) (hq : q = ∑ n : Fin 2000000, h n j * h n j) :
    max (Ideal.div q Cert.Pillar.nPts - Ideal.div s Cert.Pillar.nPts * Ideal.div s Cert.Pillar.nPts) 0
      = Cert.Pillar.varM h j := by
  unfold Cert.Pillar.varM Cert.Pillar.mean
  rw [hs, hq]

/-! ## The feature -/

/-- The second pass's feature over arrays laid out as it reads them is the specification's normalised feature, once
    its linear layer, mean, variance, scale and shift are identified. -/
theorem feat_eq_norm (X' : S2000000x6.Idx → EReal) (W' : S6x64.Idx → EReal) (b' γ' β' μ' v' : S1x64.Idx → EReal)
    (h : Fin 2000000 → Fin 64 → EReal) (μ v : Fin 64 → EReal) (γ β : (⟨1, ![64]⟩ : Shape).Idx → EReal)
    (n : Fin 2000000) (j : Fin 64)
    (hlin : (∑ k : Fin 6, X' (ix2 n k) * W' (ix2 k j)) + b' (ix2 (0 : Fin 1) j) = h n j)
    (hμ : μ' (ix2 (0 : Fin 1) j) = μ j) (hv : v' (ix2 (0 : Fin 1) j) = v j)
    (hγ : γ' (ix2 (0 : Fin 1) j) = γ (ix1 j)) (hβ : β' (ix2 (0 : Fin 1) j) = β (ix1 j)) :
    feat X' W' b' γ' β' μ' v' n j = Cert.Pillar.norm h μ v γ β n j := by
  unfold feat Cert.Pillar.norm
  rw [hlin, hμ, hv, hγ, hβ]
  rfl

variable (m : (ℓ : Loc nD τ sig) → Buf (Elt Ideal) ℓ) (c : Dev nD)

/-! ## The linear layer, the mean row and the variance row -/

/-- The specification's linear layer of the launch arguments. -/
abbrev linM : Fin 2000000 → Fin 64 → EReal :=
  Cert.Pillar.lin (m ((c : Thread nD τ).loc main_arg0)) (m ((c : Thread nD τ).loc main_arg2))
    (m ((c : Thread nD τ).loc main_arg3))

/-- The first pass's linear layer, of the arrays it reads, is the specification's. -/
theorem linAt_eq (n : Fin 2000000) (j : Fin 64) : linAt (V1 m) c n j = linM m c n j :=
  lin_congr (arrX (V1 m) c) (arrW (V1 m) c) (arrB (V1 m) c) _ _ _ n j
    (V1_main_arg0 m c) (fun k => V1_main_v0 m c k j) (V1_main_v1 m c j)

/-- The first pass's two output rows: the sums and the sums of squares. -/
abbrev sumRow : S1x64.Idx → EReal := (dat0 (V1 m) c).arrAt 3 cfg0.N
abbrev sqRow : S1x64.Idx → EReal := (dat0 (V1 m) c).arrAt 4 cfg0.N

/-- The first pass's row of sums, channel `j`: the sum of the specification's linear layer over all points. -/
theorem sum_row (j : Fin 64) : sumRow m c (ix2 (0 : Fin 1) j) = ∑ n : Fin 2000000, linM m c n j := by
  have h : sumRow m c (ix2 (0 : Fin 1) j) = ∑ n : Fin 2000000, linAt (V1 m) c n j := arr0_3_apply (V1 m) c j
  rw [h]
  exact Finset.sum_congr rfl fun n _ => linAt_eq m c n j

/-- The first pass's row of sums of squares, channel `j`. -/
theorem sq_row (j : Fin 64) :
    sqRow m c (ix2 (0 : Fin 1) j) = ∑ n : Fin 2000000, linM m c n j * linM m c n j := by
  have h : sqRow m c (ix2 (0 : Fin 1) j) = ∑ n : Fin 2000000, linAt (V1 m) c n j * linAt (V1 m) c n j :=
    arr0_4_apply (V1 m) c j
  rw [h]
  exact Finset.sum_congr rfl fun n _ => by rw [linAt_eq m c n j]

/-- The mean row is the specification's batch mean. -/
theorem mean_row (j : Fin 64) :
    (V3 m c main_v6 (ix2 (0 : Fin 1) j) : EReal) = Cert.Pillar.mean (linM m c) j :=
  (V3_main_v6 m c j).trans (congrArg (fun s : EReal => Ideal.div s Cert.Pillar.nPts) (sum_row m c j))

/-- The variance row is the specification's moment-form variance. -/
theorem var_row (j : Fin 64) :
    (V3 m c main_v12 (ix2 (0 : Fin 1) j) : EReal) = Cert.Pillar.varM (linM m c) j :=
  (V3_main_v12 m c j).trans (varM_congr (linM m c) j _ _ (sum_row m c j) (sq_row m c j))

/-! ## The feature array and the result -/

/-- The feature array the second pass leaves is the specification's, with the moment-form variance. -/
theorem feature_eq :
    (dat1 (V3 m) c).arrAt 7 cfg1.N
      = Cert.Pillar.outM (m ((c : Thread nD τ).loc main_arg0)) (m ((c : Thread nD τ).loc main_arg2))
          (m ((c : Thread nD τ).loc main_arg3)) (m ((c : Thread nD τ).loc main_arg4))
          (m ((c : Thread nD τ).loc main_arg5)) := by
  refine (final1_7 (V3 m) c).trans (funext fun i => ?_)
  obtain ⟨n, j, rfl⟩ : ∃ (n : Fin 2000000) (j : Fin 64), i = ix2 n j := ⟨i 0, i 1, eq_ix2 i⟩
  refine (G1_ix2 (V3 m) c n j).trans ?_
  exact feat_eq_norm (V3 m c main_arg0) (V3 m c main_v0) (V3 m c main_v1) (V3 m c main_v2) (V3 m c main_v3)
    (V3 m c main_v6) (V3 m c main_v12) (linM m c) (Cert.Pillar.mean (linM m c)) (Cert.Pillar.varM (linM m c))
    (m ((c : Thread nD τ).loc main_arg4)) (m ((c : Thread nD τ).loc main_arg5)) n j
    (lin_congr (V3 m c main_arg0) (V3 m c main_v0) (V3 m c main_v1) _ _ _ n j
      (V3_main_arg0 m c) (fun k => V3_main_v0 m c k j) (V3_main_v1 m c j))
    (mean_row m c j) (var_row m c j) (V3_main_v2 m c j) (V3_main_v3 m c j)

/-- The program's result: the shared tail of the integer argument and the specification's feature array with the
    moment-form variance. -/
theorem result_eq :
    W5 m c main_v32
      = Cert.ReferenceIdeal.RefValue.tail (m ((c : Thread nD τ).loc main_arg1))
          (Cert.Pillar.outM (m ((c : Thread nD τ).loc main_arg0)) (m ((c : Thread nD τ).loc main_arg2))
            (m ((c : Thread nD τ).loc main_arg3)) (m ((c : Thread nD τ).loc main_arg4))
            (m ((c : Thread nD τ).loc main_arg5))) :=
  (W5_main_v32 m c).trans (congrArg (Cert.ReferenceIdeal.RefValue.tail (m ((c : Thread nD τ).loc main_arg1))) (feature_eq m c))

end Cert.KernelIdeal.Hand

end
-- ==== Proof.Algebra.lean ====
/-
  The algebra of the two variance forms over the extended reals.

  For a real-valued array `h` (every entry the coercion of a real) and `N = 2·10⁶` points, with `μ = (∑ h)/N`:
  `∑ (h − μ)² = ∑ h² − N μ²`, hence `(∑ (h − μ)²)/N = (∑ h²)/N − μ²`; the left side is a sum of squares over a
  positive `N`, so it is non-negative and the clamp `max · 0` of the moment form is the identity.  So the moment
  variance equals the centred variance, and the two feature arrays are equal.
-/
import proofs.«164247_j79989470921164_2_alg».proof.Proof.Spec
import Mathlib.Data.EReal.Inv
import Mathlib.Tactic

noncomputable section

open scoped BigOperators

namespace Cert.Pillar

open Idealize.ShloMosaic Idealize.ShloMosaic.ValueIdx

/-- A finite sum of coerced reals is the coercion of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The word `0x49F42400` is `2.0e6` exactly: exponent field `147`, significand `2²³ + 7611392 = 16·10⁶`, scale `2⁻³`. -/
theorem nPts_eq : nPts = ((2000000 : ℝ) : EReal) := by
  unfold nPts
  simp [Ideal.ofBits, Ideal.ieee]
  rw [← EReal.coe_mul]
  norm_num

/-- The variance identity in the reals, over any finite index type of positive cardinality `N`. -/
theorem real_var_identity {ι : Type*} [Fintype ι] (f : ι → ℝ) (N : ℝ) (hN : (Fintype.card ι : ℝ) = N) (hpos : 0 < N) :
    (∑ n, (f n - (∑ m, f m) / N) * (f n - (∑ m, f m) / N)) / N
      = (∑ n, f n * f n) / N - ((∑ m, f m) / N) * ((∑ m, f m) / N) := by
  set μ : ℝ := (∑ m, f m) / N with hμ
  have hS : (∑ m, f m) = μ * N := by rw [hμ]; field_simp
  have h1 : (∑ n, (f n - μ) * (f n - μ)) = (∑ n, f n * f n) - 2 * μ * (∑ n, f n) + N * (μ * μ) := by
    have e : ∀ n, (f n - μ) * (f n - μ) = f n * f n - 2 * μ * f n + μ * μ := fun n => by ring
    rw [Finset.sum_congr rfl fun n _ => e n, Finset.sum_add_distrib, Finset.sum_sub_distrib, ← Finset.mul_sum,
      Finset.sum_const, Finset.card_univ, nsmul_eq_mul, hN]
  rw [h1, hS]
  field_simp
  ring

/-- The centred variance of a real array is non-negative. -/
theorem real_var_nonneg {ι : Type*} [Fintype ι] (f : ι → ℝ) (μ N : ℝ) (hpos : 0 < N) :
    0 ≤ (∑ n, (f n - μ) * (f n - μ)) / N :=
  div_nonneg (Finset.sum_nonneg fun n _ => mul_self_nonneg _) hpos.le

/-- The linear layer of real inputs is real. -/
theorem lin_real (X : (⟨2, ![2000000, 6]⟩ : Shape).Idx → EReal) (W : (⟨2, ![64, 6]⟩ : Shape).Idx → EReal)
    (b : (⟨1, ![64]⟩ : Shape).Idx → EReal)
    (hX : ∀ i, ∃ r : ℝ, X i = (r : EReal)) (hW : ∀ i, ∃ r : ℝ, W i = (r : EReal)) (hb : ∀ i, ∃ r : ℝ, b i = (r : EReal)) :
    ∀ n j, ∃ r : ℝ, lin X W b n j = (r : EReal) := by
  intro n j
  choose x hx using hX
  choose w hw using hW
  choose c hc using hb
  refine ⟨(∑ k : Fin 6, x (ix2 n k) * w (ix2 j k)) + c (ix1 j), ?_⟩
  unfold lin
  rw [EReal.coe_add, ← coe_sum, hc]
  congr 1
  exact Finset.sum_congr rfl fun k _ => by rw [hx, hw, EReal.coe_mul]

/-- The batch mean of a real array, as a real. -/
theorem mean_coe (h : Fin 2000000 → Fin 64 → EReal) (f : Fin 2000000 → Fin 64 → ℝ) (hf : ∀ n j, h n j = (f n j : EReal))
    (j : Fin 64) : mean h j = (((∑ n, f n j) / 2000000 : ℝ) : EReal) := by
  unfold mean
  rw [nPts_eq, Ideal.div_coe (by norm_num), Finset.sum_congr rfl fun n _ => hf n j, coe_sum, ← EReal.coe_mul]
  congr 1
  ring

/-- The moment variance of a real array equals its centred variance. -/
theorem varM_eq_varC (h : Fin 2000000 → Fin 64 → EReal) (hh : ∀ n j, ∃ r : ℝ, h n j = (r : EReal)) (j : Fin 64) :
    varM h j = varC h j := by
  choose f hf using hh
  have hcard : ((Fintype.card (Fin 2000000) : ℕ) : ℝ) = 2000000 := by rw [Fintype.card_fin]; norm_num
  have hpos : (0 : ℝ) < 2000000 := by norm_num
  have hC : varC h j
      = (((∑ n, (f n j - (∑ m, f m j) / 2000000) * (f n j - (∑ m, f m j) / 2000000)) / 2000000 : ℝ) : EReal) := by
    unfold varC
    rw [mean_coe h f hf j, nPts_eq, Ideal.div_coe (by norm_num),
      Finset.sum_congr rfl fun n _ => by rw [hf n j, ← EReal.coe_sub, ← EReal.coe_mul],
      coe_sum, ← EReal.coe_mul]
    congr 1
    ring
  have hM : varM h j
      = max ((((∑ n, f n j * f n j) / 2000000 - ((∑ m, f m j) / 2000000) * ((∑ m, f m j) / 2000000) : ℝ)) : EReal) 0 := by
    unfold varM
    rw [mean_coe h f hf j, nPts_eq, Ideal.div_coe (by norm_num),
      Finset.sum_congr rfl fun n _ => by rw [hf n j, ← EReal.coe_mul],
      coe_sum, ← EReal.coe_mul, ← EReal.coe_mul, ← EReal.coe_sub]
    congr 2
    ring
  rw [hC, hM, ← real_var_identity (fun n => f n j) 2000000 hcard hpos]
  exact max_eq_left (by exact_mod_cast real_var_nonneg (fun n => f n j) _ 2000000 hpos)

/-- With real inputs the two feature arrays are equal (the scale `γ` and shift `β` are arbitrary, possibly infinite:
    both sides are the same expression of them). -/
theorem outM_eq_outC (X : (⟨2, ![2000000, 6]⟩ : Shape).Idx → EReal) (W : (⟨2, ![64, 6]⟩ : Shape).Idx → EReal)
    (b γ β : (⟨1, ![64]⟩ : Shape).Idx → EReal)
    (hX : ∀ i, ∃ r : ℝ, X i = (r : EReal)) (hW : ∀ i, ∃ r : ℝ, W i = (r : EReal)) (hb : ∀ i, ∃ r : ℝ, b i = (r : EReal)) :
    outM X W b γ β = outC X W b γ β := by
  have hv : varM (lin X W b) = varC (lin X W b) := funext (varM_eq_varC (lin X W b) (lin_real X W b hX hW hb))
  unfold outM outC
  rw [hv]

end Cert.Pillar

end
-- ==== Proof.Finite.lean ====
/-
  From the precondition to real entries.

  The precondition is the conjunction of five tests `all (|x| < +∞)`, one per float argument.  A conjunction of bits
  that is one has every conjunct one; an `all` that is one has every element one; and an extended real `x` with
  `max x (−x) < ⊤` is neither `⊥` nor `⊤`, hence the coercion of a real.  So under the precondition every entry of the
  point array, of the weight matrix and of the bias is a real.
-/
import proofs.«164247_j79989470921164_2_alg».proof.Defs
import proofs.«164247_j79989470921164_2_alg».proof.Proof.Gen.Pre_finite_inputs
import Idealize.ShloMosaic.Lib.ReduceAll
import Idealize.ShloMosaic.Lib.ValueIdx
import Idealize.ShloMosaic.PureOps.Ideal.Laws

noncomputable section

namespace Cert.Pillar.Finite

open Idealize.ShloMosaic Idealize.ShloMosaic.ValueIdx Idealize.SL.Sem

/-- The rank-0 shape has at most one index. -/
instance subsingleton_scalar_idx : Subsingleton Cert.Pre_finite_inputs.S_.Idx := ⟨fun _ _ => funext fun d => d.elim0⟩

/-- The word `0x7F800000` is `+∞`: all-ones exponent, zero significand, sign clear. -/
theorem inf_word : Ideal.ofBits .f32 0x7F800000#32 = (⊤ : EReal) := by
  simp [Ideal.ofBits, Ideal.ieee]

/-- An extended real whose absolute value is below `+∞` is a real. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | top => simp [Ideal.cmp] at h
  | coe r => exact ⟨r, rfl⟩

/-- One `all (|x| < +∞)` test that came out one: every entry of `x` is a real. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x) (broadcastInDim s ![] hb (constant (F := Ideal) Cert.Pre_finite_inputs.S_ .f32 0x7F800000#32)))
          init hr hu ix0 = 1#1) :
    ∀ i, ∃ r : ℝ, x i = (r : EReal) := fun i =>
  real_of_abs_lt_inf (x i) (Host.reduce_andi_all _ init hr hu ix0 e i)

/-- Under the precondition, on every core, the point array, the weight matrix and the bias have real entries. -/
theorem args_real [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h := congrFun (hpre c) ix0
  dsimp only [Cert.Pre_finite_inputs.fn, Cert.Pre_finite_inputs.fn_part1] at h
  obtain ⟨h18, h22⟩ := IntOp.andi_eq_one.1 h
  obtain ⟨h13, h17⟩ := IntOp.andi_eq_one.1 h18
  obtain ⟨h8, h12⟩ := IntOp.andi_eq_one.1 h13
  obtain ⟨h3, h7⟩ := IntOp.andi_eq_one.1 h8
  exact ⟨real_of_all _ _ _ _ _ h3, real_of_all _ _ _ _ _ h7, real_of_all _ _ _ _ _ h12⟩

end Cert.Pillar.Finite

end
-- ==== Proof.lean ====
/-
  The pillar feature net: a linear layer on 2 000 000 six-feature points, batch normalisation over the points,
  a rectifier, and a scatter-add of the 64-channel features into a 512 × 512 grid of pillars.

  The kernel program computes the batch statistics in one pass over 100 blocks of 20 000 points (running sums of the
  linear layer and of its square, zeroed at the first block and copied out at the last), forms the mean and the
  variance E[h²] − E[h]² clamped at zero on the host, and normalises in a second pass over the same blocks; the
  reference computes the variance as the mean of the squared deviations. Over the extended reals, with finite inputs,
  the two variances are one number — the mean of squared deviations is the mean of squares less the squared mean, and
  is never negative, so the clamp is the identity — and everything else the two programs do is the same function of
  the arguments, the scatter included. Hence equal results, index by index.

  The three frames: each program terminates, faults nowhere and leaves its arguments as launched — for the kernel
  program (at the word-level and at the ideal instance) by running its five segments in order, each kernel's region
  entered from and left at named buffer contents; for the reference by its run. The idealised kernel program is the
  kernel program's own text read at the ideal instance: nothing to preserve.
-/
import proofs.«164247_j79989470921164_2_alg».proof.Defs
import proofs.«164247_j79989470921164_2_alg».proof.Proof.Gen.Kernel
import proofs.«164247_j79989470921164_2_alg».proof.Proof.Gen.KernelIdeal
import proofs.«164247_j79989470921164_2_alg».proof.Proof.Gen.ReferenceIdeal
import proofs.«164247_j79989470921164_2_alg».proof.Proof.Gen.Pre_finite_inputs
import proofs.«164247_j79989470921164_2_alg».proof.Proof.KArgs
import proofs.«164247_j79989470921164_2_alg».proof.Proof.KIArgs
import proofs.«164247_j79989470921164_2_alg».proof.Proof.KIFinal
import proofs.«164247_j79989470921164_2_alg».proof.Proof.RefValue
import proofs.«164247_j79989470921164_2_alg».proof.Proof.Algebra
import proofs.«164247_j79989470921164_2_alg».proof.Proof.Finite
import Idealize.ShloMosaic.Adequacy
import Idealize.ShloMosaic.Init

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts] [hPre : Cert.Pre_finite_inputs.Facts]

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m g _ => Cert.ReferenceIdeal.RefValue.frame m g

/-- Both programs end with the pillar grid at the shared scatter of one feature array: the kernel's with the moment
    variance, the reference's with the centred variance — equal, the inputs being finite. -/
theorem algebraic : Cert.algebraic_KernelIdeal_ReferenceIdeal := by
  intro m ρ m' ρ' hpre hagree
  refine ⟨fun c => Cert.KernelIdeal.Hand.W5 m c Cert.KernelIdeal.main_v32, Cert.KernelIdeal.Hand.run_val m ρ, ?_⟩
  refine (θ_run Cert.ReferenceIdeal.defs _ _).mono (fun _ h c => ⟨(h c).1.trans ?_, (h c).2⟩)
    (Cert.ReferenceIdeal.RefValue.run m' ρ')
  obtain ⟨a0, a1, a2, a3, a4, a5⟩ := hagree c
  obtain ⟨h0, h2, h3⟩ := Cert.Pillar.Finite.args_real m hpre c
  rw [a0, a1, a2, a3, a4, a5, ← Cert.Pillar.outM_eq_outC _ _ _ _ _ h0 h2 h3]
  exact (Cert.KernelIdeal.Hand.result_eq m c).symm

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
